-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 106
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x40, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x40, .f32⟩
  | .hbm, ⟨96, _⟩ => ⟨S1700000x1, .f32⟩
  | .hbm, ⟨97, _⟩ => ⟨S1700000x40, .f32⟩
  | .hbm, ⟨98, _⟩ => ⟨S1700000x40, .f32⟩
  | .hbm, ⟨99, _⟩ => ⟨S_, .f32⟩
  | .hbm, ⟨100, _⟩ => ⟨S100000x40, .f32⟩
  | .hbm, ⟨101, _⟩ => ⟨S1700000x1, .i32⟩
  | .hbm, ⟨102, _⟩ => ⟨S100000x40, .f32⟩
  | .hbm, ⟨103, _⟩ => ⟨S1x40, .f32⟩
  | .hbm, ⟨104, _⟩ => ⟨S100000x40, .f32⟩
  | .hbm, ⟨105, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x40, .f32⟩
  | .local _ .vmem, ⟨23, _⟩ => ⟨S10000x40, .f32⟩
  | .local _ .vmem, ⟨24, _⟩ => ⟨S10000x40, .f32⟩
  | .local _ .vmem, ⟨25, _⟩ => ⟨S10000x40, .f32⟩
  | .local _ .vmem, ⟨26, _⟩ => ⟨S10000x40, .f32⟩
  | .local _ .vmem, ⟨27, _⟩ => ⟨S1x40, .f32⟩
  | .local _ .vmem, ⟨28, _⟩ => ⟨S10000x40, .f32⟩
  | .local _ .vmem, ⟨29, _⟩ => ⟨S10000x40, .f32⟩
  | .local _ .vmem, ⟨30, _⟩ => ⟨S10000x40, .f32⟩
  | .local _ .vmem, ⟨31, _⟩ => ⟨S10000x40, .f32⟩
  | .local _ .vmem, ⟨32, _⟩ => ⟨S10000x40, .f32⟩
  | .local _ .vmem, ⟨33, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x40 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x40 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x40_S10000x40_1_0_0_1_n_n_wf : DotDims.WF S10000x128 S128x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x40.size a ≤ S100000x40.size a
  hwx4_2 : ∀ i : grid4.Coords, EltTy.bits .f32 = 32 ∨ (Rect.block (s := S100000x40) S10000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S100000x40.size a
  hwx5_0 : ∀ i : grid5.Coords, EltTy.bits .f32 = 32 ∨ (Rect.block (s := S100000x40) S10000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S100000x40.size a
  hwx5_2 : ∀ i : grid5.Coords, EltTy.bits .f32 = 32 ∨ (Rect.block (s := S100000x40) S10000x40.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x40.size a ≤ S100000x40.size a
  hwx6_0 : ∀ i : grid6.Coords, EltTy.bits .f32 = 32 ∨ (Rect.block (s := S100000x40) S10000x40.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x40.size a ≤ S100000x40.size a
  hwx6_1 : ∀ i : grid6.Coords, EltTy.bits .f32 = 32 ∨ (Rect.block (s := S100000x40) S10000x40.size (cc6_transform_1 i) (hinb6_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S10000x40.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S10000x40.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x128, .f32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x128, .f32⟩
  | 114 => ⟨S1700000x1, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x40, .f32⟩
  | _ => ⟨S100000x128, .f32⟩

abbrev hbmTy0_1 (i : Nat) : BufTy := match i % 128 with
  | 0 => ⟨S_, .f32⟩
  | 1 => ⟨S1700000, .f32⟩
  | 2 => ⟨S_, .f32⟩
  | 3 => ⟨S100000, .f32⟩
  | 4 => ⟨S1700000x1, .i32⟩
  | 5 => ⟨S100000, .f32⟩
  | 6 => ⟨S_, .f32⟩
  | 7 => ⟨S100000, .f32⟩
  | 8 => ⟨S100000, .i1⟩
  | 9 => ⟨S100000, .f32⟩
  | 10 => ⟨S_, .f32⟩
  | 11 => ⟨S_, .f32⟩
  | 12 => ⟨S100000, .f32⟩
  | 13 => ⟨S100000, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000, .f32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x40, .f32⟩
  | 42 => ⟨S1700000x1, .f32⟩
  | 43 => ⟨S1700000x40, .f32⟩
  | 44 => ⟨S1700000x40, .f32⟩
  | 45 => ⟨S_, .f32⟩
  | 46 => ⟨S100000x40, .f32⟩
  | 47 => ⟨S1700000x1, .i32⟩
  | 48 => ⟨S100000x40, .f32⟩
  | 49 => ⟨S1x40, .f32⟩
  | 50 => ⟨S100000x40, .f32⟩
  | 51 => ⟨S100000x40, .f32⟩
  | 52 => ⟨S_, .f32⟩
  | 53 => ⟨S100000x40, .f32⟩
  | 54 => ⟨S100000x40, .f32⟩
  | 55 => ⟨S_, .f32⟩
  | 56 => ⟨S100000, .f32⟩
  | 57 => ⟨S_, .f32⟩
  | 58 => ⟨S100000, .f32⟩
  | 59 => ⟨S100000, .f32⟩
  | 60 => ⟨S100000x1, .f32⟩
  | 61 => ⟨S100000x40, .f32⟩
  | 62 => ⟨S100000x40, .f32⟩
  | 63 => ⟨S100000x40, .f32⟩
  | 64 => ⟨S_, .f32⟩
  | 65 => ⟨S100000, .f32⟩
  | 66 => ⟨S100000x1, .f32⟩
  | 67 => ⟨S100000x1, .f32⟩
  | 68 => ⟨S100000x40, .f32⟩
  | 69 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_cst_20 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_22 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_23 : Ref sig .tc := ⟨.hbm, 138, rfl⟩
abbrev main_call4_v0 : Ref sig .tc := ⟨.hbm, 139, rfl⟩
abbrev main_call4_v1 : Ref sig .tc := ⟨.hbm, 140, rfl⟩
abbrev main_v97 : Ref sig .tc := ⟨.hbm, 141, rfl⟩
abbrev main_c_24 : Ref sig .tc := ⟨.hbm, 142, rfl⟩
abbrev main_v98 : Ref sig .tc := ⟨.hbm, 143, rfl⟩
abbrev main_v99 : Ref sig .tc := ⟨.hbm, 144, rfl⟩
abbrev main_c_25 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_26 : Ref sig .tc := ⟨.hbm, 151, rfl⟩
abbrev main_v105 : Ref sig .tc := ⟨.hbm, 152, rfl⟩
abbrev main_v106 : Ref sig .tc := ⟨.hbm, 153, rfl⟩
abbrev main_c_27 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_28 : Ref sig .tc := ⟨.hbm, 161, rfl⟩
abbrev main_v113 : Ref sig .tc := ⟨.hbm, 162, rfl⟩
abbrev main_v114 : Ref sig .tc := ⟨.hbm, 163, rfl⟩
abbrev main_c_29 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_30 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_call5_cst : Ref sig .tc := ⟨.hbm, 180, rfl⟩
abbrev main_call5_v0 : Ref sig .tc := ⟨.hbm, 181, rfl⟩
abbrev main_v129 : Ref sig .tc := ⟨.hbm, 182, rfl⟩
abbrev main_call6_cst : Ref sig .tc := ⟨.hbm, 183, rfl⟩
abbrev main_call6_v0 : Ref sig .tc := ⟨.hbm, 184, rfl⟩
abbrev main_call6_cst_0 : Ref sig .tc := ⟨.hbm, 185, rfl⟩
abbrev main_call6_v1 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_call6_v5 : Ref sig .tc := ⟨.hbm, 190, rfl⟩
abbrev main_call6_v6 : Ref sig .tc := ⟨.hbm, 191, rfl⟩
abbrev main_call6_cst_1 : Ref sig .tc := ⟨.hbm, 192, rfl⟩
abbrev main_call6_v7 : Ref sig .tc := ⟨.hbm, 193, rfl⟩
abbrev main_call6_v8 : Ref sig .tc := ⟨.hbm, 194, rfl⟩
abbrev main_call6_v9 : Ref sig .tc := ⟨.hbm, 195, rfl⟩
abbrev main_call6_v10 : Ref sig .tc := ⟨.hbm, 196, rfl⟩
abbrev main_v130 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.RefStretches.lean ====
/-
  The reference's @main is 190 host operations in a line. Here the line is cut into 17 consecutive stretches, so that
  every outlined function's body (the select of `jnp.where`, a ReLU, the log-softmax) is a stretch of its own and every
  other stretch is plain operations on whole arrays:
  1a. operations 1 … 8: the edge lists with the self loops appended, and the first dense product;
  1b. operations 9 … 19: the node degrees, their compare against zero and their inverse square roots;
  1c. operations 20 … 22: the outlined select: the per-node factor;
  1d. operations 23 … 41: the normalisation coefficients;
  2a. operations 42 … 60: the first layer's aggregation and bias;
  2b. operations 61 … 63: the first layer's ReLU;
  3a. operations 64 … 75: the second dense product, and the degrees' compare and inverse square roots again;
  3b. operations 76 … 78: the outlined select again;
  3c. operations 79 … 97: the normalisation coefficients again;
  4a. operations 98 … 116: the second layer's aggregation and bias;
  4b. operations 117 … 119: the second layer's ReLU;
  5a. operations 120 … 131: the third dense product, and the degrees' compare and inverse square roots once more;
  5b. operations 132 … 134: the outlined select once more;
  5c. operations 135 … 153: the normalisation coefficients once more;
  6a. operations 154 … 172: the third layer's aggregation and bias;
  6b. operations 173 … 175: the third layer's ReLU;
  7. operations 176 … 190: the log-softmax;
  and the stretches in order are the whole line.
-/
import proofs.«176480_j51831665328310_1_alg».proof.Proof.RefRead

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Operations 1 … 8 of the reference's @main: the edge lists with the self loops appended, and the first dense product. -/
abbrev ops1a : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 9 … 19 of the reference's @main: the node degrees, their compare against zero and their inverse square roots. -/
abbrev ops1b : List (HloOp τ sig (Elt F)) :=
  [ nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf (F := F) .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- Operations 20 … 22 of the reference's @main: the outlined select: the per-node factor. -/
abbrev ops1c : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 23 … 41 of the reference's @main: the normalisation coefficients. -/
abbrev ops1d : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- Operations 42 … 60 of the reference's @main: the first layer's aggregation and bias. -/
abbrev ops2a : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- Operations 61 … 63 of the reference's @main: the first layer's ReLU. -/
abbrev ops2b : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- Operations 64 … 75 of the reference's @main: the second dense product, and the degrees' compare and inverse square roots again. -/
abbrev ops3a : List (HloOp τ sig (Elt F)) :=
  [ binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf (F := F) .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32) ]

/-- Operations 76 … 78 of the reference's @main: the outlined select again. -/
abbrev ops3b : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select ]

/-- Operations 79 … 97 of the reference's @main: the normalisation coefficients again. -/
abbrev ops3c : List (HloOp τ sig (Elt F)) :=
  [ nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)) ]

/-- Operations 98 … 116 of the reference's @main: the second layer's aggregation and bias. -/
abbrev ops4a : List (HloOp τ sig (Elt F)) :=
  [ nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x128 ![0, 1] bcast_S1700000x1_S1700000x128_0_1 : (⟨S1700000x1, .f32⟩ : BufTy).Contents (Elt F) → (⟨S1700000x128, .f32⟩ : BufTy).Contents (Elt F)),
    binary main_v78 main_v80 main_v81 (mulf : (⟨S1700000x128, .f32⟩ : BufTy).Contents (Elt F) → (⟨S1700000x128, .f32⟩ : BufTy).Contents (Elt F) → (⟨S1700000x128, .f32⟩ : BufTy).Contents (Elt F)),
    nullary main_cst_19 (constant S_ .f32 0x00000000#32),
    unary main_cst_19 main_v82 (broadcastInDim S100000x128 ![] bcast_S_S100000x128 : (⟨S_, .f32⟩ : BufTy).Contents (Elt F) → (⟨S100000x128, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v84 main_v86 main_v87 (addf : (⟨S100000x128, .f32⟩ : BufTy).Contents (Elt F) → (⟨S100000x128, .f32⟩ : BufTy).Contents (Elt F) → (⟨S100000x128, .f32⟩ : BufTy).Contents (Elt F)) ]

/-- Operations 117 … 119 of the reference's @main: the second layer's ReLU. -/
abbrev ops4b : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v87) (TRef.of (T := ⟨S100000x128, .f32⟩) main_call3_v0) (TRef.of (T := ⟨S100000x128, .f32⟩) main_v88) maximumf ]

/-- Operations 120 … 131 of the reference's @main: the third dense product, and the degrees' compare and inverse square roots once more. -/
abbrev ops5a : List (HloOp τ sig (Elt F)) :=
  [ binary main_v88 main_arg6 main_v89 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_cst_20 (constant S_ .f32 0x3F800000#32),
    unary main_cst_20 main_v90 (broadcastInDim S1700000 ![] bcast_S_S1700000 : (⟨S_, .f32⟩ : BufTy).Contents (Elt F) → (⟨S1700000, .f32⟩ : BufTy).Contents (Elt F)),
    nullary main_cst_21 (constant S_ .f32 0x00000000#32),
    unary main_cst_21 main_v91 (broadcastInDim S100000 ![] bcast_S_S100000 : (⟨S_, .f32⟩ : BufTy).Contents (Elt F) → (⟨S100000, .f32⟩ : BufTy).Contents (Elt F)),
    unary main_v6 main_v92 (broadcastInDim S1700000x1 ![0] bcast_S1700000_S1700000x1_0 : (⟨S1700000, .i32⟩ : BufTy).Contents (Elt F) → (⟨S1700000x1, .i32⟩ : BufTy).Contents (Elt F)),
    ternary main_v91 main_v92 main_v90 main_v93 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_22 (constant S_ .f32 0x00000000#32),
    unary main_cst_22 main_v94 (broadcastInDim S100000 ![] bcast_S_S100000 : (⟨S_, .f32⟩ : BufTy).Contents (Elt F) → (⟨S100000, .f32⟩ : BufTy).Contents (Elt F)),
    binary main_v93 main_v94 main_v95 (cmpf (F := F) .ogt : (⟨S100000, .f32⟩ : BufTy).Contents (Elt F) → (⟨S100000, .f32⟩ : BufTy).Contents (Elt F) → (⟨S100000, .i1⟩ : BufTy).Contents (Elt F)),
    unary main_v93 main_v96 (Host.rsqrt : (⟨S100000, .f32⟩ : BufTy).Contents (Elt F) → (⟨S100000, .f32⟩ : BufTy).Contents (Elt F)),
    nullary main_cst_23 (constant S_ .f32 0x00000000#32) ]

/-- Operations 132 … 134 of the reference's @main: the outlined select once more. -/
abbrev ops5b : List (HloOp τ sig (Elt F)) :=
  [ TRef.unary (TRef.of (T := ⟨S_, .f32⟩) main_cst_23) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v95) (TRef.of (T := ⟨S100000, .f32⟩) main_v96) (TRef.of (T := ⟨S100000, .f32⟩) main_call4_v1) (TRef.of (T := ⟨S100000, .f32⟩) main_v97) select ]

/-- Operations 135 … 153 of the reference's @main: the normalisation coefficients once more. -/
abbrev ops5c : List (HloOp τ sig (Elt F)) :=
  [ nullary main_c_24 (constantI S_ 32 0#32),
    unary main_c_24 main_v98 (broadcastInDim S1700000 ![] bcast_S_S1700000 : (⟨S_, .i32⟩ : BufTy).Contents (Elt F) → (⟨S1700000, .i32⟩ : BufTy).Contents (Elt F)),
    binary main_v3 main_v98 main_v99 (cmpi .slt : (⟨S1700000, .i32⟩ : BufTy).Contents (Elt F) → (⟨S1700000, .i32⟩ : BufTy).Contents (Elt F) → (⟨S1700000, .i1⟩ : BufTy).Contents (Elt F)),
    nullary main_c_25 (constantI S_ 32 100000#32),
    unary main_c_25 main_v100 (broadcastInDim S1700000 ![] bcast_S_S1700000 : (⟨S_, .i32⟩ : BufTy).Contents (Elt F) → (⟨S1700000, .i32⟩ : BufTy).Contents (Elt F)),
    binary main_v3 main_v100 main_v101 (addi : (⟨S1700000, .i32⟩ : BufTy).Contents (Elt F) → (⟨S1700000, .i32⟩ : BufTy).Contents (Elt F) → (⟨S1700000, .i32⟩ : BufTy).Contents (Elt F)),
    ternary main_v99 main_v101 main_v3 main_v102 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v102 main_v103 (broadcastInDim S1700000x1 ![0] bcast_S1700000_S1700000x1_0 : (⟨S1700000, .i32⟩ : BufTy).Contents (Elt F) → (⟨S1700000x1, .i32⟩ : BufTy).Contents (Elt F)),
    binary main_v97 main_v103 main_v104 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_26 (constantI S_ 32 0#32),
    unary main_c_26 main_v105 (broadcastInDim S1700000 ![] bcast_S_S1700000 : (⟨S_, .i32⟩ : BufTy).Contents (Elt F) → (⟨S1700000, .i32⟩ : BufTy).Contents (Elt F)),
    binary main_v6 main_v105 main_v106 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v107 (broadcastInDim S1700000 ![] bcast_S_S1700000 : (⟨S_, .i32⟩ : BufTy).Contents (Elt F) → (⟨S1700000, .i32⟩ : BufTy).Contents (Elt F)),
    binary main_v6 main_v107 main_v108 (addi : (⟨S1700000, .i32⟩ : BufTy).Contents (Elt F) → (⟨S1700000, .i32⟩ : BufTy).Contents (Elt F) → (⟨S1700000, .i32⟩ : BufTy).Contents (Elt F)),
    ternary main_v106 main_v108 main_v6 main_v109 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v109 main_v110 (broadcastInDim S1700000x1 ![0] bcast_S1700000_S1700000x1_0 : (⟨S1700000, .i32⟩ : BufTy).Contents (Elt F) → (⟨S1700000x1, .i32⟩ : BufTy).Contents (Elt F)),
    binary main_v97 main_v110 main_v111 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v104 main_v111 main_v112 (mulf : (⟨S1700000, .f32⟩ : BufTy).Contents (Elt F) → (⟨S1700000, .f32⟩ : BufTy).Contents (Elt F) → (⟨S1700000, .f32⟩ : BufTy).Contents (Elt F)) ]

/-- Operations 154 … 172 of the reference's @main: the third layer's aggregation and bias. -/
abbrev ops6a : List (HloOp τ sig (Elt F)) :=
  [ nullary main_c_28 (constantI S_ 32 0#32),
    unary main_c_28 main_v113 (broadcastInDim S1700000 ![] bcast_S_S1700000 : (⟨S_, .i32⟩ : BufTy).Contents (Elt F) → (⟨S1700000, .i32⟩ : BufTy).Contents (Elt F)),
    binary main_v3 main_v113 main_v114 (cmpi .slt : (⟨S1700000, .i32⟩ : BufTy).Contents (Elt F) → (⟨S1700000, .i32⟩ : BufTy).Contents (Elt F) → (⟨S1700000, .i1⟩ : BufTy).Contents (Elt F)),
    nullary main_c_29 (constantI S_ 32 100000#32),
    unary main_c_29 main_v115 (broadcastInDim S1700000 ![] bcast_S_S1700000 : (⟨S_, .i32⟩ : BufTy).Contents (Elt F) → (⟨S1700000, .i32⟩ : BufTy).Contents (Elt F)),
    binary main_v3 main_v115 main_v116 (addi : (⟨S1700000, .i32⟩ : BufTy).Contents (Elt F) → (⟨S1700000, .i32⟩ : BufTy).Contents (Elt F) → (⟨S1700000, .i32⟩ : BufTy).Contents (Elt F)),
    ternary main_v114 main_v116 main_v3 main_v117 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v117 main_v118 (broadcastInDim S1700000x1 ![0] bcast_S1700000_S1700000x1_0 : (⟨S1700000, .i32⟩ : BufTy).Contents (Elt F) → (⟨S1700000x1, .i32⟩ : BufTy).Contents (Elt F)),
    binary main_v89 main_v118 main_v119 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v112 main_v120 (broadcastInDim S1700000x1 ![0] bcast_S1700000_S1700000x1_0 : (⟨S1700000, .f32⟩ : BufTy).Contents (Elt F) → (⟨S1700000x1, .f32⟩ : BufTy).Contents (Elt F)),
    unary main_v120 main_v121 (broadcastInDim S1700000x40 ![0, 1] bcast_S1700000x1_S1700000x40_0_1 : (⟨S1700000x1, .f32⟩ : BufTy).Contents (Elt F) → (⟨S1700000x40, .f32⟩ : BufTy).Contents (Elt F)),
    binary main_v119 main_v121 main_v122 (mulf : (⟨S1700000x40, .f32⟩ : BufTy).Contents (Elt F) → (⟨S1700000x40, .f32⟩ : BufTy).Contents (Elt F) → (⟨S1700000x40, .f32⟩ : BufTy).Contents (Elt F)),
    nullary main_cst_30 (constant S_ .f32 0x00000000#32),
    unary main_cst_30 main_v123 (broadcastInDim S100000x40 ![] bcast_S_S100000x40 : (⟨S_, .f32⟩ : BufTy).Contents (Elt F) → (⟨S100000x40, .f32⟩ : BufTy).Contents (Elt F)),
    unary main_v6 main_v124 (broadcastInDim S1700000x1 ![0] bcast_S1700000_S1700000x1_0 : (⟨S1700000, .i32⟩ : BufTy).Contents (Elt F) → (⟨S1700000x1, .i32⟩ : BufTy).Contents (Elt F)),
    ternary main_v123 main_v124 main_v122 main_v125 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg7 main_v126 (broadcastInDim S1x40 ![1] bcast_S40_S1x40_1 : (⟨S40, .f32⟩ : BufTy).Contents (Elt F) → (⟨S1x40, .f32⟩ : BufTy).Contents (Elt F)),
    unary main_v126 main_v127 (broadcastInDim S100000x40 ![0, 1] bcast_S1x40_S100000x40_0_1 : (⟨S1x40, .f32⟩ : BufTy).Contents (Elt F) → (⟨S100000x40, .f32⟩ : BufTy).Contents (Elt F)),
    binary main_v125 main_v127 main_v128 (addf : (⟨S100000x40, .f32⟩ : BufTy).Contents (Elt F) → (⟨S100000x40, .f32⟩ : BufTy).Contents (Elt F) → (⟨S100000x40, .f32⟩ : BufTy).Contents (Elt F)) ]

/-- Operations 173 … 175 of the reference's @main: the third layer's ReLU. -/
abbrev ops6b : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S100000x40, .f32⟩) main_call5_v0) (broadcastInDim S100000x40 ![] bcast_S_S100000x40),
    TRef.binary (TRef.of (T := ⟨S100000x40, .f32⟩) main_v128) (TRef.of (T := ⟨S100000x40, .f32⟩) main_call5_v0) (TRef.of (T := ⟨S100000x40, .f32⟩) main_v129) maximumf ]

/-- Operations 176 … 190 of the reference's @main: the log-softmax. -/
abbrev ops7 : List (HloOp τ sig (Elt F)) :=
  [ TRef.nullary (TRef.of (T := ⟨S_, .f32⟩) main_call6_cst) (constant S_ .f32 0xFF800000#32),
    TRef.binary (TRef.of (T := ⟨S100000x40, .f32⟩) main_v129) (TRef.of (T := ⟨S_, .f32⟩) main_call6_cst) (TRef.of (T := ⟨S100000, .f32⟩) main_call6_v0) (fun x v => Host.reduce FloatOps.maximumf x v reducesTo_S100000x40_S100000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S100000, .f32⟩) main_call6_v1) (broadcastInDim S100000 ![] bcast_S_S100000),
    TRef.binary (TRef.of (T := ⟨S100000, .f32⟩) main_call6_v1) (TRef.of (T := ⟨S100000, .f32⟩) main_call6_v0) (TRef.of (T := ⟨S100000, .f32⟩) main_call6_v2) maximumf,
    TRef.unary (TRef.of (T := ⟨S100000, .f32⟩) main_call6_v2) (TRef.of (T := ⟨S100000x1, .f32⟩) main_call6_v3) (broadcastInDim S100000x1 ![0] bcast_S100000_S100000x1_0),
    TRef.unary (TRef.of (T := ⟨S100000x1, .f32⟩) main_call6_v3) (TRef.of (T := ⟨S100000x40, .f32⟩) main_call6_v4) (broadcastInDim S100000x40 ![0, 1] bcast_S100000x1_S100000x40_0_1),
    TRef.binary (TRef.of (T := ⟨S100000x40, .f32⟩) main_v129) (TRef.of (T := ⟨S100000x40, .f32⟩) main_call6_v4) (TRef.of (T := ⟨S100000x40, .f32⟩) main_call6_v5) subf,
    TRef.unary (TRef.of (T := ⟨S100000x40, .f32⟩) main_call6_v5) (TRef.of (T := ⟨S100000x40, .f32⟩) main_call6_v6) Host.exp,
    TRef.nullary (TRef.of (T := ⟨S_, .f32⟩) main_call6_cst_1) (constant S_ .f32 0x00000000#32),
    TRef.binary (TRef.of (T := ⟨S100000x40, .f32⟩) main_call6_v6) (TRef.of (T := ⟨S_, .f32⟩) main_call6_cst_1) (TRef.of (T := ⟨S100000, .f32⟩) main_call6_v7) (fun x v => Host.reduceAdd x v reducesTo_S100000x40_S100000_d1 h_S_),
    TRef.unary (TRef.of (T := ⟨S100000, .f32⟩) main_call6_v7) (TRef.of (T := ⟨S100000x1, .f32⟩) main_call6_v8) (broadcastInDim S100000x1 ![0] bcast_S100000_S100000x1_0),
    TRef.unary (TRef.of (T := ⟨S100000x1, .f32⟩) main_call6_v8) (TRef.of (T := ⟨S100000x1, .f32⟩) main_call6_v9) Host.log,
    TRef.unary (TRef.of (T := ⟨S100000x1, .f32⟩) main_call6_v9) (TRef.of (T := ⟨S100000x40, .f32⟩) main_call6_v10) (broadcastInDim S100000x40 ![0, 1] bcast_S100000x1_S100000x40_0_1),
    TRef.binary (TRef.of (T := ⟨S100000x40, .f32⟩) main_call6_v5) (TRef.of (T := ⟨S100000x40, .f32⟩) main_call6_v10) (TRef.of (T := ⟨S100000x40, .f32⟩) main_v130) subf ]

/-- The stretches in order are the whole line. -/
theorem ops_split : (ops : List (HloOp τ sig (Elt F))) =
    ops1a ++ (ops1b ++ (ops1c ++ (ops1d ++ (ops2a ++ (ops2b ++ (ops3a ++ (ops3b ++ (ops3c ++ (ops4a ++ (ops4b ++ (ops5a ++ (ops5b ++ (ops5c ++ (ops6a ++ (ops6b ++ (ops7)))))))))))))))) := rfl

end Cert.ReferenceIdeal.Stretch

end
-- ==== Proof.RefStretchFns.lean ====
/-
  The reference's stretches as explicit functions of what each stretch is entered with, and their identity with the
  stage functions: the degree of a node, its compare against zero and its inverse square root; the outlined select
  `where (deg > 0) (rsqrt deg) 0`, the per-node factor; the coefficient of an edge, the product of its two endpoints'
  factors; a layer's aggregation (gather, scale, scatter-add) with its bias; a ReLU; a dense product; the log-softmax.
  Applied to the stage functions of the arguments, each is the next stage function.
-/
import proofs.«176480_j51831665328310_1_alg».proof.Proof.RefRead

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- A node index list with negative entries counted from the end. -/
def rFix (s : (⟨S1700000, .i32⟩ : BufTy).Contents (Elt Ideal)) : (⟨S1700000, .i32⟩ : BufTy).Contents (Elt Ideal) :=
  select (cmpi .slt s (broadcastInDim S1700000 ![] bcast_S_S1700000 (constantI S_ 32 0#32)))
    (addi s (broadcastInDim S1700000 ![] bcast_S_S1700000 (constantI S_ 32 100000#32))) s

/-- The number of edges into each node: ones scatter-added at the target list. -/
def rDeg (d : (⟨S1700000, .i32⟩ : BufTy).Contents (Elt Ideal)) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 d)
    (broadcastInDim S1700000 ![] bcast_S_S1700000 (constant (F := Ideal) S_ .f32 0x3F800000#32))

/-- Where the degree is positive. -/
def rCmp (d : (⟨S1700000, .i32⟩ : BufTy).Contents (Elt Ideal)) : (⟨S100000, .i1⟩ : BufTy).Contents (Elt Ideal) :=
  cmpf (F := Ideal) .ogt (rDeg d) (broadcastInDim S100000 ![] bcast_S_S100000 (constant (F := Ideal) S_ .f32 0x00000000#32))

/-- The degree's inverse square root. -/
def rRs (d : (⟨S1700000, .i32⟩ : BufTy).Contents (Elt Ideal)) : FVec Ideal S100000 .f32 := Host.rsqrt (F := Ideal) (rDeg d)

/-- The zero the select falls back to. -/
def rZero : FVec Ideal S_ .f32 := constant (F := Ideal) S_ .f32 0x00000000#32

/-- The outlined select: `q` where `p`, else the scalar `z` splat. -/
def rWhere (p : (⟨S100000, .i1⟩ : BufTy).Contents (Elt Ideal)) (q : FVec Ideal S100000 .f32) (z : FVec Ideal S_ .f32) : FVec Ideal S100000 .f32 :=
  select p q (broadcastInDim S100000 ![] bcast_S_S100000 (id z))

/-- The coefficient of edge e: w(s(e)) · w(d(e)) for the per-node factor `w`. -/
def rNormW (s d : (⟨S1700000, .i32⟩ : BufTy).Contents (Elt Ideal)) (w : FVec Ideal S100000 .f32) : FVec Ideal S1700000 .f32 :=
  mulf (F := Ideal) (φ := .f32)
    (Host.gather gather_S100000_S1700000x1_S1700000_n_0_n_n_0_1_1 w (broadcastInDim S1700000x1 ![0] bcast_S1700000_S1700000x1_0 (rFix s)))
    (Host.gather gather_S100000_S1700000x1_S1700000_n_0_n_n_0_1_1 w (broadcastInDim S1700000x1 ![0] bcast_S1700000_S1700000x1_0 (rFix d)))

/-- Gather row s(e) of `h`, scale by n(e), scatter-add into row d(e) of a zero array; 128 wide. -/
def rAgg128 (s d : (⟨S1700000, .i32⟩ : BufTy).Contents (Elt Ideal)) (n : FVec Ideal S1700000 .f32) (h : FVec Ideal S100000x128 .f32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (mulf (F := Ideal)
      (Host.gather gather_S100000x128_S1700000x1_S1700000x128_1_0_n_n_0_1_1128 h (broadcastInDim S1700000x1 ![0] bcast_S1700000_S1700000x1_0 (rFix s)))
      (broadcastInDim S1700000x128 ![0, 1] bcast_S1700000x1_S1700000x128_0_1 (broadcastInDim S1700000x1 ![0] bcast_S1700000_S1700000x1_0 n)))
/-- The same, 40 wide. -/
def rAgg40 (s d : (⟨S1700000, .i32⟩ : BufTy).Contents (Elt Ideal)) (n : FVec Ideal S1700000 .f32) (h : FVec Ideal S100000x40 .f32) : FVec Ideal S100000x40 .f32 :=
  Host.scatterAdd (F := Ideal) scatter_S100000x40_S1700000x1_S1700000x40_1_0_0_1
    (broadcastInDim S100000x40 ![] bcast_S_S100000x40 (constant (F := Ideal) S_ .f32 0x00000000#32))
    (broadcastInDim S1700000x1 ![0] bcast_S1700000_S1700000x1_0 d)
    (mulf (F := Ideal)
      (Host.gather gather_S100000x40_S1700000x1_S1700000x40_1_0_n_n_0_1_140 h (broadcastInDim S1700000x1 ![0] bcast_S1700000_S1700000x1_0 (rFix s)))
      (broadcastInDim S1700000x40 ![0, 1] bcast_S1700000x1_S1700000x40_0_1 (broadcastInDim S1700000x1 ![0] bcast_S1700000_S1700000x1_0 n)))

/-- A layer before its ReLU: aggregate, add the bias to every node; 128 wide. -/
def rPre128 (s d : (⟨S1700000, .i32⟩ : BufTy).Contents (Elt Ideal)) (n : FVec Ideal S1700000 .f32) (h : FVec Ideal S100000x128 .f32) (b : FVec Ideal S128 .f32) : FVec Ideal S100000x128 .f32 :=
  addf (F := Ideal) (rAgg128 s d n h)
    (broadcastInDim S100000x128 ![0, 1] bcast_S1x128_S100000x128_0_1 (broadcastInDim S1x128 ![1] bcast_S128_S1x128_1 b))
/-- The same, 40 wide. -/
def rPre40 (s d : (⟨S1700000, .i32⟩ : BufTy).Contents (Elt Ideal)) (n : FVec Ideal S1700000 .f32) (h : FVec Ideal S100000x40 .f32) (b : FVec Ideal S40 .f32) : FVec Ideal S100000x40 .f32 :=
  addf (F := Ideal) (rAgg40 s d n h)
    (broadcastInDim S100000x40 ![0, 1] bcast_S1x40_S100000x40_0_1 (broadcastInDim S1x40 ![1] bcast_S40_S1x40_1 b))

/-- The ReLU: the maximum with a zero splat; 128 wide. -/
def rRelu128 (a : FVec Ideal S100000x128 .f32) : FVec Ideal S100000x128 .f32 :=
  maximumf (F := Ideal) a (broadcastInDim S100000x128 ![] bcast_S_S100000x128 (constant (F := Ideal) S_ .f32 0x00000000#32))
/-- The same, 40 wide. -/
def rRelu40 (a : FVec Ideal S100000x40 .f32) : FVec Ideal S100000x40 .f32 :=
  maximumf (F := Ideal) a (broadcastInDim S100000x40 ![] bcast_S_S100000x40 (constant (F := Ideal) S_ .f32 0x00000000#32))

/-- Node features times a weight matrix, 128 output features. -/
def rDot128 (h : FVec Ideal S100000x128 .f32) (w : FVec Ideal S128x128 .f32) : FVec Ideal S100000x128 .f32 :=
  Host.dotGeneral (F := Ideal) dot_S100000x128_S128x128_S100000x128_1_0_0_1_n_n none h w
/-- Node features times a weight matrix, 40 output features. -/
def rDot40 (h : FVec Ideal S100000x128 .f32) (w : FVec Ideal S128x40 .f32) : FVec Ideal S100000x40 .f32 :=
  Host.dotGeneral (F := Ideal) dot_S100000x128_S128x40_S100000x40_1_0_0_1_n_n none h w

/-- The row maximum (from −∞, and again against a −∞ splat) broadcast back over the row. -/
def rRowMax (p : FVec Ideal S100000x40 .f32) : FVec Ideal S100000x40 .f32 :=
  broadcastInDim S100000x40 ![0, 1] bcast_S100000x1_S100000x40_0_1
    (broadcastInDim S100000x1 ![0] bcast_S100000_S100000x1_0
      (maximumf (F := Ideal) (broadcastInDim S100000 ![] bcast_S_S100000 (constant (F := Ideal) S_ .f32 0xFF800000#32))
        (Host.reduce FloatOps.maximumf p (constant (F := Ideal) S_ .f32 0xFF800000#32) reducesTo_S100000x40_S100000_d1 h_S_)))

/-- The log-softmax: subtract the row maximum, then the logarithm of the row's sum of exponentials. -/
def rLogSoftmax (p : FVec Ideal S100000x40 .f32) : FVec Ideal S100000x40 .f32 :=
  subf (F := Ideal) (subf (F := Ideal) p (rRowMax p))
    (broadcastInDim S100000x40 ![0, 1] bcast_S100000x1_S100000x40_0_1
      (Host.log (F := Ideal)
        (broadcastInDim S100000x1 ![0] bcast_S100000_S100000x1_0
          (Host.reduceAdd (Host.exp (F := Ideal) (subf (F := Ideal) p (rRowMax p))) (constant (F := Ideal) S_ .f32 0x00000000#32)
            reducesTo_S100000x40_S100000_d1 h_S_))))

/-! ## Applied to the stage functions of the arguments, each is the next stage function -/

variable (x0 : FVec Ideal S100000x128 .f32) (x1 : (⟨S2x1600000, .i32⟩ : BufTy).Contents (Elt Ideal)) (x2 : FVec Ideal S128x128 .f32) (x3 : FVec Ideal S128 .f32) (x4 : FVec Ideal S128x128 .f32) (x5 : FVec Ideal S128 .f32) (x6 : FVec Ideal S128x40 .f32) (x7 : FVec Ideal S40 .f32)

theorem br_v13 : rCmp (val_main_v6 (F := Ideal) x1) = val_main_v13 (F := Ideal) x1 := rfl
theorem br_v14 : rRs (val_main_v6 (F := Ideal) x1) = val_main_v14 (F := Ideal) x1 := rfl
theorem br_cst_2 : rZero = val_main_cst_2 (F := Ideal) := rfl
theorem br_v15 : rWhere (val_main_v13 (F := Ideal) x1) (val_main_v14 (F := Ideal) x1) (val_main_cst_2 (F := Ideal)) = val_main_v15 (F := Ideal) x1 := rfl
theorem br_v30 : rNormW (val_main_v3 (F := Ideal) x1) (val_main_v6 (F := Ideal) x1) (val_main_v15 (F := Ideal) x1) = val_main_v30 (F := Ideal) x1 := rfl
theorem br_v46 : rPre128 (val_main_v3 (F := Ideal) x1) (val_main_v6 (F := Ideal) x1) (val_main_v30 (F := Ideal) x1) (val_main_v7 (F := Ideal) x0 x2) (x3) = val_main_v46 (F := Ideal) x0 x1 x2 x3 := rfl
theorem br_v47 : rRelu128 (val_main_v46 (F := Ideal) x0 x1 x2 x3) = val_main_v47 (F := Ideal) x0 x1 x2 x3 := rfl
theorem br_v48 : rDot128 (val_main_v47 (F := Ideal) x0 x1 x2 x3) (x4) = val_main_v48 (F := Ideal) x0 x1 x2 x3 x4 := rfl
theorem br_v54 : rCmp (val_main_v6 (F := Ideal) x1) = val_main_v54 (F := Ideal) x1 := rfl
theorem br_v55 : rRs (val_main_v6 (F := Ideal) x1) = val_main_v55 (F := Ideal) x1 := rfl
theorem br_cst_12 : rZero = val_main_cst_12 (F := Ideal) := rfl
theorem br_v56 : rWhere (val_main_v54 (F := Ideal) x1) (val_main_v55 (F := Ideal) x1) (val_main_cst_12 (F := Ideal)) = val_main_v56 (F := Ideal) x1 := rfl
theorem br_v71 : rNormW (val_main_v3 (F := Ideal) x1) (val_main_v6 (F := Ideal) x1) (val_main_v56 (F := Ideal) x1) = val_main_v71 (F := Ideal) x1 := rfl
theorem br_v87 : rPre128 (val_main_v3 (F := Ideal) x1) (val_main_v6 (F := Ideal) x1) (val_main_v71 (F := Ideal) x1) (val_main_v48 (F := Ideal) x0 x1 x2 x3 x4) (x5) = val_main_v87 (F := Ideal) x0 x1 x2 x3 x4 x5 := rfl
theorem br_v88 : rRelu128 (val_main_v87 (F := Ideal) x0 x1 x2 x3 x4 x5) = val_main_v88 (F := Ideal) x0 x1 x2 x3 x4 x5 := rfl
theorem br_v89 : rDot40 (val_main_v88 (F := Ideal) x0 x1 x2 x3 x4 x5) (x6) = val_main_v89 (F := Ideal) x0 x1 x2 x3 x4 x5 x6 := rfl
theorem br_v95 : rCmp (val_main_v6 (F := Ideal) x1) = val_main_v95 (F := Ideal) x1 := rfl
theorem br_v96 : rRs (val_main_v6 (F := Ideal) x1) = val_main_v96 (F := Ideal) x1 := rfl
theorem br_cst_23 : rZero = val_main_cst_23 (F := Ideal) := rfl
theorem br_v97 : rWhere (val_main_v95 (F := Ideal) x1) (val_main_v96 (F := Ideal) x1) (val_main_cst_23 (F := Ideal)) = val_main_v97 (F := Ideal) x1 := rfl
theorem br_v112 : rNormW (val_main_v3 (F := Ideal) x1) (val_main_v6 (F := Ideal) x1) (val_main_v97 (F := Ideal) x1) = val_main_v112 (F := Ideal) x1 := rfl
theorem br_v128 : rPre40 (val_main_v3 (F := Ideal) x1) (val_main_v6 (F := Ideal) x1) (val_main_v112 (F := Ideal) x1) (val_main_v89 (F := Ideal) x0 x1 x2 x3 x4 x5 x6) (x7) = val_main_v128 (F := Ideal) x0 x1 x2 x3 x4 x5 x6 x7 := rfl
theorem br_v129 : rRelu40 (val_main_v128 (F := Ideal) x0 x1 x2 x3 x4 x5 x6 x7) = val_main_v129 (F := Ideal) x0 x1 x2 x3 x4 x5 x6 x7 := rfl
theorem br_v130 : rLogSoftmax (val_main_v129 (F := Ideal) x0 x1 x2 x3 x4 x5 x6 x7) = val_main_v130 (F := Ideal) x0 x1 x2 x3 x4 x5 x6 x7 := rfl

end Cert.ReferenceIdeal.Stretch

end
-- ==== Proof.LibTypedRef.lean ====
/-
  A typed reference's transports cancel.

  A host operation inside an outlined function reads and writes its buffers through typed references: contents at the
  value's type are carried to contents at the buffer's type along the equation "the buffer's type is the value's", and
  back. There and back again is the identity, for any typed reference and any contents — so a value that one operation
  writes through a typed reference and the next reads through the same reference is the value itself.
-/
import Idealize.ShloMosaic.Lib.StableHlo

namespace Idealize.ShloMosaic.StableHlo.TRef

variable {sig : RefSig} {T : BufTy} {Val : EltTy → Type}

/-- Written through a typed reference and read back through it: the value. -/
theorem ofBuf_toBuf (x : TRef sig T) (v : T.Contents Val) : x.ofBuf (x.toBuf v) = v := by
  obtain ⟨r, h, h', h''⟩ := x
  subst h
  rfl

/-- Read through a typed reference and written back through it: the contents. -/
theorem toBuf_ofBuf (x : TRef sig T) (v : x.ref.ty.Contents Val) : x.toBuf (x.ofBuf v) = v := by
  obtain ⟨r, h, h', h''⟩ := x
  subst h
  rfl

end Idealize.ShloMosaic.StableHlo.TRef
-- ==== Proof.RefStretch1a.lean ====
/-
  Stretch 1a of the reference's line (the edge lists with the self loops appended, and the first dense product), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- The reads a one-pass rewrite leaves under the operand pairs of a concatenation: each operation's result at its own
    buffer is its function's value, at any other buffer what was there. -/
macro "host_reads" : tactic =>
  `(tactic| repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)))

theorem s1a_v3 (V : Valuation τ sig (Elt Ideal)) (x1 : (⟨S2x1600000, .i32⟩ : BufTy).Contents (Elt Ideal))
    (h1 : V (Proc.devRef .tc main_arg1) = x1) :
    after (ops1a (F := Ideal)) V (Proc.devRef .tc main_v3) = val_main_v3 (F := Ideal) x1 := by
  simp only [ops1a]; after_results_simp; host_reads
  rw [h1]
  rfl

theorem s1a_v6 (V : Valuation τ sig (Elt Ideal)) (x1 : (⟨S2x1600000, .i32⟩ : BufTy).Contents (Elt Ideal))
    (h1 : V (Proc.devRef .tc main_arg1) = x1) :
    after (ops1a (F := Ideal)) V (Proc.devRef .tc main_v6) = val_main_v6 (F := Ideal) x1 := by
  simp only [ops1a]; after_results_simp; host_reads
  rw [h1]
  rfl

theorem s1a_v7 (V : Valuation τ sig (Elt Ideal)) (x0 : FVec Ideal S100000x128 .f32) (x2 : FVec Ideal S128x128 .f32)
    (h0 : V (Proc.devRef .tc main_arg0) = x0) (h2 : V (Proc.devRef .tc main_arg2) = x2) :
    after (ops1a (F := Ideal)) V (Proc.devRef .tc main_v7) = val_main_v7 (F := Ideal) x0 x2 := by
  simp only [ops1a]; after_results_simp
  rw [h0, h2]
  rfl

theorem k1a_arg3 (V : Valuation τ sig (Elt Ideal)) : after (ops1a (F := Ideal)) V (Proc.devRef .tc main_arg3) = V (Proc.devRef .tc main_arg3) := by
  simp only [ops1a]; after_results_simp
theorem k1a_arg4 (V : Valuation τ sig (Elt Ideal)) : after (ops1a (F := Ideal)) V (Proc.devRef .tc main_arg4) = V (Proc.devRef .tc main_arg4) := by
  simp only [ops1a]; after_results_simp
theorem k1a_arg5 (V : Valuation τ sig (Elt Ideal)) : after (ops1a (F := Ideal)) V (Proc.devRef .tc main_arg5) = V (Proc.devRef .tc main_arg5) := by
  simp only [ops1a]; after_results_simp
theorem k1a_arg6 (V : Valuation τ sig (Elt Ideal)) : after (ops1a (F := Ideal)) V (Proc.devRef .tc main_arg6) = V (Proc.devRef .tc main_arg6) := by
  simp only [ops1a]; after_results_simp
theorem k1a_arg7 (V : Valuation τ sig (Elt Ideal)) : after (ops1a (F := Ideal)) V (Proc.devRef .tc main_arg7) = V (Proc.devRef .tc main_arg7) := by
  simp only [ops1a]; after_results_simp

end Cert.ReferenceIdeal.Stretch

end
-- ==== Proof.RefStretch1b.lean ====
/-
  Stretch 1b of the reference's line (the node degrees, their compare against zero and their inverse square roots), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s1b_v13 (V : Valuation τ sig (Elt Ideal)) (d : (⟨S1700000, .i32⟩ : BufTy).Contents (Elt Ideal))
    (hd : V (Proc.devRef .tc main_v6) = d) :
    after (ops1b (F := Ideal)) V (Proc.devRef .tc main_v13) = rCmp d := by
  simp only [ops1b]; after_results_simp
  rw [hd]
  rfl

theorem s1b_v14 (V : Valuation τ sig (Elt Ideal)) (d : (⟨S1700000, .i32⟩ : BufTy).Contents (Elt Ideal))
    (hd : V (Proc.devRef .tc main_v6) = d) :
    after (ops1b (F := Ideal)) V (Proc.devRef .tc main_v14) = rRs d := by
  simp only [ops1b]; after_results_simp
  rw [hd]
  rfl

theorem s1b_cst_2 (V : Valuation τ sig (Elt Ideal))
    :
    after (ops1b (F := Ideal)) V (Proc.devRef .tc main_cst_2) = rZero := by
  simp only [ops1b]; after_results_simp
  rfl

theorem k1b_v6 (V : Valuation τ sig (Elt Ideal)) : after (ops1b (F := Ideal)) V (Proc.devRef .tc main_v6) = V (Proc.devRef .tc main_v6) := by
  simp only [ops1b]; after_results_simp
theorem k1b_v3 (V : Valuation τ sig (Elt Ideal)) : after (ops1b (F := Ideal)) V (Proc.devRef .tc main_v3) = V (Proc.devRef .tc main_v3) := by
  simp only [ops1b]; after_results_simp
theorem k1b_v7 (V : Valuation τ sig (Elt Ideal)) : after (ops1b (F := Ideal)) V (Proc.devRef .tc main_v7) = V (Proc.devRef .tc main_v7) := by
  simp only [ops1b]; after_results_simp
theorem k1b_arg3 (V : Valuation τ sig (Elt Ideal)) : after (ops1b (F := Ideal)) V (Proc.devRef .tc main_arg3) = V (Proc.devRef .tc main_arg3) := by
  simp only [ops1b]; after_results_simp
theorem k1b_arg4 (V : Valuation τ sig (Elt Ideal)) : after (ops1b (F := Ideal)) V (Proc.devRef .tc main_arg4) = V (Proc.devRef .tc main_arg4) := by
  simp only [ops1b]; after_results_simp
theorem k1b_arg5 (V : Valuation τ sig (Elt Ideal)) : after (ops1b (F := Ideal)) V (Proc.devRef .tc main_arg5) = V (Proc.devRef .tc main_arg5) := by
  simp only [ops1b]; after_results_simp
theorem k1b_arg6 (V : Valuation τ sig (Elt Ideal)) : after (ops1b (F := Ideal)) V (Proc.devRef .tc main_arg6) = V (Proc.devRef .tc main_arg6) := by
  simp only [ops1b]; after_results_simp
theorem k1b_arg7 (V : Valuation τ sig (Elt Ideal)) : after (ops1b (F := Ideal)) V (Proc.devRef .tc main_arg7) = V (Proc.devRef .tc main_arg7) := by
  simp only [ops1b]; after_results_simp

end Cert.ReferenceIdeal.Stretch

end
-- ==== Proof.RefStretch1c.lean ====
/-
  Stretch 1c of the reference's line (the outlined select: the per-node factor), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s1c_v15 (V : Valuation τ sig (Elt Ideal)) (p : (⟨S100000, .i1⟩ : BufTy).Contents (Elt Ideal)) (q : FVec Ideal S100000 .f32) (z : FVec Ideal S_ .f32)
    (hp : V (Proc.devRef .tc main_v13) = p) (hq : V (Proc.devRef .tc main_v14) = q) (hz : V (Proc.devRef .tc main_cst_2) = z) :
    after (ops1c (F := Ideal)) V (Proc.devRef .tc main_v15) = rWhere p q z := by
  simp only [ops1c]; after_results_simp
  simp only [TRef.ofBuf_toBuf]
  rw [hp, hq, hz]
  rfl

theorem k1c_v6 (V : Valuation τ sig (Elt Ideal)) : after (ops1c (F := Ideal)) V (Proc.devRef .tc main_v6) = V (Proc.devRef .tc main_v6) := by
  simp only [ops1c]; after_results_simp
theorem k1c_v3 (V : Valuation τ sig (Elt Ideal)) : after (ops1c (F := Ideal)) V (Proc.devRef .tc main_v3) = V (Proc.devRef .tc main_v3) := by
  simp only [ops1c]; after_results_simp
theorem k1c_v7 (V : Valuation τ sig (Elt Ideal)) : after (ops1c (F := Ideal)) V (Proc.devRef .tc main_v7) = V (Proc.devRef .tc main_v7) := by
  simp only [ops1c]; after_results_simp
theorem k1c_arg3 (V : Valuation τ sig (Elt Ideal)) : after (ops1c (F := Ideal)) V (Proc.devRef .tc main_arg3) = V (Proc.devRef .tc main_arg3) := by
  simp only [ops1c]; after_results_simp
theorem k1c_arg4 (V : Valuation τ sig (Elt Ideal)) : after (ops1c (F := Ideal)) V (Proc.devRef .tc main_arg4) = V (Proc.devRef .tc main_arg4) := by
  simp only [ops1c]; after_results_simp
theorem k1c_arg5 (V : Valuation τ sig (Elt Ideal)) : after (ops1c (F := Ideal)) V (Proc.devRef .tc main_arg5) = V (Proc.devRef .tc main_arg5) := by
  simp only [ops1c]; after_results_simp
theorem k1c_arg6 (V : Valuation τ sig (Elt Ideal)) : after (ops1c (F := Ideal)) V (Proc.devRef .tc main_arg6) = V (Proc.devRef .tc main_arg6) := by
  simp only [ops1c]; after_results_simp
theorem k1c_arg7 (V : Valuation τ sig (Elt Ideal)) : after (ops1c (F := Ideal)) V (Proc.devRef .tc main_arg7) = V (Proc.devRef .tc main_arg7) := by
  simp only [ops1c]; after_results_simp

end Cert.ReferenceIdeal.Stretch

end
-- ==== Proof.RefStretch1d.lean ====
/-
  Stretch 1d of the reference's line (the normalisation coefficients), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s1d_v30 (V : Valuation τ sig (Elt Ideal)) (s : (⟨S1700000, .i32⟩ : BufTy).Contents (Elt Ideal)) (d : (⟨S1700000, .i32⟩ : BufTy).Contents (Elt Ideal)) (w : FVec Ideal S100000 .f32)
    (hs : V (Proc.devRef .tc main_v3) = s) (hd : V (Proc.devRef .tc main_v6) = d) (hw : V (Proc.devRef .tc main_v15) = w) :
    after (ops1d (F := Ideal)) V (Proc.devRef .tc main_v30) = rNormW s d w := by
  simp only [ops1d]; after_results_simp
  rw [hs, hd, hw]
  rfl

theorem k1d_v6 (V : Valuation τ sig (Elt Ideal)) : after (ops1d (F := Ideal)) V (Proc.devRef .tc main_v6) = V (Proc.devRef .tc main_v6) := by
  simp only [ops1d]; after_results_simp
theorem k1d_v3 (V : Valuation τ sig (Elt Ideal)) : after (ops1d (F := Ideal)) V (Proc.devRef .tc main_v3) = V (Proc.devRef .tc main_v3) := by
  simp only [ops1d]; after_results_simp
theorem k1d_v7 (V : Valuation τ sig (Elt Ideal)) : after (ops1d (F := Ideal)) V (Proc.devRef .tc main_v7) = V (Proc.devRef .tc main_v7) := by
  simp only [ops1d]; after_results_simp
theorem k1d_arg3 (V : Valuation τ sig (Elt Ideal)) : after (ops1d (F := Ideal)) V (Proc.devRef .tc main_arg3) = V (Proc.devRef .tc main_arg3) := by
  simp only [ops1d]; after_results_simp
theorem k1d_arg4 (V : Valuation τ sig (Elt Ideal)) : after (ops1d (F := Ideal)) V (Proc.devRef .tc main_arg4) = V (Proc.devRef .tc main_arg4) := by
  simp only [ops1d]; after_results_simp
theorem k1d_arg5 (V : Valuation τ sig (Elt Ideal)) : after (ops1d (F := Ideal)) V (Proc.devRef .tc main_arg5) = V (Proc.devRef .tc main_arg5) := by
  simp only [ops1d]; after_results_simp
theorem k1d_arg6 (V : Valuation τ sig (Elt Ideal)) : after (ops1d (F := Ideal)) V (Proc.devRef .tc main_arg6) = V (Proc.devRef .tc main_arg6) := by
  simp only [ops1d]; after_results_simp
theorem k1d_arg7 (V : Valuation τ sig (Elt Ideal)) : after (ops1d (F := Ideal)) V (Proc.devRef .tc main_arg7) = V (Proc.devRef .tc main_arg7) := by
  simp only [ops1d]; after_results_simp

end Cert.ReferenceIdeal.Stretch

end
-- ==== Proof.RefStretch2a.lean ====
/-
  Stretch 2a of the reference's line (the first layer's aggregation and bias), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s2a_v46 (V : Valuation τ sig (Elt Ideal)) (s : (⟨S1700000, .i32⟩ : BufTy).Contents (Elt Ideal)) (d : (⟨S1700000, .i32⟩ : BufTy).Contents (Elt Ideal)) (n : FVec Ideal S1700000 .f32) (h : FVec Ideal S100000x128 .f32) (b : FVec Ideal S128 .f32)
    (hs : V (Proc.devRef .tc main_v3) = s) (hd : V (Proc.devRef .tc main_v6) = d) (hn : V (Proc.devRef .tc main_v30) = n) (hh : V (Proc.devRef .tc main_v7) = h) (hb : V (Proc.devRef .tc main_arg3) = b) :
    after (ops2a (F := Ideal)) V (Proc.devRef .tc main_v46) = rPre128 s d n h b := by
  simp only [ops2a]; after_results_simp
  rw [hs, hd, hn, hh, hb]
  rfl

theorem k2a_v6 (V : Valuation τ sig (Elt Ideal)) : after (ops2a (F := Ideal)) V (Proc.devRef .tc main_v6) = V (Proc.devRef .tc main_v6) := by
  simp only [ops2a]; after_results_simp
theorem k2a_v3 (V : Valuation τ sig (Elt Ideal)) : after (ops2a (F := Ideal)) V (Proc.devRef .tc main_v3) = V (Proc.devRef .tc main_v3) := by
  simp only [ops2a]; after_results_simp
theorem k2a_arg4 (V : Valuation τ sig (Elt Ideal)) : after (ops2a (F := Ideal)) V (Proc.devRef .tc main_arg4) = V (Proc.devRef .tc main_arg4) := by
  simp only [ops2a]; after_results_simp
theorem k2a_arg5 (V : Valuation τ sig (Elt Ideal)) : after (ops2a (F := Ideal)) V (Proc.devRef .tc main_arg5) = V (Proc.devRef .tc main_arg5) := by
  simp only [ops2a]; after_results_simp
theorem k2a_arg6 (V : Valuation τ sig (Elt Ideal)) : after (ops2a (F := Ideal)) V (Proc.devRef .tc main_arg6) = V (Proc.devRef .tc main_arg6) := by
  simp only [ops2a]; after_results_simp
theorem k2a_arg7 (V : Valuation τ sig (Elt Ideal)) : after (ops2a (F := Ideal)) V (Proc.devRef .tc main_arg7) = V (Proc.devRef .tc main_arg7) := by
  simp only [ops2a]; after_results_simp

end Cert.ReferenceIdeal.Stretch

end
-- ==== Proof.RefStretch2b.lean ====
/-
  Stretch 2b of the reference's line (the first layer's ReLU), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s2b_v47 (V : Valuation τ sig (Elt Ideal)) (a : FVec Ideal S100000x128 .f32)
    (ha : V (Proc.devRef .tc main_v46) = a) :
    after (ops2b (F := Ideal)) V (Proc.devRef .tc main_v47) = rRelu128 a := by
  simp only [ops2b]; after_results_simp
  simp only [TRef.ofBuf_toBuf]
  rw [ha]
  rfl

theorem k2b_v6 (V : Valuation τ sig (Elt Ideal)) : after (ops2b (F := Ideal)) V (Proc.devRef .tc main_v6) = V (Proc.devRef .tc main_v6) := by
  simp only [ops2b]; after_results_simp
theorem k2b_v3 (V : Valuation τ sig (Elt Ideal)) : after (ops2b (F := Ideal)) V (Proc.devRef .tc main_v3) = V (Proc.devRef .tc main_v3) := by
  simp only [ops2b]; after_results_simp
theorem k2b_arg4 (V : Valuation τ sig (Elt Ideal)) : after (ops2b (F := Ideal)) V (Proc.devRef .tc main_arg4) = V (Proc.devRef .tc main_arg4) := by
  simp only [ops2b]; after_results_simp
theorem k2b_arg5 (V : Valuation τ sig (Elt Ideal)) : after (ops2b (F := Ideal)) V (Proc.devRef .tc main_arg5) = V (Proc.devRef .tc main_arg5) := by
  simp only [ops2b]; after_results_simp
theorem k2b_arg6 (V : Valuation τ sig (Elt Ideal)) : after (ops2b (F := Ideal)) V (Proc.devRef .tc main_arg6) = V (Proc.devRef .tc main_arg6) := by
  simp only [ops2b]; after_results_simp
theorem k2b_arg7 (V : Valuation τ sig (Elt Ideal)) : after (ops2b (F := Ideal)) V (Proc.devRef .tc main_arg7) = V (Proc.devRef .tc main_arg7) := by
  simp only [ops2b]; after_results_simp

end Cert.ReferenceIdeal.Stretch

end
-- ==== Proof.RefStretch3a.lean ====
/-
  Stretch 3a of the reference's line (the second dense product, and the degrees' compare and inverse square roots again), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s3a_v48 (V : Valuation τ sig (Elt Ideal)) (h : FVec Ideal S100000x128 .f32) (w : FVec Ideal S128x128 .f32)
    (hh : V (Proc.devRef .tc main_v47) = h) (hw : V (Proc.devRef .tc main_arg4) = w) :
    after (ops3a (F := Ideal)) V (Proc.devRef .tc main_v48) = rDot128 h w := by
  simp only [ops3a]; after_results_simp
  rw [hh, hw]
  rfl

theorem s3a_v54 (V : Valuation τ sig (Elt Ideal)) (d : (⟨S1700000, .i32⟩ : BufTy).Contents (Elt Ideal))
    (hd : V (Proc.devRef .tc main_v6) = d) :
    after (ops3a (F := Ideal)) V (Proc.devRef .tc main_v54) = rCmp d := by
  simp only [ops3a]; after_results_simp
  rw [hd]
  rfl

theorem s3a_v55 (V : Valuation τ sig (Elt Ideal)) (d : (⟨S1700000, .i32⟩ : BufTy).Contents (Elt Ideal))
    (hd : V (Proc.devRef .tc main_v6) = d) :
    after (ops3a (F := Ideal)) V (Proc.devRef .tc main_v55) = rRs d := by
  simp only [ops3a]; after_results_simp
  rw [hd]
  rfl

theorem s3a_cst_12 (V : Valuation τ sig (Elt Ideal))
    :
    after (ops3a (F := Ideal)) V (Proc.devRef .tc main_cst_12) = rZero := by
  simp only [ops3a]; after_results_simp
  rfl

theorem k3a_v6 (V : Valuation τ sig (Elt Ideal)) : after (ops3a (F := Ideal)) V (Proc.devRef .tc main_v6) = V (Proc.devRef .tc main_v6) := by
  simp only [ops3a]; after_results_simp
theorem k3a_v3 (V : Valuation τ sig (Elt Ideal)) : after (ops3a (F := Ideal)) V (Proc.devRef .tc main_v3) = V (Proc.devRef .tc main_v3) := by
  simp only [ops3a]; after_results_simp
theorem k3a_arg5 (V : Valuation τ sig (Elt Ideal)) : after (ops3a (F := Ideal)) V (Proc.devRef .tc main_arg5) = V (Proc.devRef .tc main_arg5) := by
  simp only [ops3a]; after_results_simp
theorem k3a_arg6 (V : Valuation τ sig (Elt Ideal)) : after (ops3a (F := Ideal)) V (Proc.devRef .tc main_arg6) = V (Proc.devRef .tc main_arg6) := by
  simp only [ops3a]; after_results_simp
theorem k3a_arg7 (V : Valuation τ sig (Elt Ideal)) : after (ops3a (F := Ideal)) V (Proc.devRef .tc main_arg7) = V (Proc.devRef .tc main_arg7) := by
  simp only [ops3a]; after_results_simp

end Cert.ReferenceIdeal.Stretch

end
-- ==== Proof.RefStretch3b.lean ====
/-
  Stretch 3b of the reference's line (the outlined select again), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s3b_v56 (V : Valuation τ sig (Elt Ideal)) (p : (⟨S100000, .i1⟩ : BufTy).Contents (Elt Ideal)) (q : FVec Ideal S100000 .f32) (z : FVec Ideal S_ .f32)
    (hp : V (Proc.devRef .tc main_v54) = p) (hq : V (Proc.devRef .tc main_v55) = q) (hz : V (Proc.devRef .tc main_cst_12) = z) :
    after (ops3b (F := Ideal)) V (Proc.devRef .tc main_v56) = rWhere p q z := by
  simp only [ops3b]; after_results_simp
  simp only [TRef.ofBuf_toBuf]
  rw [hp, hq, hz]
  rfl

theorem k3b_v6 (V : Valuation τ sig (Elt Ideal)) : after (ops3b (F := Ideal)) V (Proc.devRef .tc main_v6) = V (Proc.devRef .tc main_v6) := by
  simp only [ops3b]; after_results_simp
theorem k3b_v3 (V : Valuation τ sig (Elt Ideal)) : after (ops3b (F := Ideal)) V (Proc.devRef .tc main_v3) = V (Proc.devRef .tc main_v3) := by
  simp only [ops3b]; after_results_simp
theorem k3b_v48 (V : Valuation τ sig (Elt Ideal)) : after (ops3b (F := Ideal)) V (Proc.devRef .tc main_v48) = V (Proc.devRef .tc main_v48) := by
  simp only [ops3b]; after_results_simp
theorem k3b_arg5 (V : Valuation τ sig (Elt Ideal)) : after (ops3b (F := Ideal)) V (Proc.devRef .tc main_arg5) = V (Proc.devRef .tc main_arg5) := by
  simp only [ops3b]; after_results_simp
theorem k3b_arg6 (V : Valuation τ sig (Elt Ideal)) : after (ops3b (F := Ideal)) V (Proc.devRef .tc main_arg6) = V (Proc.devRef .tc main_arg6) := by
  simp only [ops3b]; after_results_simp
theorem k3b_arg7 (V : Valuation τ sig (Elt Ideal)) : after (ops3b (F := Ideal)) V (Proc.devRef .tc main_arg7) = V (Proc.devRef .tc main_arg7) := by
  simp only [ops3b]; after_results_simp

end Cert.ReferenceIdeal.Stretch

end
-- ==== Proof.RefStretch3c.lean ====
/-
  Stretch 3c of the reference's line (the normalisation coefficients again), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s3c_v71 (V : Valuation τ sig (Elt Ideal)) (s : (⟨S1700000, .i32⟩ : BufTy).Contents (Elt Ideal)) (d : (⟨S1700000, .i32⟩ : BufTy).Contents (Elt Ideal)) (w : FVec Ideal S100000 .f32)
    (hs : V (Proc.devRef .tc main_v3) = s) (hd : V (Proc.devRef .tc main_v6) = d) (hw : V (Proc.devRef .tc main_v56) = w) :
    after (ops3c (F := Ideal)) V (Proc.devRef .tc main_v71) = rNormW s d w := by
  simp only [ops3c]; after_results_simp
  rw [hs, hd, hw]
  rfl

theorem k3c_v6 (V : Valuation τ sig (Elt Ideal)) : after (ops3c (F := Ideal)) V (Proc.devRef .tc main_v6) = V (Proc.devRef .tc main_v6) := by
  simp only [ops3c]; after_results_simp
theorem k3c_v3 (V : Valuation τ sig (Elt Ideal)) : after (ops3c (F := Ideal)) V (Proc.devRef .tc main_v3) = V (Proc.devRef .tc main_v3) := by
  simp only [ops3c]; after_results_simp
theorem k3c_v48 (V : Valuation τ sig (Elt Ideal)) : after (ops3c (F := Ideal)) V (Proc.devRef .tc main_v48) = V (Proc.devRef .tc main_v48) := by
  simp only [ops3c]; after_results_simp
theorem k3c_arg5 (V : Valuation τ sig (Elt Ideal)) : after (ops3c (F := Ideal)) V (Proc.devRef .tc main_arg5) = V (Proc.devRef .tc main_arg5) := by
  simp only [ops3c]; after_results_simp
theorem k3c_arg6 (V : Valuation τ sig (Elt Ideal)) : after (ops3c (F := Ideal)) V (Proc.devRef .tc main_arg6) = V (Proc.devRef .tc main_arg6) := by
  simp only [ops3c]; after_results_simp
theorem k3c_arg7 (V : Valuation τ sig (Elt Ideal)) : after (ops3c (F := Ideal)) V (Proc.devRef .tc main_arg7) = V (Proc.devRef .tc main_arg7) := by
  simp only [ops3c]; after_results_simp

end Cert.ReferenceIdeal.Stretch

end
-- ==== Proof.RefStretch4a.lean ====
/-
  Stretch 4a of the reference's line (the second layer's aggregation and bias), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s4a_v87 (V : Valuation τ sig (Elt Ideal)) (s : (⟨S1700000, .i32⟩ : BufTy).Contents (Elt Ideal)) (d : (⟨S1700000, .i32⟩ : BufTy).Contents (Elt Ideal)) (n : FVec Ideal S1700000 .f32) (h : FVec Ideal S100000x128 .f32) (b : FVec Ideal S128 .f32)
    (hs : V (Proc.devRef .tc main_v3) = s) (hd : V (Proc.devRef .tc main_v6) = d) (hn : V (Proc.devRef .tc main_v71) = n) (hh : V (Proc.devRef .tc main_v48) = h) (hb : V (Proc.devRef .tc main_arg5) = b) :
    after (ops4a (F := Ideal)) V (Proc.devRef .tc main_v87) = rPre128 s d n h b := by
  simp only [ops4a]; after_results_simp
  rw [hs, hd, hn, hh, hb]
  rfl

theorem k4a_v6 (V : Valuation τ sig (Elt Ideal)) : after (ops4a (F := Ideal)) V (Proc.devRef .tc main_v6) = V (Proc.devRef .tc main_v6) := by
  simp only [ops4a]; after_results_simp
theorem k4a_v3 (V : Valuation τ sig (Elt Ideal)) : after (ops4a (F := Ideal)) V (Proc.devRef .tc main_v3) = V (Proc.devRef .tc main_v3) := by
  simp only [ops4a]; after_results_simp
theorem k4a_arg6 (V : Valuation τ sig (Elt Ideal)) : after (ops4a (F := Ideal)) V (Proc.devRef .tc main_arg6) = V (Proc.devRef .tc main_arg6) := by
  simp only [ops4a]; after_results_simp
theorem k4a_arg7 (V : Valuation τ sig (Elt Ideal)) : after (ops4a (F := Ideal)) V (Proc.devRef .tc main_arg7) = V (Proc.devRef .tc main_arg7) := by
  simp only [ops4a]; after_results_simp

end Cert.ReferenceIdeal.Stretch

end
-- ==== Proof.RefStretch4b.lean ====
/-
  Stretch 4b of the reference's line (the second layer's ReLU), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s4b_v88 (V : Valuation τ sig (Elt Ideal)) (a : FVec Ideal S100000x128 .f32)
    (ha : V (Proc.devRef .tc main_v87) = a) :
    after (ops4b (F := Ideal)) V (Proc.devRef .tc main_v88) = rRelu128 a := by
  simp only [ops4b]; after_results_simp
  simp only [TRef.ofBuf_toBuf]
  rw [ha]
  rfl

theorem k4b_v6 (V : Valuation τ sig (Elt Ideal)) : after (ops4b (F := Ideal)) V (Proc.devRef .tc main_v6) = V (Proc.devRef .tc main_v6) := by
  simp only [ops4b]; after_results_simp
theorem k4b_v3 (V : Valuation τ sig (Elt Ideal)) : after (ops4b (F := Ideal)) V (Proc.devRef .tc main_v3) = V (Proc.devRef .tc main_v3) := by
  simp only [ops4b]; after_results_simp
theorem k4b_arg6 (V : Valuation τ sig (Elt Ideal)) : after (ops4b (F := Ideal)) V (Proc.devRef .tc main_arg6) = V (Proc.devRef .tc main_arg6) := by
  simp only [ops4b]; after_results_simp
theorem k4b_arg7 (V : Valuation τ sig (Elt Ideal)) : after (ops4b (F := Ideal)) V (Proc.devRef .tc main_arg7) = V (Proc.devRef .tc main_arg7) := by
  simp only [ops4b]; after_results_simp

end Cert.ReferenceIdeal.Stretch

end
-- ==== Proof.RefStretch5a.lean ====
/-
  Stretch 5a of the reference's line (the third dense product, and the degrees' compare and inverse square roots once more), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s5a_v89 (V : Valuation τ sig (Elt Ideal)) (h : FVec Ideal S100000x128 .f32) (w : FVec Ideal S128x40 .f32)
    (hh : V (Proc.devRef .tc main_v88) = h) (hw : V (Proc.devRef .tc main_arg6) = w) :
    after (ops5a (F := Ideal)) V (Proc.devRef .tc main_v89) = rDot40 h w := by
  simp only [ops5a]; after_results_simp
  rw [hh, hw]
  rfl

theorem s5a_v95 (V : Valuation τ sig (Elt Ideal)) (d : (⟨S1700000, .i32⟩ : BufTy).Contents (Elt Ideal))
    (hd : V (Proc.devRef .tc main_v6) = d) :
    after (ops5a (F := Ideal)) V (Proc.devRef .tc main_v95) = rCmp d := by
  simp only [ops5a]; after_results_simp
  rw [hd]
  rfl

theorem s5a_v96 (V : Valuation τ sig (Elt Ideal)) (d : (⟨S1700000, .i32⟩ : BufTy).Contents (Elt Ideal))
    (hd : V (Proc.devRef .tc main_v6) = d) :
    after (ops5a (F := Ideal)) V (Proc.devRef .tc main_v96) = rRs d := by
  simp only [ops5a]; after_results_simp
  rw [hd]
  rfl

theorem s5a_cst_23 (V : Valuation τ sig (Elt Ideal))
    :
    after (ops5a (F := Ideal)) V (Proc.devRef .tc main_cst_23) = rZero := by
  simp only [ops5a]; after_results_simp
  rfl

theorem k5a_v6 (V : Valuation τ sig (Elt Ideal)) : after (ops5a (F := Ideal)) V (Proc.devRef .tc main_v6) = V (Proc.devRef .tc main_v6) := by
  simp only [ops5a]; after_results_simp
theorem k5a_v3 (V : Valuation τ sig (Elt Ideal)) : after (ops5a (F := Ideal)) V (Proc.devRef .tc main_v3) = V (Proc.devRef .tc main_v3) := by
  simp only [ops5a]; after_results_simp
theorem k5a_arg7 (V : Valuation τ sig (Elt Ideal)) : after (ops5a (F := Ideal)) V (Proc.devRef .tc main_arg7) = V (Proc.devRef .tc main_arg7) := by
  simp only [ops5a]; after_results_simp

end Cert.ReferenceIdeal.Stretch

end
-- ==== Proof.RefStretch5b.lean ====
/-
  Stretch 5b of the reference's line (the outlined select once more), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s5b_v97 (V : Valuation τ sig (Elt Ideal)) (p : (⟨S100000, .i1⟩ : BufTy).Contents (Elt Ideal)) (q : FVec Ideal S100000 .f32) (z : FVec Ideal S_ .f32)
    (hp : V (Proc.devRef .tc main_v95) = p) (hq : V (Proc.devRef .tc main_v96) = q) (hz : V (Proc.devRef .tc main_cst_23) = z) :
    after (ops5b (F := Ideal)) V (Proc.devRef .tc main_v97) = rWhere p q z := by
  simp only [ops5b]; after_results_simp
  simp only [TRef.ofBuf_toBuf]
  rw [hp, hq, hz]
  rfl

theorem k5b_v6 (V : Valuation τ sig (Elt Ideal)) : after (ops5b (F := Ideal)) V (Proc.devRef .tc main_v6) = V (Proc.devRef .tc main_v6) := by
  simp only [ops5b]; after_results_simp
theorem k5b_v3 (V : Valuation τ sig (Elt Ideal)) : after (ops5b (F := Ideal)) V (Proc.devRef .tc main_v3) = V (Proc.devRef .tc main_v3) := by
  simp only [ops5b]; after_results_simp
theorem k5b_v89 (V : Valuation τ sig (Elt Ideal)) : after (ops5b (F := Ideal)) V (Proc.devRef .tc main_v89) = V (Proc.devRef .tc main_v89) := by
  simp only [ops5b]; after_results_simp
theorem k5b_arg7 (V : Valuation τ sig (Elt Ideal)) : after (ops5b (F := Ideal)) V (Proc.devRef .tc main_arg7) = V (Proc.devRef .tc main_arg7) := by
  simp only [ops5b]; after_results_simp

end Cert.ReferenceIdeal.Stretch

end
-- ==== Proof.RefStretch5c.lean ====
/-
  Stretch 5c of the reference's line (the normalisation coefficients once more), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s5c_v112 (V : Valuation τ sig (Elt Ideal)) (s : (⟨S1700000, .i32⟩ : BufTy).Contents (Elt Ideal)) (d : (⟨S1700000, .i32⟩ : BufTy).Contents (Elt Ideal)) (w : FVec Ideal S100000 .f32)
    (hs : V (Proc.devRef .tc main_v3) = s) (hd : V (Proc.devRef .tc main_v6) = d) (hw : V (Proc.devRef .tc main_v97) = w) :
    after (ops5c (F := Ideal)) V (Proc.devRef .tc main_v112) = rNormW s d w := by
  simp only [ops5c]; after_results_simp
  rw [hs, hd, hw]
  rfl

theorem k5c_v6 (V : Valuation τ sig (Elt Ideal)) : after (ops5c (F := Ideal)) V (Proc.devRef .tc main_v6) = V (Proc.devRef .tc main_v6) := by
  simp only [ops5c]; after_results_simp
theorem k5c_v3 (V : Valuation τ sig (Elt Ideal)) : after (ops5c (F := Ideal)) V (Proc.devRef .tc main_v3) = V (Proc.devRef .tc main_v3) := by
  simp only [ops5c]; after_results_simp
theorem k5c_v89 (V : Valuation τ sig (Elt Ideal)) : after (ops5c (F := Ideal)) V (Proc.devRef .tc main_v89) = V (Proc.devRef .tc main_v89) := by
  simp only [ops5c]; after_results_simp
theorem k5c_arg7 (V : Valuation τ sig (Elt Ideal)) : after (ops5c (F := Ideal)) V (Proc.devRef .tc main_arg7) = V (Proc.devRef .tc main_arg7) := by
  simp only [ops5c]; after_results_simp

end Cert.ReferenceIdeal.Stretch

end
-- ==== Proof.RefStretch6a.lean ====
/-
  Stretch 6a of the reference's line (the third layer's aggregation and bias), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s6a_v128 (V : Valuation τ sig (Elt Ideal)) (s : (⟨S1700000, .i32⟩ : BufTy).Contents (Elt Ideal)) (d : (⟨S1700000, .i32⟩ : BufTy).Contents (Elt Ideal)) (n : FVec Ideal S1700000 .f32) (h : FVec Ideal S100000x40 .f32) (b : FVec Ideal S40 .f32)
    (hs : V (Proc.devRef .tc main_v3) = s) (hd : V (Proc.devRef .tc main_v6) = d) (hn : V (Proc.devRef .tc main_v112) = n) (hh : V (Proc.devRef .tc main_v89) = h) (hb : V (Proc.devRef .tc main_arg7) = b) :
    after (ops6a (F := Ideal)) V (Proc.devRef .tc main_v128) = rPre40 s d n h b := by
  simp only [ops6a]; after_results_simp
  rw [hs, hd, hn, hh, hb]
  rfl

end Cert.ReferenceIdeal.Stretch

end
-- ==== Proof.RefStretch6b.lean ====
/-
  Stretch 6b of the reference's line (the third layer's ReLU), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s6b_v129 (V : Valuation τ sig (Elt Ideal)) (a : FVec Ideal S100000x40 .f32)
    (ha : V (Proc.devRef .tc main_v128) = a) :
    after (ops6b (F := Ideal)) V (Proc.devRef .tc main_v129) = rRelu40 a := by
  simp only [ops6b]; after_results_simp
  simp only [TRef.ofBuf_toBuf]
  rw [ha]
  rfl

end Cert.ReferenceIdeal.Stretch

end
-- ==== Proof.RefStretch7.lean ====
/-
  Stretch 7 of the reference's line (the log-softmax), from ANY buffer contents `V`: the buffers it writes end at the
  stretch's function of what it reads, and the buffers later stretches read are kept.
-/
import proofs.«176480_j51831665328310_1_alg».proof.Proof.RefStretches
import proofs.«176480_j51831665328310_1_alg».proof.Proof.RefStretchFns
import proofs.«176480_j51831665328310_1_alg».proof.Proof.LibTypedRef
import Idealize.ShloMosaic.Lib.StableHlo.Run

set_option maxRecDepth 16384

noncomputable section

namespace Cert.ReferenceIdeal.Stretch

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem s7_v130 (V : Valuation τ sig (Elt Ideal)) (p : FVec Ideal S100000x40 .f32)
    (hp : V (Proc.devRef .tc main_v129) = p) :
    after (ops7 (F := Ideal)) V (Proc.devRef .tc main_v130) = rLogSoftmax p := by
  simp only [ops7]; after_results_simp
  simp only [TRef.ofBuf_toBuf]
  rw [hp]
  rfl

end Cert.ReferenceIdeal.Stretch

end
-- ==== Proof.RefChain.lean ====
/-
  The reference's run, read stretch by stretch: chained from the launch contents, each stretch's facts give the next's
  hypotheses, and the result buffer ends at the result stage of the argument arrays; the arguments are never written.
-/
import proofs.«176480_j51831665328310_1_alg».proof.Proof.RefStretch1a
import proofs.«176480_j51831665328310_1_alg».proof.Proof.RefStretch1b
import proofs.«176480_j51831665328310_1_alg».proof.Proof.RefStretch1c
import proofs.«176480_j51831665328310_1_alg».proof.Proof.RefStretch1d
import proofs.«176480_j51831665328310_1_alg».proof.Proof.RefStretch2a
import proofs.«176480_j51831665328310_1_alg».proof.Proof.RefStretch2b
import proofs.«176480_j51831665328310_1_alg».proof.Proof.RefStretch3a
import proofs.«176480_j51831665328310_1_alg».proof.Proof.RefStretch3b
import proofs.«176480_j51831665328310_1_alg».proof.Proof.RefStretch3c
import proofs.«176480_j51831665328310_1_alg».proof.Proof.RefStretch4a
import proofs.«176480_j51831665328310_1_alg».proof.Proof.RefStretch4b
import proofs.«176480_j51831665328310_1_alg».proof.Proof.RefStretch5a
import proofs.«176480_j51831665328310_1_alg».proof.Proof.RefStretch5b
import proofs.«176480_j51831665328310_1_alg».proof.Proof.RefStretch5c
import proofs.«176480_j51831665328310_1_alg».proof.Proof.RefStretch6a
import proofs.«176480_j51831665328310_1_alg».proof.Proof.RefStretch6b
import proofs.«176480_j51831665328310_1_alg».proof.Proof.RefStretch7
import Idealize.ShloMosaic.Lib.Pipeline.Frame

set_option maxRecDepth 16384

noncomputable section

namespace Cert.ReferenceIdeal.Chain

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.ReferenceIdeal.Stretch

variable (m : (ℓ : Loc nD τ sig) → Buf (Elt Ideal) ℓ) (ρ : Dev nD → PrngReg)

/-- The buffer contents after each stretch, from the launch contents. -/
abbrev R1a (c : Dev nD) : Valuation τ sig (Elt Ideal) := after (ops1a (F := Ideal)) (launchContents m c)
abbrev R1b (c : Dev nD) : Valuation τ sig (Elt Ideal) := after (ops1b (F := Ideal)) (R1a m c)
abbrev R1c (c : Dev nD) : Valuation τ sig (Elt Ideal) := after (ops1c (F := Ideal)) (R1b m c)
abbrev R1d (c : Dev nD) : Valuation τ sig (Elt Ideal) := after (ops1d (F := Ideal)) (R1c m c)
abbrev R2a (c : Dev nD) : Valuation τ sig (Elt Ideal) := after (ops2a (F := Ideal)) (R1d m c)
abbrev R2b (c : Dev nD) : Valuation τ sig (Elt Ideal) := after (ops2b (F := Ideal)) (R2a m c)
abbrev R3a (c : Dev nD) : Valuation τ sig (Elt Ideal) := after (ops3a (F := Ideal)) (R2b m c)
abbrev R3b (c : Dev nD) : Valuation τ sig (Elt Ideal) := after (ops3b (F := Ideal)) (R3a m c)
abbrev R3c (c : Dev nD) : Valuation τ sig (Elt Ideal) := after (ops3c (F := Ideal)) (R3b m c)
abbrev R4a (c : Dev nD) : Valuation τ sig (Elt Ideal) := after (ops4a (F := Ideal)) (R3c m c)
abbrev R4b (c : Dev nD) : Valuation τ sig (Elt Ideal) := after (ops4b (F := Ideal)) (R4a m c)
abbrev R5a (c : Dev nD) : Valuation τ sig (Elt Ideal) := after (ops5a (F := Ideal)) (R4b m c)
abbrev R5b (c : Dev nD) : Valuation τ sig (Elt Ideal) := after (ops5b (F := Ideal)) (R5a m c)
abbrev R5c (c : Dev nD) : Valuation τ sig (Elt Ideal) := after (ops5c (F := Ideal)) (R5b m c)
abbrev R6a (c : Dev nD) : Valuation τ sig (Elt Ideal) := after (ops6a (F := Ideal)) (R5c m c)
abbrev R6b (c : Dev nD) : Valuation τ sig (Elt Ideal) := after (ops6b (F := Ideal)) (R6a m c)
abbrev R7 (c : Dev nD) : Valuation τ sig (Elt Ideal) := after (ops7 (F := Ideal)) (R6b m c)

theorem f_launch_arg0 (c : Dev nD) : launchContents m c (Proc.devRef .tc main_arg0) = (m ((c.tc : Thread nD τ).loc main_arg0)) := rfl
theorem f_launch_arg1 (c : Dev nD) : launchContents m c (Proc.devRef .tc main_arg1) = (m ((c.tc : Thread nD τ).loc main_arg1)) := rfl
theorem f_launch_arg2 (c : Dev nD) : launchContents m c (Proc.devRef .tc main_arg2) = (m ((c.tc : Thread nD τ).loc main_arg2)) := rfl
theorem f_launch_arg3 (c : Dev nD) : launchContents m c (Proc.devRef .tc main_arg3) = (m ((c.tc : Thread nD τ).loc main_arg3)) := rfl
theorem f_launch_arg4 (c : Dev nD) : launchContents m c (Proc.devRef .tc main_arg4) = (m ((c.tc : Thread nD τ).loc main_arg4)) := rfl
theorem f_launch_arg5 (c : Dev nD) : launchContents m c (Proc.devRef .tc main_arg5) = (m ((c.tc : Thread nD τ).loc main_arg5)) := rfl
theorem f_launch_arg6 (c : Dev nD) : launchContents m c (Proc.devRef .tc main_arg6) = (m ((c.tc : Thread nD τ).loc main_arg6)) := rfl
theorem f_launch_arg7 (c : Dev nD) : launchContents m c (Proc.devRef .tc main_arg7) = (m ((c.tc : Thread nD τ).loc main_arg7)) := rfl

/-! After stretch 1a. -/
theorem f1a_v3 (c : Dev nD) : R1a m c (Proc.devRef .tc main_v3) = val_main_v3 (F := Ideal) (m ((c.tc : Thread nD τ).loc main_arg1)) :=
  s1a_v3 (launchContents m c) _ (f_launch_arg1 m c)
theorem f1a_v6 (c : Dev nD) : R1a m c (Proc.devRef .tc main_v6) = val_main_v6 (F := Ideal) (m ((c.tc : Thread nD τ).loc main_arg1)) :=
  s1a_v6 (launchContents m c) _ (f_launch_arg1 m c)
theorem f1a_v7 (c : Dev nD) : R1a m c (Proc.devRef .tc main_v7) = val_main_v7 (F := Ideal) (m ((c.tc : Thread nD τ).loc main_arg0)) (m ((c.tc : Thread nD τ).loc main_arg2)) :=
  s1a_v7 (launchContents m c) _ _ (f_launch_arg0 m c) (f_launch_arg2 m c)
theorem f1a_arg3 (c : Dev nD) : R1a m c (Proc.devRef .tc main_arg3) = (m ((c.tc : Thread nD τ).loc main_arg3)) :=
  (k1a_arg3 (launchContents m c)).trans (f_launch_arg3 m c)
theorem f1a_arg4 (c : Dev nD) : R1a m c (Proc.devRef .tc main_arg4) = (m ((c.tc : Thread nD τ).loc main_arg4)) :=
  (k1a_arg4 (launchContents m c)).trans (f_launch_arg4 m c)
theorem f1a_arg5 (c : Dev nD) : R1a m c (Proc.devRef .tc main_arg5) = (m ((c.tc : Thread nD τ).loc main_arg5)) :=
  (k1a_arg5 (launchContents m c)).trans (f_launch_arg5 m c)
theorem f1a_arg6 (c : Dev nD) : R1a m c (Proc.devRef .tc main_arg6) = (m ((c.tc : Thread nD τ).loc main_arg6)) :=
  (k1a_arg6 (launchContents m c)).trans (f_launch_arg6 m c)
theorem f1a_arg7 (c : Dev nD) : R1a m c (Proc.devRef .tc main_arg7) = (m ((c.tc : Thread nD τ).loc main_arg7)) :=
  (k1a_arg7 (launchContents m c)).trans (f_launch_arg7 m c)

/-! After stretch 1b. -/
theorem f1b_v13 (c : Dev nD) : R1b m c (Proc.devRef .tc main_v13) = val_main_v13 (F := Ideal) (m ((c.tc : Thread nD τ).loc main_arg1)) :=
  (s1b_v13 (R1a m c) _ (f1a_v6 m c)).trans (br_v13 _)
theorem f1b_v14 (c : Dev nD) : R1b m c (Proc.devRef .tc main_v14) = val_main_v14 (F := Ideal) (m ((c.tc : Thread nD τ).loc main_arg1)) :=
  (s1b_v14 (R1a m c) _ (f1a_v6 m c)).trans (br_v14 _)
theorem f1b_cst_2 (c : Dev nD) : R1b m c (Proc.devRef .tc main_cst_2) = val_main_cst_2 (F := Ideal) :=
  (s1b_cst_2 (R1a m c)).trans (br_cst_2)
theorem f1b_v6 (c : Dev nD) : R1b m c (Proc.devRef .tc main_v6) = val_main_v6 (F := Ideal) (m ((c.tc : Thread nD τ).loc main_arg1)) :=
  (k1b_v6 (R1a m c)).trans (f1a_v6 m c)
theorem f1b_v3 (c : Dev nD) : R1b m c (Proc.devRef .tc main_v3) = val_main_v3 (F := Ideal) (m ((c.tc : Thread nD τ).loc main_arg1)) :=
  (k1b_v3 (R1a m c)).trans (f1a_v3 m c)
theorem f1b_v7 (c : Dev nD) : R1b m c (Proc.devRef .tc main_v7) = val_main_v7 (F := Ideal) (m ((c.tc : Thread nD τ).loc main_arg0)) (m ((c.tc : Thread nD τ).loc main_arg2)) :=
  (k1b_v7 (R1a m c)).trans (f1a_v7 m c)
theorem f1b_arg3 (c : Dev nD) : R1b m c (Proc.devRef .tc main_arg3) = (m ((c.tc : Thread nD τ).loc main_arg3)) :=
  (k1b_arg3 (R1a m c)).trans (f1a_arg3 m c)
theorem f1b_arg4 (c : Dev nD) : R1b m c (Proc.devRef .tc main_arg4) = (m ((c.tc : Thread nD τ).loc main_arg4)) :=
  (k1b_arg4 (R1a m c)).trans (f1a_arg4 m c)
theorem f1b_arg5 (c : Dev nD) : R1b m c (Proc.devRef .tc main_arg5) = (m ((c.tc : Thread nD τ).loc main_arg5)) :=
  (k1b_arg5 (R1a m c)).trans (f1a_arg5 m c)
theorem f1b_arg6 (c : Dev nD) : R1b m c (Proc.devRef .tc main_arg6) = (m ((c.tc : Thread nD τ).loc main_arg6)) :=
  (k1b_arg6 (R1a m c)).trans (f1a_arg6 m c)
theorem f1b_arg7 (c : Dev nD) : R1b m c (Proc.devRef .tc main_arg7) = (m ((c.tc : Thread nD τ).loc main_arg7)) :=
  (k1b_arg7 (R1a m c)).trans (f1a_arg7 m c)

/-! After stretch 1c. -/
theorem f1c_v15 (c : Dev nD) : R1c m c (Proc.devRef .tc main_v15) = val_main_v15 (F := Ideal) (m ((c.tc : Thread nD τ).loc main_arg1)) :=
  (s1c_v15 (R1b m c) _ _ _ (f1b_v13 m c) (f1b_v14 m c) (f1b_cst_2 m c)).trans (br_v15 _)
theorem f1c_v6 (c : Dev nD) : R1c m c (Proc.devRef .tc main_v6) = val_main_v6 (F := Ideal) (m ((c.tc : Thread nD τ).loc main_arg1)) :=
  (k1c_v6 (R1b m c)).trans (f1b_v6 m c)
theorem f1c_v3 (c : Dev nD) : R1c m c (Proc.devRef .tc main_v3) = val_main_v3 (F := Ideal) (m ((c.tc : Thread nD τ).loc main_arg1)) :=
  (k1c_v3 (R1b m c)).trans (f1b_v3 m c)
theorem f1c_v7 (c : Dev nD) : R1c m c (Proc.devRef .tc main_v7) = val_main_v7 (F := Ideal) (m ((c.tc : Thread nD τ).loc main_arg0)) (m ((c.tc : Thread nD τ).loc main_arg2)) :=
  (k1c_v7 (R1b m c)).trans (f1b_v7 m c)
theorem f1c_arg3 (c : Dev nD) : R1c m c (Proc.devRef .tc main_arg3) = (m ((c.tc : Thread nD τ).loc main_arg3)) :=
  (k1c_arg3 (R1b m c)).trans (f1b_arg3 m c)
theorem f1c_arg4 (c : Dev nD) : R1c m c (Proc.devRef .tc main_arg4) = (m ((c.tc : Thread nD τ).loc main_arg4)) :=
  (k1c_arg4 (R1b m c)).trans (f1b_arg4 m c)
theorem f1c_arg5 (c : Dev nD) : R1c m c (Proc.devRef .tc main_arg5) = (m ((c.tc : Thread nD τ).loc main_arg5)) :=
  (k1c_arg5 (R1b m c)).trans (f1b_arg5 m c)
theorem f1c_arg6 (c : Dev nD) : R1c m c (Proc.devRef .tc main_arg6) = (m ((c.tc : Thread nD τ).loc main_arg6)) :=
  (k1c_arg6 (R1b m c)).trans (f1b_arg6 m c)
theorem f1c_arg7 (c : Dev nD) : R1c m c (Proc.devRef .tc main_arg7) = (m ((c.tc : Thread nD τ).loc main_arg7)) :=
  (k1c_arg7 (R1b m c)).trans (f1b_arg7 m c)

/-! After stretch 1d. -/
theorem f1d_v30 (c : Dev nD) : R1d m c (Proc.devRef .tc main_v30) = val_main_v30 (F := Ideal) (m ((c.tc : Thread nD τ).loc main_arg1)) :=
  (s1d_v30 (R1c m c) _ _ _ (f1c_v3 m c) (f1c_v6 m c) (f1c_v15 m c)).trans (br_v30 _)
theorem f1d_v6 (c : Dev nD) : R1d m c (Proc.devRef .tc main_v6) = val_main_v6 (F := Ideal) (m ((c.tc : Thread nD τ).loc main_arg1)) :=
  (k1d_v6 (R1c m c)).trans (f1c_v6 m c)
theorem f1d_v3 (c : Dev nD) : R1d m c (Proc.devRef .tc main_v3) = val_main_v3 (F := Ideal) (m ((c.tc : Thread nD τ).loc main_arg1)) :=
  (k1d_v3 (R1c m c)).trans (f1c_v3 m c)
theorem f1d_v7 (c : Dev nD) : R1d m c (Proc.devRef .tc main_v7) = val_main_v7 (F := Ideal) (m ((c.tc : Thread nD τ).loc main_arg0)) (m ((c.tc : Thread nD τ).loc main_arg2)) :=
  (k1d_v7 (R1c m c)).trans (f1c_v7 m c)
theorem f1d_arg3 (c : Dev nD) : R1d m c (Proc.devRef .tc main_arg3) = (m ((c.tc : Thread nD τ).loc main_arg3)) :=
  (k1d_arg3 (R1c m c)).trans (f1c_arg3 m c)
theorem f1d_arg4 (c : Dev nD) : R1d m c (Proc.devRef .tc main_arg4) = (m ((c.tc : Thread nD τ).loc main_arg4)) :=
  (k1d_arg4 (R1c m c)).trans (f1c_arg4 m c)
theorem f1d_arg5 (c : Dev nD) : R1d m c (Proc.devRef .tc main_arg5) = (m ((c.tc : Thread nD τ).loc main_arg5)) :=
  (k1d_arg5 (R1c m c)).trans (f1c_arg5 m c)
theorem f1d_arg6 (c : Dev nD) : R1d m c (Proc.devRef .tc main_arg6) = (m ((c.tc : Thread nD τ).loc main_arg6)) :=
  (k1d_arg6 (R1c m c)).trans (f1c_arg6 m c)
theorem f1d_arg7 (c : Dev nD) : R1d m c (Proc.devRef .tc main_arg7) = (m ((c.tc : Thread nD τ).loc main_arg7)) :=
  (k1d_arg7 (R1c m c)).trans (f1c_arg7 m c)

/-! After stretch 2a. -/
theorem f2a_v46 (c : Dev nD) : R2a m c (Proc.devRef .tc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) :=
  (s2a_v46 (R1d m c) _ _ _ _ _ (f1d_v3 m c) (f1d_v6 m c) (f1d_v30 m c) (f1d_v7 m c) (f1d_arg3 m c)).trans (br_v46 _ _ _ _)
theorem f2a_v6 (c : Dev nD) : R2a m c (Proc.devRef .tc main_v6) = val_main_v6 (F := Ideal) (m ((c.tc : Thread nD τ).loc main_arg1)) :=
  (k2a_v6 (R1d m c)).trans (f1d_v6 m c)
theorem f2a_v3 (c : Dev nD) : R2a m c (Proc.devRef .tc main_v3) = val_main_v3 (F := Ideal) (m ((c.tc : Thread nD τ).loc main_arg1)) :=
  (k2a_v3 (R1d m c)).trans (f1d_v3 m c)
theorem f2a_arg4 (c : Dev nD) : R2a m c (Proc.devRef .tc main_arg4) = (m ((c.tc : Thread nD τ).loc main_arg4)) :=
  (k2a_arg4 (R1d m c)).trans (f1d_arg4 m c)
theorem f2a_arg5 (c : Dev nD) : R2a m c (Proc.devRef .tc main_arg5) = (m ((c.tc : Thread nD τ).loc main_arg5)) :=
  (k2a_arg5 (R1d m c)).trans (f1d_arg5 m c)
theorem f2a_arg6 (c : Dev nD) : R2a m c (Proc.devRef .tc main_arg6) = (m ((c.tc : Thread nD τ).loc main_arg6)) :=
  (k2a_arg6 (R1d m c)).trans (f1d_arg6 m c)
theorem f2a_arg7 (c : Dev nD) : R2a m c (Proc.devRef .tc main_arg7) = (m ((c.tc : Thread nD τ).loc main_arg7)) :=
  (k2a_arg7 (R1d m c)).trans (f1d_arg7 m c)

/-! After stretch 2b. -/
theorem f2b_v47 (c : Dev nD) : R2b m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) :=
  (s2b_v47 (R2a m c) _ (f2a_v46 m c)).trans (br_v47 _ _ _ _)
theorem f2b_v6 (c : Dev nD) : R2b m c (Proc.devRef .tc main_v6) = val_main_v6 (F := Ideal) (m ((c.tc : Thread nD τ).loc main_arg1)) :=
  (k2b_v6 (R2a m c)).trans (f2a_v6 m c)
theorem f2b_v3 (c : Dev nD) : R2b m c (Proc.devRef .tc main_v3) = val_main_v3 (F := Ideal) (m ((c.tc : Thread nD τ).loc main_arg1)) :=
  (k2b_v3 (R2a m c)).trans (f2a_v3 m c)
theorem f2b_arg4 (c : Dev nD) : R2b m c (Proc.devRef .tc main_arg4) = (m ((c.tc : Thread nD τ).loc main_arg4)) :=
  (k2b_arg4 (R2a m c)).trans (f2a_arg4 m c)
theorem f2b_arg5 (c : Dev nD) : R2b m c (Proc.devRef .tc main_arg5) = (m ((c.tc : Thread nD τ).loc main_arg5)) :=
  (k2b_arg5 (R2a m c)).trans (f2a_arg5 m c)
theorem f2b_arg6 (c : Dev nD) : R2b m c (Proc.devRef .tc main_arg6) = (m ((c.tc : Thread nD τ).loc main_arg6)) :=
  (k2b_arg6 (R2a m c)).trans (f2a_arg6 m c)
theorem f2b_arg7 (c : Dev nD) : R2b m c (Proc.devRef .tc main_arg7) = (m ((c.tc : Thread nD τ).loc main_arg7)) :=
  (k2b_arg7 (R2a m c)).trans (f2a_arg7 m c)

/-! After stretch 3a. -/
theorem f3a_v48 (c : Dev nD) : R3a m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (s3a_v48 (R2b m c) _ _ (f2b_v47 m c) (f2b_arg4 m c)).trans (br_v48 _ _ _ _ _)
theorem f3a_v54 (c : Dev nD) : R3a m c (Proc.devRef .tc main_v54) = val_main_v54 (F := Ideal) (m ((c.tc : Thread nD τ).loc main_arg1)) :=
  (s3a_v54 (R2b m c) _ (f2b_v6 m c)).trans (br_v54 _)
theorem f3a_v55 (c : Dev nD) : R3a m c (Proc.devRef .tc main_v55) = val_main_v55 (F := Ideal) (m ((c.tc : Thread nD τ).loc main_arg1)) :=
  (s3a_v55 (R2b m c) _ (f2b_v6 m c)).trans (br_v55 _)
theorem f3a_cst_12 (c : Dev nD) : R3a m c (Proc.devRef .tc main_cst_12) = val_main_cst_12 (F := Ideal) :=
  (s3a_cst_12 (R2b m c)).trans (br_cst_12)
theorem f3a_v6 (c : Dev nD) : R3a m c (Proc.devRef .tc main_v6) = val_main_v6 (F := Ideal) (m ((c.tc : Thread nD τ).loc main_arg1)) :=
  (k3a_v6 (R2b m c)).trans (f2b_v6 m c)
theorem f3a_v3 (c : Dev nD) : R3a m c (Proc.devRef .tc main_v3) = val_main_v3 (F := Ideal) (m ((c.tc : Thread nD τ).loc main_arg1)) :=
  (k3a_v3 (R2b m c)).trans (f2b_v3 m c)
theorem f3a_arg5 (c : Dev nD) : R3a m c (Proc.devRef .tc main_arg5) = (m ((c.tc : Thread nD τ).loc main_arg5)) :=
  (k3a_arg5 (R2b m c)).trans (f2b_arg5 m c)
theorem f3a_arg6 (c : Dev nD) : R3a m c (Proc.devRef .tc main_arg6) = (m ((c.tc : Thread nD τ).loc main_arg6)) :=
  (k3a_arg6 (R2b m c)).trans (f2b_arg6 m c)
theorem f3a_arg7 (c : Dev nD) : R3a m c (Proc.devRef .tc main_arg7) = (m ((c.tc : Thread nD τ).loc main_arg7)) :=
  (k3a_arg7 (R2b m c)).trans (f2b_arg7 m c)

/-! After stretch 3b. -/
theorem f3b_v56 (c : Dev nD) : R3b m c (Proc.devRef .tc main_v56) = val_main_v56 (F := Ideal) (m ((c.tc : Thread nD τ).loc main_arg1)) :=
  (s3b_v56 (R3a m c) _ _ _ (f3a_v54 m c) (f3a_v55 m c) (f3a_cst_12 m c)).trans (br_v56 _)
theorem f3b_v6 (c : Dev nD) : R3b m c (Proc.devRef .tc main_v6) = val_main_v6 (F := Ideal) (m ((c.tc : Thread nD τ).loc main_arg1)) :=
  (k3b_v6 (R3a m c)).trans (f3a_v6 m c)
theorem f3b_v3 (c : Dev nD) : R3b m c (Proc.devRef .tc main_v3) = val_main_v3 (F := Ideal) (m ((c.tc : Thread nD τ).loc main_arg1)) :=
  (k3b_v3 (R3a m c)).trans (f3a_v3 m c)
theorem f3b_v48 (c : Dev nD) : R3b m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (k3b_v48 (R3a m c)).trans (f3a_v48 m c)
theorem f3b_arg5 (c : Dev nD) : R3b m c (Proc.devRef .tc main_arg5) = (m ((c.tc : Thread nD τ).loc main_arg5)) :=
  (k3b_arg5 (R3a m c)).trans (f3a_arg5 m c)
theorem f3b_arg6 (c : Dev nD) : R3b m c (Proc.devRef .tc main_arg6) = (m ((c.tc : Thread nD τ).loc main_arg6)) :=
  (k3b_arg6 (R3a m c)).trans (f3a_arg6 m c)
theorem f3b_arg7 (c : Dev nD) : R3b m c (Proc.devRef .tc main_arg7) = (m ((c.tc : Thread nD τ).loc main_arg7)) :=
  (k3b_arg7 (R3a m c)).trans (f3a_arg7 m c)

/-! After stretch 3c. -/
theorem f3c_v71 (c : Dev nD) : R3c m c (Proc.devRef .tc main_v71) = val_main_v71 (F := Ideal) (m ((c.tc : Thread nD τ).loc main_arg1)) :=
  (s3c_v71 (R3b m c) _ _ _ (f3b_v3 m c) (f3b_v6 m c) (f3b_v56 m c)).trans (br_v71 _)
theorem f3c_v6 (c : Dev nD) : R3c m c (Proc.devRef .tc main_v6) = val_main_v6 (F := Ideal) (m ((c.tc : Thread nD τ).loc main_arg1)) :=
  (k3c_v6 (R3b m c)).trans (f3b_v6 m c)
theorem f3c_v3 (c : Dev nD) : R3c m c (Proc.devRef .tc main_v3) = val_main_v3 (F := Ideal) (m ((c.tc : Thread nD τ).loc main_arg1)) :=
  (k3c_v3 (R3b m c)).trans (f3b_v3 m c)
theorem f3c_v48 (c : Dev nD) : R3c m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (k3c_v48 (R3b m c)).trans (f3b_v48 m c)
theorem f3c_arg5 (c : Dev nD) : R3c m c (Proc.devRef .tc main_arg5) = (m ((c.tc : Thread nD τ).loc main_arg5)) :=
  (k3c_arg5 (R3b m c)).trans (f3b_arg5 m c)
theorem f3c_arg6 (c : Dev nD) : R3c m c (Proc.devRef .tc main_arg6) = (m ((c.tc : Thread nD τ).loc main_arg6)) :=
  (k3c_arg6 (R3b m c)).trans (f3b_arg6 m c)
theorem f3c_arg7 (c : Dev nD) : R3c m c (Proc.devRef .tc main_arg7) = (m ((c.tc : Thread nD τ).loc main_arg7)) :=
  (k3c_arg7 (R3b m c)).trans (f3b_arg7 m c)

/-! After stretch 4a. -/
theorem f4a_v87 (c : Dev nD) : R4a m c (Proc.devRef .tc main_v87) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (s4a_v87 (R3c m c) _ _ _ _ _ (f3c_v3 m c) (f3c_v6 m c) (f3c_v71 m c) (f3c_v48 m c) (f3c_arg5 m c)).trans (br_v87 _ _ _ _ _ _)
theorem f4a_v6 (c : Dev nD) : R4a m c (Proc.devRef .tc main_v6) = val_main_v6 (F := Ideal) (m ((c.tc : Thread nD τ).loc main_arg1)) :=
  (k4a_v6 (R3c m c)).trans (f3c_v6 m c)
theorem f4a_v3 (c : Dev nD) : R4a m c (Proc.devRef .tc main_v3) = val_main_v3 (F := Ideal) (m ((c.tc : Thread nD τ).loc main_arg1)) :=
  (k4a_v3 (R3c m c)).trans (f3c_v3 m c)
theorem f4a_arg6 (c : Dev nD) : R4a m c (Proc.devRef .tc main_arg6) = (m ((c.tc : Thread nD τ).loc main_arg6)) :=
  (k4a_arg6 (R3c m c)).trans (f3c_arg6 m c)
theorem f4a_arg7 (c : Dev nD) : R4a m c (Proc.devRef .tc main_arg7) = (m ((c.tc : Thread nD τ).loc main_arg7)) :=
  (k4a_arg7 (R3c m c)).trans (f3c_arg7 m c)

/-! After stretch 4b. -/
theorem f4b_v88 (c : Dev nD) : R4b m c (Proc.devRef .tc main_v88) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (s4b_v88 (R4a m c) _ (f4a_v87 m c)).trans (br_v88 _ _ _ _ _ _)
theorem f4b_v6 (c : Dev nD) : R4b m c (Proc.devRef .tc main_v6) = val_main_v6 (F := Ideal) (m ((c.tc : Thread nD τ).loc main_arg1)) :=
  (k4b_v6 (R4a m c)).trans (f4a_v6 m c)
theorem f4b_v3 (c : Dev nD) : R4b m c (Proc.devRef .tc main_v3) = val_main_v3 (F := Ideal) (m ((c.tc : Thread nD τ).loc main_arg1)) :=
  (k4b_v3 (R4a m c)).trans (f4a_v3 m c)
theorem f4b_arg6 (c : Dev nD) : R4b m c (Proc.devRef .tc main_arg6) = (m ((c.tc : Thread nD τ).loc main_arg6)) :=
  (k4b_arg6 (R4a m c)).trans (f4a_arg6 m c)
theorem f4b_arg7 (c : Dev nD) : R4b m c (Proc.devRef .tc main_arg7) = (m ((c.tc : Thread nD τ).loc main_arg7)) :=
  (k4b_arg7 (R4a m c)).trans (f4a_arg7 m c)

/-! After stretch 5a. -/
theorem f5a_v89 (c : Dev nD) : R5a m c (Proc.devRef .tc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (s5a_v89 (R4b m c) _ _ (f4b_v88 m c) (f4b_arg6 m c)).trans (br_v89 _ _ _ _ _ _ _)
theorem f5a_v95 (c : Dev nD) : R5a m c (Proc.devRef .tc main_v95) = val_main_v95 (F := Ideal) (m ((c.tc : Thread nD τ).loc main_arg1)) :=
  (s5a_v95 (R4b m c) _ (f4b_v6 m c)).trans (br_v95 _)
theorem f5a_v96 (c : Dev nD) : R5a m c (Proc.devRef .tc main_v96) = val_main_v96 (F := Ideal) (m ((c.tc : Thread nD τ).loc main_arg1)) :=
  (s5a_v96 (R4b m c) _ (f4b_v6 m c)).trans (br_v96 _)
theorem f5a_cst_23 (c : Dev nD) : R5a m c (Proc.devRef .tc main_cst_23) = val_main_cst_23 (F := Ideal) :=
  (s5a_cst_23 (R4b m c)).trans (br_cst_23)
theorem f5a_v6 (c : Dev nD) : R5a m c (Proc.devRef .tc main_v6) = val_main_v6 (F := Ideal) (m ((c.tc : Thread nD τ).loc main_arg1)) :=
  (k5a_v6 (R4b m c)).trans (f4b_v6 m c)
theorem f5a_v3 (c : Dev nD) : R5a m c (Proc.devRef .tc main_v3) = val_main_v3 (F := Ideal) (m ((c.tc : Thread nD τ).loc main_arg1)) :=
  (k5a_v3 (R4b m c)).trans (f4b_v3 m c)
theorem f5a_arg7 (c : Dev nD) : R5a m c (Proc.devRef .tc main_arg7) = (m ((c.tc : Thread nD τ).loc main_arg7)) :=
  (k5a_arg7 (R4b m c)).trans (f4b_arg7 m c)

/-! After stretch 5b. -/
theorem f5b_v97 (c : Dev nD) : R5b m c (Proc.devRef .tc main_v97) = val_main_v97 (F := Ideal) (m ((c.tc : Thread nD τ).loc main_arg1)) :=
  (s5b_v97 (R5a m c) _ _ _ (f5a_v95 m c) (f5a_v96 m c) (f5a_cst_23 m c)).trans (br_v97 _)
theorem f5b_v6 (c : Dev nD) : R5b m c (Proc.devRef .tc main_v6) = val_main_v6 (F := Ideal) (m ((c.tc : Thread nD τ).loc main_arg1)) :=
  (k5b_v6 (R5a m c)).trans (f5a_v6 m c)
theorem f5b_v3 (c : Dev nD) : R5b m c (Proc.devRef .tc main_v3) = val_main_v3 (F := Ideal) (m ((c.tc : Thread nD τ).loc main_arg1)) :=
  (k5b_v3 (R5a m c)).trans (f5a_v3 m c)
theorem f5b_v89 (c : Dev nD) : R5b m c (Proc.devRef .tc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (k5b_v89 (R5a m c)).trans (f5a_v89 m c)
theorem f5b_arg7 (c : Dev nD) : R5b m c (Proc.devRef .tc main_arg7) = (m ((c.tc : Thread nD τ).loc main_arg7)) :=
  (k5b_arg7 (R5a m c)).trans (f5a_arg7 m c)

/-! After stretch 5c. -/
theorem f5c_v112 (c : Dev nD) : R5c m c (Proc.devRef .tc main_v112) = val_main_v112 (F := Ideal) (m ((c.tc : Thread nD τ).loc main_arg1)) :=
  (s5c_v112 (R5b m c) _ _ _ (f5b_v3 m c) (f5b_v6 m c) (f5b_v97 m c)).trans (br_v112 _)
theorem f5c_v6 (c : Dev nD) : R5c m c (Proc.devRef .tc main_v6) = val_main_v6 (F := Ideal) (m ((c.tc : Thread nD τ).loc main_arg1)) :=
  (k5c_v6 (R5b m c)).trans (f5b_v6 m c)
theorem f5c_v3 (c : Dev nD) : R5c m c (Proc.devRef .tc main_v3) = val_main_v3 (F := Ideal) (m ((c.tc : Thread nD τ).loc main_arg1)) :=
  (k5c_v3 (R5b m c)).trans (f5b_v3 m c)
theorem f5c_v89 (c : Dev nD) : R5c m c (Proc.devRef .tc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (k5c_v89 (R5b m c)).trans (f5b_v89 m c)
theorem f5c_arg7 (c : Dev nD) : R5c m c (Proc.devRef .tc main_arg7) = (m ((c.tc : Thread nD τ).loc main_arg7)) :=
  (k5c_arg7 (R5b m c)).trans (f5b_arg7 m c)

/-! After stretch 6a. -/
theorem f6a_v128 (c : Dev nD) : R6a m c (Proc.devRef .tc main_v128) = val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (s6a_v128 (R5c m c) _ _ _ _ _ (f5c_v3 m c) (f5c_v6 m c) (f5c_v112 m c) (f5c_v89 m c) (f5c_arg7 m c)).trans (br_v128 _ _ _ _ _ _ _ _)

/-! After stretch 6b. -/
theorem f6b_v129 (c : Dev nD) : R6b m c (Proc.devRef .tc main_v129) = val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (s6b_v129 (R6a m c) _ (f6a_v128 m c)).trans (br_v129 _ _ _ _ _ _ _ _)

/-! After stretch 7. -/
theorem f7_v130 (c : Dev nD) : R7 m c (Proc.devRef .tc main_v130) = val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (s7_v130 (R6b m c) _ (f6b_v129 m c)).trans (br_v130 _ _ _ _ _ _ _ _)

/-- After the whole line the result buffer holds the result stage of the argument arrays. -/
theorem result_eq (c : Dev nD) :
    after (ops (F := Ideal)) (launchContents m c) (Proc.devRef .tc main_v130) = val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append]
  exact f7_v130 m c

set_option maxHeartbeats 76000000 in
/-- Every weakly fair execution of the reference terminates, nothing faulting, with the result array at the result
    stage of the argument arrays and the arguments unchanged. -/
theorem run : θ_run defs (onTc (τ := τ) (main (F := Ideal))) ⟨m, fun _ => 0, ρ⟩ fun r => ∀ c : Dev nD,
      r.2.mem ((c.tc : Thread nD τ).loc main_v130) = val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v130).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Chain

end
-- ==== Proof.KernelRun.lean ====
/-
  The idealized kernel's run with its result NAMED: every weakly fair execution of @main terminates, nothing faulting,
  with the result array `main_v78` holding what the last segment boundary's contents say (`Gen.W13`: the fold of
  @main's host stretches and regions from the launch memory) and the eight argument arrays as launched. This is the
  frame's run over the same thirteen segments, reading one more buffer off the last thread state.
-/
import proofs.«176480_j51831665328310_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting; in every final state the result array is the last boundary's contents at `main_v78`
    and every argument array is as launched. The thirteen segments (six host stretches, seven regions) chain from the
    launch memory to `W13`; the last thread state holds every unscoped buffer at `W13`, and the final state is read
    against it buffer by buffer. -/
theorem run_named : θ_run defs (onTc (τ := τ) (main (F := F))) ⟨m, fun _ => 0, ρ⟩ (fun r => ∀ c : Dev nD,
      r.2.mem ((c.tc : Thread nD τ).loc main_v78) = W13 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v78 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.Named

end
-- ==== Proof.Spec.lean ====
/-
  The three array functions a graph-convolution network is made of, on the extended reals, index by index,
  over the literal shapes of this network (100000 nodes; 128 hidden features; 40 classes).

  * `dense`      — a row of node features times a weight matrix: (x·w)(r, j) = Σ_k x(r, k) · w(k, j).
  * `biasRelu`   — add a bias row to every node's features and clip below at zero: max (a(r, j) + b(0, j)) 0.
  * `rowOf`      — a bias vector as the one-row matrix the kernel's regions read it through.
  * `logSoftmax` — per node, subtract the row's largest entry M(r) (the fold of max from −∞ over the row), then subtract
                    the logarithm of the row's sum of exponentials: (h(r, j) − M(r)) − log Σ_k exp (h(r, k) − M(r)).

  Nothing here depends on a program: the kernel's tiled regions and the reference's whole-array operations are each
  shown to compute these functions, and are equal through them.
-/
import Idealize.ShloMosaic.PureOps.Ideal
import Idealize.ShloMosaic.Lib.ValueIdx

noncomputable section

namespace Cert.Gcn

open Idealize.ShloMosaic Idealize.ShloMosaic.ValueIdx

/-- Node features, 128 wide. -/
abbrev N128 : Shape := ⟨2, ![100000, 128]⟩
/-- Node features, 40 wide (the classes). -/
abbrev N40 : Shape := ⟨2, ![100000, 40]⟩
/-- A 128 × 128 weight matrix. -/
abbrev W128 : Shape := ⟨2, ![128, 128]⟩
/-- A 128 × 40 weight matrix. -/
abbrev W40 : Shape := ⟨2, ![128, 40]⟩
/-- A bias as a one-row matrix, 128 wide. -/
abbrev B128 : Shape := ⟨2, ![1, 128]⟩
/-- A bias as a one-row matrix, 40 wide. -/
abbrev B40 : Shape := ⟨2, ![1, 40]⟩

/-- A bias vector, 128 long. -/
abbrev V128 : Shape := ⟨1, ![128]⟩
/-- A bias vector, 40 long. -/
abbrev V40 : Shape := ⟨1, ![40]⟩

/-- A bias vector laid out as a one-row matrix: row(0, j) = v(j), 128 wide. -/
def rowOf128 (v : V128.Idx → EReal) : B128.Idx → EReal := fun i => v (ix1 (n := 128) (i 1))

/-- A bias vector laid out as a one-row matrix: row(0, j) = v(j), 40 wide. -/
def rowOf40 (v : V40.Idx → EReal) : B40.Idx → EReal := fun i => v (ix1 (n := 40) (i 1))

/-- (x·w)(r, j) = Σ_{k<128} x(r, k) · w(k, j), 128 output features. -/
def dense128 (x : N128.Idx → EReal) (w : W128.Idx → EReal) : N128.Idx → EReal :=
  fun i => ∑ k : Fin 128, x (ix2 (n0 := 100000) (n1 := 128) (i 0) k) * w (ix2 (n0 := 128) (n1 := 128) k (i 1))

/-- (x·w)(r, j) = Σ_{k<128} x(r, k) · w(k, j), 40 output features. -/
def dense40 (x : N128.Idx → EReal) (w : W40.Idx → EReal) : N40.Idx → EReal :=
  fun i => ∑ k : Fin 128, x (ix2 (n0 := 100000) (n1 := 128) (i 0) k) * w (ix2 (n0 := 128) (n1 := 40) k (i 1))

/-- max (a(r, j) + b(0, j)) 0, 128 features. -/
def biasRelu128 (a : N128.Idx → EReal) (b : B128.Idx → EReal) : N128.Idx → EReal :=
  fun i => max (a i + b (ix2 (n0 := 1) (n1 := 128) 0 (i 1))) 0

/-- max (a(r, j) + b(0, j)) 0, 40 features. -/
def biasRelu40 (a : N40.Idx → EReal) (b : B40.Idx → EReal) : N40.Idx → EReal :=
  fun i => max (a i + b (ix2 (n0 := 1) (n1 := 40) 0 (i 1))) 0

/-- The largest entry of node `r`'s row: the fold of max from −∞ over the 40 classes. -/
def rowMax40 (h : N40.Idx → EReal) (r : Fin 100000) : EReal :=
  (Finset.univ : Finset (Fin 40)).fold max ⊥ (fun k => h (ix2 (n0 := 100000) (n1 := 40) r k))

/-- (h(r, j) − M(r)) − log Σ_k exp (h(r, k) − M(r)) with M(r) the row's largest entry. -/
def logSoftmax40 (h : N40.Idx → EReal) : N40.Idx → EReal :=
  fun i => (h i - rowMax40 h (i 0))
    - Ideal.log (∑ k : Fin 40, Ideal.exp (h (ix2 (n0 := 100000) (n1 := 40) (i 0) k) - rowMax40 h (i 0)))

end Cert.Gcn

end
-- ==== Proof.Dense0.lean ====
/-
  Region 0 of the network: the first layer's matrix product. The 100000 × 128 feature array is cut into ten blocks of
  10000 consecutive rows; at each block the body forms (block) · (weights) into a zero accumulator, both operands first rounded to a narrower format, which on the
  extended reals is the identity. Hence the entry (p, q) of a block's result is Σ_k x(p, k) · w(k, q), block t holds rows
  10000 t … 10000 t + 9999 of the whole product, the ten blocks cover every row, and the result array ends holding
  (x·w)(r, j) = Σ_{k<128} x(r, k) · w(k, j), j < 128, for the two arrays as the region finds them.
-/
import proofs.«176480_j51831665328310_1_alg».proof.Proof.Gen.KernelIdeal.Frame
import proofs.«176480_j51831665328310_1_alg».proof.Proof.Spec
import Idealize.ShloMosaic.Lib.Pipeline.Value
import Idealize.ShloMosaic.Lib.ValueIdx
import Idealize.ShloMosaic.PureOps.Ideal.Laws

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The product at an entry -/

/-- The left operand's row coordinate under the contraction is the output's row. -/
theorem lhsRow0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contraction index. -/
theorem lhsCol0 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contraction index. -/
theorem rhsRow0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the output's column. -/
theorem rhsCol0 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's payload at entry (p, q): both operands pass the rounding unchanged (the identity on the
    extended reals), and the product into the zero accumulator is Σ_k x0(p, k) · x1(k, q). -/
theorem pay_apply0 (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  show FloatOps.matmul _ _ _ _ _ _ = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhsRow0 _ _
    | ⟨1, _⟩ => exact (lhsCol0 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhsRow0 _ _).trans hk
    | ⟨1, _⟩ => exact rhsCol0 _ _)
  rw [el, er]
  rfl

/-! ## From the blocks to the array -/

/-- The body's accesses start at the origin of their buffers. -/
theorem zeroOff0 : (![0, 0] : Fin 2 → Nat) = fun _ => 0 := funext fun a => by fin_cases a <;> rfl

/-- The index maps over the grid: the row-block index of the features and of the result is the point itself, every
    other block index is zero (the weights are one block, all columns are one block). -/
theorem idxFacts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of the product, entry (p, q), is the whole-array product at an index `i` when the features' block holds
    row `i 0` of the features at its row `p` and the weights' block holds column `i 1` of the weights at its column `q`. -/
theorem block_apply0 (A : Cert.Gcn.N128.Idx → EReal) (W : Cert.Gcn.W128.Idx → EReal)
    (x0 : Vec Ideal S10000x128 .f32) (x1 : Vec Ideal S128x128 .f32) (p : Fin 10000) (q : Fin 128) (i : Cert.Gcn.N128.Idx)
    (h0 : ∀ k : Fin 128, x0 (ix2 p k) = A (ix2 (n0 := 100000) (n1 := 128) (i 0) k))
    (h1 : ∀ k : Fin 128, x1 (ix2 k q) = W (ix2 (n0 := 128) (n1 := 128) k (i 1))) :
    k0_pay1 x0 x1 (ix2 p q) = Cert.Gcn.dense128 A W i := by
  rw [pay_apply0]
  show _ = ∑ k : Fin 128, A (ix2 (n0 := 100000) (n1 := 128) (i 0) k) * W (ix2 (n0 := 128) (n1 := 128) k (i 1))
  exact Finset.sum_congr rfl fun k _ => by rw [h0 k, h1 k]

/-- What point `t` writes back is block `t` of the product of the two arrays as the region finds them. -/
theorem flushed_eq0 (c : Dev nD) (t : Fin cfg0.N) :
    (dat0 (F := Ideal) V c).flushed 2 t = ((cfg0.win 2).blk t).view.read (Elt Ideal)
      (Cert.Gcn.dense128 (V c (Pipeline.arrRef spec0 0)) (V c (Pipeline.arrRef spec0 1))) := by
  show (cfg0.win 2).cut (grid0.coords t) ((dat0 V c).after 2 t) = _
  rw [after0_2]
  unfold out0_2
  rw [View.canon_unit_zero zeroOff0]
  simp only [View.ld_unit_zero (S := S10000x128) zeroOff0, View.ld_unit_zero (S := S128x128) zeroOff0]
  obtain ⟨e00, e01, e10, e11, e20, e21⟩ := idxFacts0 t
  funext j
  obtain ⟨p, q, rfl⟩ : ∃ (p : Fin 10000) (q : Fin 128), j = ix2 p q := ⟨j 0, j 1, eq_ix2 j⟩
  refine block_apply0 (V c (Pipeline.arrRef spec0 0)) (V c (Pipeline.arrRef spec0 1)) (iblk0 V c 0 t) (iblk0 V c 1 t) p q
    (((cfg0.win 2).blk t).view.emb (ix2 p q)) (fun k => ?_) (fun k => ?_)
  · -- the features' block at (p, k) is the features at (10000 t + p, k)
    show V c (Pipeline.arrRef spec0 0) (((cfg0.win 0).blk t).view.emb (ix2 p k)) = _
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · -- the weights' block is the weights
    show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the result is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every row is in some point's block: row r in the block of point r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e00, e01, e10, e11, e20, e21⟩ := idxFacts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after region 0: the product of the features and the weights as the region finds them. -/
theorem final0 (c : Dev nD) : (dat0 (F := Ideal) V c).arrAt 2 cfg0.N
    = Cert.Gcn.dense128 (V c (Pipeline.arrRef spec0 0)) (V c (Pipeline.arrRef spec0 1)) :=
  (dat0 V c).arrAt_eq_of_cover 2 _ (fun t _ => flushed_eq0 V c t) cover0

end Cert.KernelIdeal.Regions

end
-- ==== Proof.Dense2.lean ====
/-
  Region 2 of the network: the second layer's matrix product. The 100000 × 128 feature array is cut into ten blocks of
  10000 consecutive rows; at each block the body forms (block) · (weights) into a zero accumulator, the block first passed
  through a reshape to its own shape (the identity), both operands first rounded to a narrower format, which on the
  extended reals is the identity. Hence the entry (p, q) of a block's result is Σ_k x(p, k) · w(k, q), block t holds rows
  10000 t … 10000 t + 9999 of the whole product, the ten blocks cover every row, and the result array ends holding
  (x·w)(r, j) = Σ_{k<128} x(r, k) · w(k, j), j < 128, for the two arrays as the region finds them.
-/
import proofs.«176480_j51831665328310_1_alg».proof.Proof.Gen.KernelIdeal.Frame
import proofs.«176480_j51831665328310_1_alg».proof.Proof.Spec
import Idealize.ShloMosaic.Lib.Pipeline.Value
import Idealize.ShloMosaic.Lib.ValueIdx
import Idealize.ShloMosaic.PureOps.Ideal.Laws

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The product at an entry -/

/-- The left operand's row coordinate under the contraction is the output's row. -/
theorem lhsRow2 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contraction index. -/
theorem lhsCol2 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contraction index. -/
theorem rhsRow2 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the output's column. -/
theorem rhsCol2 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's payload at entry (p, q): the identity reshape of the features' block drops, both operands pass the rounding unchanged (the identity on the
    extended reals), and the product into the zero accumulator is Σ_k x0(p, k) · x1(k, q). -/
theorem pay_apply2 (x0 : Vec Ideal S10000x128 .f32) (x1 : Vec Ideal S128x128 .f32) (p : Fin 10000) (q : Fin 128) :
    k2_pay1 x0 x1 (ix2 p q) = ∑ k : Fin 128, x0 (ix2 p k) * x1 (ix2 k q) := by
  unfold k2_pay1
  rw [shapeCast_self]
  show FloatOps.matmul _ _ _ _ _ _ = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhsRow2 _ _
    | ⟨1, _⟩ => exact (lhsCol2 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhsRow2 _ _).trans hk
    | ⟨1, _⟩ => exact rhsCol2 _ _)
  rw [el, er]
  rfl

/-! ## From the blocks to the array -/

/-- The body's accesses start at the origin of their buffers. -/
theorem zeroOff2 : (![0, 0] : Fin 2 → Nat) = fun _ => 0 := funext fun a => by fin_cases a <;> rfl

/-- The index maps over the grid: the row-block index of the features and of the result is the point itself, every
    other block index is zero (the weights are one block, all columns are one block). -/
theorem idxFacts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block of the product, entry (p, q), is the whole-array product at an index `i` when the features' block holds
    row `i 0` of the features at its row `p` and the weights' block holds column `i 1` of the weights at its column `q`. -/
theorem block_apply2 (A : Cert.Gcn.N128.Idx → EReal) (W : Cert.Gcn.W128.Idx → EReal)
    (x0 : Vec Ideal S10000x128 .f32) (x1 : Vec Ideal S128x128 .f32) (p : Fin 10000) (q : Fin 128) (i : Cert.Gcn.N128.Idx)
    (h0 : ∀ k : Fin 128, x0 (ix2 p k) = A (ix2 (n0 := 100000) (n1 := 128) (i 0) k))
    (h1 : ∀ k : Fin 128, x1 (ix2 k q) = W (ix2 (n0 := 128) (n1 := 128) k (i 1))) :
    k2_pay1 x0 x1 (ix2 p q) = Cert.Gcn.dense128 A W i := by
  rw [pay_apply2]
  show _ = ∑ k : Fin 128, A (ix2 (n0 := 100000) (n1 := 128) (i 0) k) * W (ix2 (n0 := 128) (n1 := 128) k (i 1))
  exact Finset.sum_congr rfl fun k _ => by rw [h0 k, h1 k]

/-- What point `t` writes back is block `t` of the product of the two arrays as the region finds them. -/
theorem flushed_eq2 (c : Dev nD) (t : Fin cfg2.N) :
    (dat2 (F := Ideal) V c).flushed 2 t = ((cfg2.win 2).blk t).view.read (Elt Ideal)
      (Cert.Gcn.dense128 (V c (Pipeline.arrRef spec2 0)) (V c (Pipeline.arrRef spec2 1))) := by
  show (cfg2.win 2).cut (grid2.coords t) ((dat2 V c).after 2 t) = _
  rw [after2_2]
  unfold out2_2
  rw [View.canon_unit_zero zeroOff2]
  simp only [View.ld_unit_zero (S := S10000x128) zeroOff2, View.ld_unit_zero (S := S128x128) zeroOff2]
  obtain ⟨e00, e01, e10, e11, e20, e21⟩ := idxFacts2 t
  funext j
  obtain ⟨p, q, rfl⟩ : ∃ (p : Fin 10000) (q : Fin 128), j = ix2 p q := ⟨j 0, j 1, eq_ix2 j⟩
  refine block_apply2 (V c (Pipeline.arrRef spec2 0)) (V c (Pipeline.arrRef spec2 1)) (iblk2 V c 0 t) (iblk2 V c 1 t) p q
    (((cfg2.win 2).blk t).view.emb (ix2 p q)) (fun k => ?_) (fun k => ?_)
  · -- the features' block at (p, k) is the features at (10000 t + p, k)
    show V c (Pipeline.arrRef spec2 0) (((cfg2.win 0).blk t).view.emb (ix2 p k)) = _
    refine congrArg _ (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  · -- the weights' block is the weights
    show V c (Pipeline.arrRef spec2 1) (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An index of the result is in point `t`'s block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v46).slice (win2_2.rect t)).set ↔ _
  rw [View.set_slice_whole, Rect.mem_set_unit]
  exact Iff.rfl

/-- Every row is in some point's block: row r in the block of point r / 10000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨e00, e01, e10, e11, e20, e21⟩ := idxFacts2 t
  have ht : t.val = (i 0).val / 10000 := rfl
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The result array after region 2: the product of the features and the weights as the region finds them. -/
theorem final2 (c : Dev nD) : (dat2 (F := Ideal) V c).arrAt 2 cfg2.N
    = Cert.Gcn.dense128 (V c (Pipeline.arrRef spec2 0)) (V c (Pipeline.arrRef spec2 1)) :=
  (dat2 V c).arrAt_eq_of_cover 2 _ (fun t _ => flushed_eq2 V c t) cover2

end Cert.KernelIdeal.Regions

end
-- ==== Proof.Dense4.lean ====
/-
  Region 4 of the network: the third layer's matrix product. The 100000 × 128 feature array is cut into ten blocks of
  10000 consecutive rows; at each block the body forms (block) · (weights) into a zero accumulator, the block first passed
  through a reshape to its own shape (the identity), both operands first rounded to a narrower format, which on the
  extended reals is the identity. Hence the entry (p, q) of a block's result is Σ_k x(p, k) · w(k, q), block t holds rows
  10000 t … 10000 t + 9999 of the whole product, the ten blocks cover every row, and the result array ends holding
  (x·w)(r, j) = Σ_{k<128} x(r, k) · w(k, j), j < 40, for the two arrays as the region finds them.
-/
import proofs.«176480_j51831665328310_1_alg».proof.Proof.Gen.KernelIdeal.Frame
import proofs.«176480_j51831665328310_1_alg».proof.Proof.Spec
import Idealize.ShloMosaic.Lib.Pipeline.Value
import Idealize.ShloMosaic.Lib.ValueIdx
import Idealize.ShloMosaic.PureOps.Ideal.Laws

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The product at an entry -/

/-- The left operand's row coordinate under the contraction is the output's row. -/
theorem lhsRow4 (i : S10000x40.Idx) (q : dot_S10000x128_S128x40_S10000x40_1_0_0_1_n_n.contr.Idx) :
    (dot_S10000x128_S128x40_S10000x40_1_0_0_1_n_n.lhsIdx i q 0).val = (i 0).val := by
  unfold DotDims.lhsIdx
  rw [dif_neg (show ¬(0 : Fin S10000x128.rank) ∈ dot_S10000x128_S128x40_S10000x40_1_0_0_1_n_n.lhsBatch by decide), dif_pos (show (0 : Fin S10000x128.rank) ∈ dot_S10000x128_S128x40_S10000x40_1_0_0_1_n_n.lhsNonContracting by decide)]
  rfl
/-- The left operand's column coordinate is the contraction index. -/
theorem lhsCol4 (i : S10000x40.Idx) (q : dot_S10000x128_S128x40_S10000x40_1_0_0_1_n_n.contr.Idx) :
    (dot_S10000x128_S128x40_S10000x40_1_0_0_1_n_n.lhsIdx i q 1).val = (q ⟨0, by decide⟩).val :=
  dot_S10000x128_S128x40_S10000x40_1_0_0_1_n_n.lhsIdx_val_of_single rfl i q
/-- The right operand's row coordinate is the contraction index. -/
theorem rhsRow4 (i : S10000x40.Idx) (q : dot_S10000x128_S128x40_S10000x40_1_0_0_1_n_n.contr.Idx) :
    (dot_S10000x128_S128x40_S10000x40_1_0_0_1_n_n.rhsIdx i q 0).val = (q ⟨0, by decide⟩).val :=
  dot_S10000x128_S128x40_S10000x40_1_0_0_1_n_n.rhsIdx_val_of_single rfl i q
/-- The right operand's column coordinate is the output's column. -/
theorem rhsCol4 (i : S10000x40.Idx) (q : dot_S10000x128_S128x40_S10000x40_1_0_0_1_n_n.contr.Idx) :
    (dot_S10000x128_S128x40_S10000x40_1_0_0_1_n_n.rhsIdx i q 1).val = (i 1).val := by
  unfold DotDims.rhsIdx
  rw [dif_neg (show ¬(1 : Fin S128x40.rank) ∈ dot_S10000x128_S128x40_S10000x40_1_0_0_1_n_n.rhsBatch by decide), dif_pos (show (1 : Fin S128x40.rank) ∈ dot_S10000x128_S128x40_S10000x40_1_0_0_1_n_n.rhsNonContracting by decide)]
  rfl

/-- The body's payload at entry (p, q): the identity reshape of the features' block drops, both operands pass the rounding unchanged (the identity on the
    extended reals), and the product into the zero accumulator is Σ_k x0(p, k) · x1(k, q). -/
theorem pay_apply4 (x0 : Vec Ideal S10000x128 .f32) (x1 : Vec Ideal S128x40 .f32) (p : Fin 10000) (q : Fin 40) :
    k4_pay1 x0 x1 (ix2 p q) = ∑ k : Fin 128, x0 (ix2 p k) * x1 (ix2 k q) := by
  unfold k4_pay1
  rw [shapeCast_self]
  show FloatOps.matmul _ _ _ _ _ _ = _
  rw [Ideal.matmul_constant_zero_apply, ← Equiv.sum_comp (ValueIdx.contrEquiv1 dot_S10000x128_S128x40_S10000x40_1_0_0_1_n_n 128 rfl rfl).symm]
  refine Finset.sum_congr rfl fun k _ => ?_
  have hk := ValueIdx.contrEquiv1_symm_val dot_S10000x128_S128x40_S10000x40_1_0_0_1_n_n 128 rfl rfl k
  have el : dot_S10000x128_S128x40_S10000x40_1_0_0_1_n_n.lhsIdx (ix2 p q) ((ValueIdx.contrEquiv1 dot_S10000x128_S128x40_S10000x40_1_0_0_1_n_n 128 rfl rfl).symm k) = ix2 p k := funext fun a => Fin.ext (by
    match a with
    | ⟨0, _⟩ => exact lhsRow4 _ _
    | ⟨1, _⟩ => exact (lhsCol4 _ _).trans hk)
  have er : dot_S10000x128_S128x40_S10000x40_1_0_0_1_n_n.rhsIdx (ix2 p q) ((ValueIdx.contrEquiv1 dot_S10000x128_S128x40_S10000x40_1_0_0_1_n_n 128 rfl rfl).symm k) = ix2 k q := funext fun a => Fin.ext (by
    match a with
    | ⟨0, _⟩ => exact (rhsRow4 _ _).trans hk
    | ⟨1, _⟩ => exact rhsCol4 _ _)
  rw [el, er]
  rfl

/-! ## From the blocks to the array -/

/-- The body's accesses start at the origin of their buffers. -/
theorem zeroOff4 : (![0, 0] : Fin 2 → Nat) = fun _ => 0 := funext fun a => by fin_cases a <;> rfl

/-- The index maps over the grid: the row-block index of the features and of the result is the point itself, every
    other block index is zero (the weights are one block, all columns are one block). -/
theorem idxFacts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- A block of the product, entry (p, q), is the whole-array product at an index `i` when the features' block holds
    row `i 0` of the features at its row `p` and the weights' block holds column `i 1` of the weights at its column `q`. -/
theorem block_apply4 (A : Cert.Gcn.N128.Idx → EReal) (W : Cert.Gcn.W40.Idx → EReal)
    (x0 : Vec Ideal S10000x128 .f32) (x1 : Vec Ideal S128x40 .f32) (p : Fin 10000) (q : Fin 40) (i : Cert.Gcn.N40.Idx)
    (h0 : ∀ k : Fin 128, x0 (ix2 p k) = A (ix2 (n0 := 100000) (n1 := 128) (i 0) k))
    (h1 : ∀ k : Fin 128, x1 (ix2 k q) = W (ix2 (n0 := 128) (n1 := 40) k (i 1))) :
    k4_pay1 x0 x1 (ix2 p q) = Cert.Gcn.dense40 A W i := by
  rw [pay_apply4]
  show _ = ∑ k : Fin 128, A (ix2 (n0 := 100000) (n1 := 128) (i 0) k) * W (ix2 (n0 := 128) (n1 := 40) k (i 1))
  exact Finset.sum_congr rfl fun k _ => by rw [h0 k, h1 k]

/-- What point `t` writes back is block `t` of the product of the two arrays as the region finds them. -/
theorem flushed_eq4 (c : Dev nD) (t : Fin cfg4.N) :
    (dat4 (F := Ideal) V c).flushed 2 t = ((cfg4.win 2).blk t).view.read (Elt Ideal)
      (Cert.Gcn.dense40 (V c (Pipeline.arrRef spec4 0)) (V c (Pipeline.arrRef spec4 1))) := by
  show (cfg4.win 2).cut (grid4.coords t) ((dat4 V c).after 2 t) = _
  rw [after4_2]
  unfold out4_2
  rw [View.canon_unit_zero zeroOff4]
  simp only [View.ld_unit_zero (S := S10000x128) zeroOff4, View.ld_unit_zero (S := S128x40) zeroOff4]
  obtain ⟨e00, e01, e10, e11, e20, e21⟩ := idxFacts4 t
  funext j
  obtain ⟨p, q, rfl⟩ : ∃ (p : Fin 10000) (q : Fin 40), j = ix2 p q := ⟨j 0, j 1, eq_ix2 j⟩
  refine block_apply4 (V c (Pipeline.arrRef spec4 0)) (V c (Pipeline.arrRef spec4 1)) (iblk4 V c 0 t) (iblk4 V c 1 t) p q
    (((cfg4.win 2).blk t).view.emb (ix2 p q)) (fun k => ?_) (fun k => ?_)
  · -- the features' block at (p, k) is the features at (10000 t + p, k)
    show V c (Pipeline.arrRef spec4 0) (((cfg4.win 0).blk t).view.emb (ix2 p k)) = _
    refine congrArg _ (funext fun a => Fin.ext ?_)
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * k.val = k.val; omega
  · -- the weights' block is the weights
    show V c (Pipeline.arrRef spec4 1) (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 40 + 1 * q.val = win4_2.index t (1 : Fin 2) * 40 + 1 * q.val; omega

/-- An index of the result is in point `t`'s block iff each coordinate is in the block's range on its axis. -/
theorem mem_blk4 (t : Fin cfg4.N) (i : S100000x40.Idx) :
    i ∈ ((cfg4.win 2).blk t).view.set ↔ ∀ a : Fin 2, win4_2.index t a * S10000x40.size a ≤ (i a).val ∧ (i a).val < win4_2.index t a * S10000x40.size a + S10000x40.size a := by
  show i ∈ ((View.whole main_v62).slice (win4_2.rect t)).set ↔ _
  rw [View.set_slice_whole, Rect.mem_set_unit]
  exact Iff.rfl

/-- Every row is in some point's block: row r in the block of point r / 10000. -/
theorem cover4 (i : S100000x40.Idx) :
    ∃ t : Fin cfg4.N, (cfg4.win 2).flush t = true ∧ i ∈ ((cfg4.win 2).blk t).view.set := by
  have hi0 : (i 0).val < 100000 := (i 0).isLt
  have hi1 : (i 1).val < 40 := (i 1).isLt
  have hN : cfg4.N = 10 := N_4
  let t : Fin cfg4.N := ⟨(i 0).val / 10000, by rw [hN]; omega⟩
  obtain ⟨e00, e01, e10, e11, e20, e21⟩ := idxFacts4 t
  have ht : t.val = (i 0).val / 10000 := rfl
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 40 ≤ (i 1).val ∧ (i 1).val < win4_2.index t (1 : Fin 2) * 40 + 40; omega

/-- The result array after region 4: the product of the features and the weights as the region finds them. -/
theorem final4 (c : Dev nD) : (dat4 (F := Ideal) V c).arrAt 2 cfg4.N
    = Cert.Gcn.dense40 (V c (Pipeline.arrRef spec4 0)) (V c (Pipeline.arrRef spec4 1)) :=
  (dat4 V c).arrAt_eq_of_cover 2 _ (fun t _ => flushed_eq4 V c t) cover4

end Cert.KernelIdeal.Regions

end
-- ==== Proof.BiasRelu1.lean ====
/-
  The first bias-and-clip region of the network (128 features): the tiled region leaves in its output array
  max (a(r, j) + b(0, j)) 0, where a is the feature array and b the bias row as the region finds them.

  The region's grid has ten points; point t handles rows 10000 t … 10000 t + 9999. The body loads the
  10000 × 128 row block and the whole 1 × 128 bias row, broadcasts the row down the block, adds, and takes the
  maximum with zero; on the extended reals the sum is + and the maximum is max. Block by block the written
  values are the blocks of one function of the two arrays, and the ten blocks cover every row.
-/
import proofs.«176480_j51831665328310_1_alg».proof.Proof.Gen.KernelIdeal.Frame
import proofs.«176480_j51831665328310_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer rectangle, spelt as a constant function. -/
theorem zero_off1 : (![0, 0] : Fin 2 → Nat) = fun _ => 0 := funext fun a => by fin_cases a <;> rfl

/-- The payload at row p, column q of the block: the block's entry plus the bias row's entry in column q,
    clipped below at zero (the two shape casts are identities, the row is broadcast down the block, the zero
    splat is the extended real 0). -/
theorem pay1_apply (x0 : Vec Ideal S10000x128 .f32) (x1 : Vec Ideal S1x128 .f32) (p : Fin 10000) (q : Fin 128) :
    k1_pay1 x0 x1 (ix2 p q) = max (x0 (ix2 p q) + x1 (ix2 (0 : Fin 1) q)) 0 := by
  unfold k1_pay1
  simp only [shapeCast_self]
  rw [maximumf_apply, addf_apply, broadcast_apply, broadcastTo_1b_ab_apply]
  show max _ (Ideal.ofBits .f32 0x00000000#32) = _
  rw [Ideal.ofBits_zero_f32]

/-- The same at any index of the block. -/
theorem pay1_eq (x0 : Vec Ideal S10000x128 .f32) (x1 : Vec Ideal S1x128 .f32) (j : S10000x128.Idx) :
    k1_pay1 x0 x1 j = max (x0 j + x1 (ix2 (0 : Fin 1) (j 1))) 0 := by
  obtain ⟨p, q, rfl⟩ : ∃ (p : Fin 10000) (q : Fin 128), j = ix2 p q := ⟨j 0, j 1, eq_ix2 j⟩
  exact pay1_apply x0 x1 p q

/-- The index maps over the 10 grid points: the input block moves with the output block along the rows, which
    is block t at point t; neither moves along the columns; the bias row's window stays at (0, 0). -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- An entry of the bias-and-clip array from an entry of the features and an entry of the bias row that sit
    where the function reads them. -/
theorem biasRelu128_of_eq1 (a : Cert.Gcn.N128.Idx → EReal) (b : Cert.Gcn.B128.Idx → EReal)
    (i i' : Cert.Gcn.N128.Idx) (k : Cert.Gcn.B128.Idx) (hi : i' = i) (hk : k = ix2 (0 : Fin 1) (i 1)) :
    max (a i' + b k) 0 = Cert.Gcn.biasRelu128 a b i := by
  subst hi hk; rfl

/-- What point t writes back is block t of the bias-and-clip array of the arrays as the region finds them:
    the staging buffer holds the payload of the two input blocks; entry (p, q) of the feature block is entry
    (10000 t + p, q) of the feature array, and the bias window is the whole bias row at every point. -/
theorem flushed1_eq (c : Dev nD) (t : Fin cfg1.N) :
    (dat1 (F := Ideal) V c).flushed 2 t = ((cfg1.win 2).blk t).view.read (Elt Ideal)
      (Cert.Gcn.biasRelu128 (V c (Pipeline.arrRef spec1 0)) (V c (Pipeline.arrRef spec1 1))) := by
  show (cfg1.win 2).cut (grid1.coords t) ((dat1 V c).after 2 t) = _
  rw [after1_2]
  unfold out1_2
  rw [View.canon_unit_zero zero_off1]
  simp only [View.ld_unit_zero (S := S10000x128) zero_off1, View.ld_unit_zero (S := S1x128) zero_off1]
  obtain ⟨e0, e1, e2, e3, e4, e5⟩ := idx_facts1 t
  funext j
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  show k1_pay1 (iblk1 V c 0 t) (iblk1 V c 1 t) j = _
  refine (pay1_eq (iblk1 V c 0 t) (iblk1 V c 1 t) j).trans ?_
  exact biasRelu128_of_eq1 (V c (Pipeline.arrRef spec1 0)) (V c (Pipeline.arrRef spec1 1))
    (((cfg1.win 2).blk t).view.emb j) (((cfg1.win 0).blk t).view.emb j)
    (((cfg1.win 1).blk t).view.emb (ix2 (0 : Fin 1) (j 1))) h0 h1

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v45).slice (win1_2.rect t)).set ↔ _
  rw [View.set_slice_whole, Rect.mem_set_unit]
  exact Iff.rfl

/-- Every index of the output array is in some point's block: row r is in the block of point r / 10000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  obtain ⟨t, ht⟩ : ∃ t : Fin cfg1.N, t.val = (i 0).val / 10000 :=
    ⟨⟨(i 0).val / 10000, by show _ < grid1.N; rw [hN]; omega⟩, rfl⟩
  obtain ⟨e0, e1, e2, e3, e4, e5⟩ := idx_facts1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- The output array after the region's ten points: the bias-and-clip array of the feature array and the bias
    row as the region finds them. -/
theorem final1 (c : Dev nD) : (dat1 (F := Ideal) V c).arrAt 2 cfg1.N
    = Cert.Gcn.biasRelu128 (V c (Pipeline.arrRef spec1 0)) (V c (Pipeline.arrRef spec1 1)) :=
  (dat1 V c).arrAt_eq_of_cover 2 _ (fun t _ => flushed1_eq V c t) cover1

end Cert.KernelIdeal.Regions

end
-- ==== Proof.BiasRelu3.lean ====
/-
  The second bias-and-clip region of the network (128 features): the tiled region leaves in its output array
  max (a(r, j) + b(0, j)) 0, where a is the feature array and b the bias row as the region finds them.

  The region's grid has ten points; point t handles rows 10000 t … 10000 t + 9999. The body loads the
  10000 × 128 row block and the whole 1 × 128 bias row, broadcasts the row down the block, adds, and takes the
  maximum with zero; on the extended reals the sum is + and the maximum is max. Block by block the written
  values are the blocks of one function of the two arrays, and the ten blocks cover every row.
-/
import proofs.«176480_j51831665328310_1_alg».proof.Proof.Gen.KernelIdeal.Frame
import proofs.«176480_j51831665328310_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer rectangle, spelt as a constant function. -/
theorem zero_off3 : (![0, 0] : Fin 2 → Nat) = fun _ => 0 := funext fun a => by fin_cases a <;> rfl

/-- The payload at row p, column q of the block: the block's entry plus the bias row's entry in column q,
    clipped below at zero (the two shape casts are identities, the row is broadcast down the block, the zero
    splat is the extended real 0). -/
theorem pay3_apply (x0 : Vec Ideal S10000x128 .f32) (x1 : Vec Ideal S1x128 .f32) (p : Fin 10000) (q : Fin 128) :
    k3_pay1 x0 x1 (ix2 p q) = max (x0 (ix2 p q) + x1 (ix2 (0 : Fin 1) q)) 0 := by
  unfold k3_pay1
  simp only [shapeCast_self]
  rw [maximumf_apply, addf_apply, broadcast_apply, broadcastTo_1b_ab_apply]
  show max _ (Ideal.ofBits .f32 0x00000000#32) = _
  rw [Ideal.ofBits_zero_f32]

/-- The same at any index of the block. -/
theorem pay3_eq (x0 : Vec Ideal S10000x128 .f32) (x1 : Vec Ideal S1x128 .f32) (j : S10000x128.Idx) :
    k3_pay1 x0 x1 j = max (x0 j + x1 (ix2 (0 : Fin 1) (j 1))) 0 := by
  obtain ⟨p, q, rfl⟩ : ∃ (p : Fin 10000) (q : Fin 128), j = ix2 p q := ⟨j 0, j 1, eq_ix2 j⟩
  exact pay3_apply x0 x1 p q

/-- The index maps over the 10 grid points: the input block moves with the output block along the rows, which
    is block t at point t; neither moves along the columns; the bias row's window stays at (0, 0). -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- An entry of the bias-and-clip array from an entry of the features and an entry of the bias row that sit
    where the function reads them. -/
theorem biasRelu128_of_eq3 (a : Cert.Gcn.N128.Idx → EReal) (b : Cert.Gcn.B128.Idx → EReal)
    (i i' : Cert.Gcn.N128.Idx) (k : Cert.Gcn.B128.Idx) (hi : i' = i) (hk : k = ix2 (0 : Fin 1) (i 1)) :
    max (a i' + b k) 0 = Cert.Gcn.biasRelu128 a b i := by
  subst hi hk; rfl

/-- What point t writes back is block t of the bias-and-clip array of the arrays as the region finds them:
    the staging buffer holds the payload of the two input blocks; entry (p, q) of the feature block is entry
    (10000 t + p, q) of the feature array, and the bias window is the whole bias row at every point. -/
theorem flushed3_eq (c : Dev nD) (t : Fin cfg3.N) :
    (dat3 (F := Ideal) V c).flushed 2 t = ((cfg3.win 2).blk t).view.read (Elt Ideal)
      (Cert.Gcn.biasRelu128 (V c (Pipeline.arrRef spec3 0)) (V c (Pipeline.arrRef spec3 1))) := by
  show (cfg3.win 2).cut (grid3.coords t) ((dat3 V c).after 2 t) = _
  rw [after3_2]
  unfold out3_2
  rw [View.canon_unit_zero zero_off3]
  simp only [View.ld_unit_zero (S := S10000x128) zero_off3, View.ld_unit_zero (S := S1x128) zero_off3]
  obtain ⟨e0, e1, e2, e3, e4, e5⟩ := idx_facts3 t
  funext j
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  show k3_pay1 (iblk3 V c 0 t) (iblk3 V c 1 t) j = _
  refine (pay3_eq (iblk3 V c 0 t) (iblk3 V c 1 t) j).trans ?_
  exact biasRelu128_of_eq3 (V c (Pipeline.arrRef spec3 0)) (V c (Pipeline.arrRef spec3 1))
    (((cfg3.win 2).blk t).view.emb j) (((cfg3.win 0).blk t).view.emb j)
    (((cfg3.win 1).blk t).view.emb (ix2 (0 : Fin 1) (j 1))) h0 h1

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v61).slice (win3_2.rect t)).set ↔ _
  rw [View.set_slice_whole, Rect.mem_set_unit]
  exact Iff.rfl

/-- Every index of the output array is in some point's block: row r is in the block of point r / 10000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 10 := N_3
  obtain ⟨t, ht⟩ : ∃ t : Fin cfg3.N, t.val = (i 0).val / 10000 :=
    ⟨⟨(i 0).val / 10000, by show _ < grid3.N; rw [hN]; omega⟩, rfl⟩
  obtain ⟨e0, e1, e2, e3, e4, e5⟩ := idx_facts3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

/-- The output array after the region's ten points: the bias-and-clip array of the feature array and the bias
    row as the region finds them. -/
theorem final3 (c : Dev nD) : (dat3 (F := Ideal) V c).arrAt 2 cfg3.N
    = Cert.Gcn.biasRelu128 (V c (Pipeline.arrRef spec3 0)) (V c (Pipeline.arrRef spec3 1)) :=
  (dat3 V c).arrAt_eq_of_cover 2 _ (fun t _ => flushed3_eq V c t) cover3

end Cert.KernelIdeal.Regions

end
-- ==== Proof.BiasRelu5.lean ====
/-
  The third bias-and-clip region of the network (40 features, the classes): the tiled region leaves in its output array
  max (a(r, j) + b(0, j)) 0, where a is the feature array and b the bias row as the region finds them.

  The region's grid has ten points; point t handles rows 10000 t … 10000 t + 9999. The body loads the
  10000 × 40 row block and the whole 1 × 40 bias row, broadcasts the row down the block, adds, and takes the
  maximum with zero; on the extended reals the sum is + and the maximum is max. Block by block the written
  values are the blocks of one function of the two arrays, and the ten blocks cover every row.
-/
import proofs.«176480_j51831665328310_1_alg».proof.Proof.Gen.KernelIdeal.Frame
import proofs.«176480_j51831665328310_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offsets of a whole-buffer rectangle, spelt as a constant function. -/
theorem zero_off5 : (![0, 0] : Fin 2 → Nat) = fun _ => 0 := funext fun a => by fin_cases a <;> rfl

/-- The payload at row p, column q of the block: the block's entry plus the bias row's entry in column q,
    clipped below at zero (the two shape casts are identities, the row is broadcast down the block, the zero
    splat is the extended real 0). -/
theorem pay5_apply (x0 : Vec Ideal S10000x40 .f32) (x1 : Vec Ideal S1x40 .f32) (p : Fin 10000) (q : Fin 40) :
    k5_pay1 x0 x1 (ix2 p q) = max (x0 (ix2 p q) + x1 (ix2 (0 : Fin 1) q)) 0 := by
  unfold k5_pay1
  simp only [shapeCast_self]
  rw [maximumf_apply, addf_apply, broadcast_apply, broadcastTo_1b_ab_apply]
  show max _ (Ideal.ofBits .f32 0x00000000#32) = _
  rw [Ideal.ofBits_zero_f32]

/-- The same at any index of the block. -/
theorem pay5_eq (x0 : Vec Ideal S10000x40 .f32) (x1 : Vec Ideal S1x40 .f32) (j : S10000x40.Idx) :
    k5_pay1 x0 x1 j = max (x0 j + x1 (ix2 (0 : Fin 1) (j 1))) 0 := by
  obtain ⟨p, q, rfl⟩ : ∃ (p : Fin 10000) (q : Fin 40), j = ix2 p q := ⟨j 0, j 1, eq_ix2 j⟩
  exact pay5_apply x0 x1 p q

/-- The index maps over the 10 grid points: the input block moves with the output block along the rows, which
    is block t at point t; neither moves along the columns; the bias row's window stays at (0, 0). -/
theorem idx_facts5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- An entry of the bias-and-clip array from an entry of the features and an entry of the bias row that sit
    where the function reads them. -/
theorem biasRelu40_of_eq5 (a : Cert.Gcn.N40.Idx → EReal) (b : Cert.Gcn.B40.Idx → EReal)
    (i i' : Cert.Gcn.N40.Idx) (k : Cert.Gcn.B40.Idx) (hi : i' = i) (hk : k = ix2 (0 : Fin 1) (i 1)) :
    max (a i' + b k) 0 = Cert.Gcn.biasRelu40 a b i := by
  subst hi hk; rfl

/-- What point t writes back is block t of the bias-and-clip array of the arrays as the region finds them:
    the staging buffer holds the payload of the two input blocks; entry (p, q) of the feature block is entry
    (10000 t + p, q) of the feature array, and the bias window is the whole bias row at every point. -/
theorem flushed5_eq (c : Dev nD) (t : Fin cfg5.N) :
    (dat5 (F := Ideal) V c).flushed 2 t = ((cfg5.win 2).blk t).view.read (Elt Ideal)
      (Cert.Gcn.biasRelu40 (V c (Pipeline.arrRef spec5 0)) (V c (Pipeline.arrRef spec5 1))) := by
  show (cfg5.win 2).cut (grid5.coords t) ((dat5 V c).after 2 t) = _
  rw [after5_2]
  unfold out5_2
  rw [View.canon_unit_zero zero_off5]
  simp only [View.ld_unit_zero (S := S10000x40) zero_off5, View.ld_unit_zero (S := S1x40) zero_off5]
  obtain ⟨e0, e1, e2, e3, e4, e5⟩ := idx_facts5 t
  funext j
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 40 + 1 * (j 1).val = win5_2.index t (1 : Fin 2) * 40 + 1 * (j 1).val; omega
  have h1 : ((cfg5.win 1).blk t).view.emb (ix2 (0 : Fin 1) (j 1)) = ix2 (0 : Fin 1) ((((cfg5.win 2).blk t).view.emb j) 1) := by
    funext a; apply Fin.ext
    match a with
    | ⟨0, _⟩ => show win5_1.index t (0 : Fin 2) * 1 + 1 * 0 = 0; omega
    | ⟨1, _⟩ => show win5_1.index t (1 : Fin 2) * 40 + 1 * (j 1).val = win5_2.index t (1 : Fin 2) * 40 + 1 * (j 1).val; omega
  show k5_pay1 (iblk5 V c 0 t) (iblk5 V c 1 t) j = _
  refine (pay5_eq (iblk5 V c 0 t) (iblk5 V c 1 t) j).trans ?_
  exact biasRelu40_of_eq5 (V c (Pipeline.arrRef spec5 0)) (V c (Pipeline.arrRef spec5 1))
    (((cfg5.win 2).blk t).view.emb j) (((cfg5.win 0).blk t).view.emb j)
    (((cfg5.win 1).blk t).view.emb (ix2 (0 : Fin 1) (j 1))) h0 h1

/-- An index of the output array is in point t's block iff each coordinate is in the block's range on its axis. -/
theorem mem_blk5 (t : Fin cfg5.N) (i : S100000x40.Idx) :
    i ∈ ((cfg5.win 2).blk t).view.set ↔ ∀ a : Fin 2, win5_2.index t a * S10000x40.size a ≤ (i a).val
      ∧ (i a).val < win5_2.index t a * S10000x40.size a + S10000x40.size a := by
  show i ∈ ((View.whole main_v77).slice (win5_2.rect t)).set ↔ _
  rw [View.set_slice_whole, Rect.mem_set_unit]
  exact Iff.rfl

/-- Every index of the output array is in some point's block: row r is in the block of point r / 10000. -/
theorem cover5 (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  have hN : grid5.N = 10 := N_5
  obtain ⟨t, ht⟩ : ∃ t : Fin cfg5.N, t.val = (i 0).val / 10000 :=
    ⟨⟨(i 0).val / 10000, by show _ < grid5.N; rw [hN]; omega⟩, rfl⟩
  obtain ⟨e0, e1, e2, e3, e4, e5⟩ := idx_facts5 t
  refine ⟨t, flush5_2 t, ?_⟩
  rw [mem_blk5]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 40 ≤ (i 1).val ∧ (i 1).val < win5_2.index t (1 : Fin 2) * 40 + 40
    omega

/-- The output array after the region's ten points: the bias-and-clip array of the feature array and the bias
    row as the region finds them. -/
theorem final5 (c : Dev nD) : (dat5 (F := Ideal) V c).arrAt 2 cfg5.N
    = Cert.Gcn.biasRelu40 (V c (Pipeline.arrRef spec5 0)) (V c (Pipeline.arrRef spec5 1)) :=
  (dat5 V c).arrAt_eq_of_cover 2 _ (fun t _ => flushed5_eq V c t) cover5

end Cert.KernelIdeal.Regions

end
-- ==== Proof.LogSoftmax6.lean ====
/-
  Region 6 of the kernel: the log-softmax of a 100000 × 40 array, ten blocks of 10000 consecutive rows.

  Each grid point loads one block, and stores, at entry (p, q), the block's entry less the largest entry M of the block's
  row p (the fold of max from −∞ over the row's 40 entries), less the logarithm of the row's sum of exp (entry − M).
  An entry of the result depends on ONE row of the block only, and a row of the array lies inside one block (a block
  holds all 40 columns of each of its rows), so the block's row maximum and row sum are the array's: every point writes
  back a block of ONE function of the input array — `Cert.Gcn.logSoftmax40` — and the ten blocks tile the array
  (row r is in block r / 10000). Hence the output array after the region is the log-softmax of the input array.
-/
import proofs.«176480_j51831665328310_1_alg».proof.Proof.Gen.KernelIdeal.Frame
import proofs.«176480_j51831665328310_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## A vector as a one-column matrix, and that column spread over the columns -/

/-- An `[a]` vector cast to the column `[a, 1]` reads, at `(i, u)`, the operand at `i`. -/
theorem shapeCast_a_a1_apply6 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply6 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The payload at an index -/

/-- The largest entry of row `p` of a 10000 × 40 block: the fold of max from −∞ over the row's 40 entries. -/
def blockRowMax6 (x0 : Vec Ideal S10000x40 .f32) (p : Fin 10000) : EReal :=
  (Finset.univ : Finset (Fin 40)).fold max ⊥ (fun k => x0 (ix2 p k))

/-- The word 0xFF800000 is −∞. -/
theorem ofBits_neg_inf6 : FloatOps.ofBits (F := Ideal) .f32 0xFF800000#32 = (⊥ : EReal) := by
  simp [Ideal.ofBits, Ideal.ieee]

/-- The row-maximum reduction, cast to a column and broadcast back over the 40 columns, read at `(p, q)`:
    the largest entry of row `p`. -/
theorem rowMaxCol6 (x0 : FVec Ideal S10000x40 .f32) (h : S10000x40.Reduces [1] S10000) (hφ : FKind.Formats .f32)
    (hacc : (0xFF800000#32 : BitVec 32) = FKind.maximumf.neutral .f32 hφ)
    (hs : S10000.ShapeCasts S10000x1) (hb : S10000x1.Broadcasts S10000x40) (p : Fin 10000) (q : Fin 40) :
    broadcastTo S10000x40 (shapeCast S10000x1 (multiReduction .maximumf [1] S10000 x0 0xFF800000#32 h hφ hacc) hs) hb (ix2 p q)
      = blockRowMax6 x0 p := by
  refine (broadcastTo_a1_ab_apply6 _ hb p q).trans ((shapeCast_a_a1_apply6 _ hs p 0).trans
    ((Ideal.multiReduction_maximumf_single x0 _ h hφ hacc (ix1 p)).trans ?_))
  unfold blockRowMax6
  have hfun : (x0 ∘ h.lift (ix1 p)) = fun k : Fin 40 => x0 (ix2 p k) :=
    funext fun k => congrArg x0 (funext fun a => Fin.ext (by match a with | ⟨0, _⟩ => rfl | ⟨1, _⟩ => rfl))
  rw [ofBits_neg_inf6, hfun]
  rfl

/-- The row-sum reduction read at row `p`: the sum of the row's 40 entries. -/
theorem rowSum6 (v : FVec Ideal S10000x40 .f32) (h : S10000x40.Reduces [1] S10000) (hφ : FKind.Formats .f32)
    (hacc : (0x00000000#32 : BitVec 32) = FKind.add.neutral .f32 hφ) (p : Fin 10000) :
    multiReduction .add [1] S10000 v 0x00000000#32 h hφ hacc (ix1 p) = ∑ k : Fin 40, v (ix2 p k) := by
  refine (Ideal.multiReduction_add_single v _ h hφ hacc (ix1 p)).trans ?_
  refine Finset.sum_congr rfl fun k _ => congrArg v (funext fun a => Fin.ext (by match a with | ⟨0, _⟩ => rfl | ⟨1, _⟩ => rfl))

/-- THE PAYLOAD AT AN INDEX: entry `(p, q)` of the block the body stores is the block's entry less its row's largest
    entry, less the logarithm of the row's sum of exponentials of the same differences. It depends on row `p` of the block only. -/
theorem pay6_apply (x0 : Vec Ideal S10000x40 .f32) (p : Fin 10000) (q : Fin 40) :
    k6_pay1 (F := Ideal) x0 (ix2 p q)
      = (x0 (ix2 p q) - blockRowMax6 x0 p) - Ideal.log (∑ k : Fin 40, Ideal.exp (x0 (ix2 p k) - blockRowMax6 x0 p)) := by
  unfold k6_pay1
  simp only [shapeCast_self]
  refine congrArg₂ (· - ·) (congrArg₂ (· - ·) rfl (rowMaxCol6 x0 _ _ _ _ _ p q)) ?_
  refine (broadcastTo_a1_ab_apply6 _ _ p q).trans ?_
  refine congrArg Ideal.log ((shapeCast_a_a1_apply6 _ _ p 0).trans ((rowSum6 _ _ _ _ p).trans ?_))
  refine Finset.sum_congr rfl fun k _ => ?_
  exact congrArg Ideal.exp (congrArg₂ (· - ·) rfl (rowMaxCol6 x0 _ _ _ _ _ p k))

/-! ## From blocks to the array -/

-- the TensorCore's buffer contents when the region is entered
variable (V : (c : Dev nD) → (b : Ref sig .tc) → Buf (Elt Ideal) ((c : Thread nD τ).loc b))

/-- The zero offsets of the body's whole-block load and store. -/
theorem hz6 : (![0, 0] : Fin 2 → Nat) = fun _ => 0 := funext fun a => by fin_cases a <;> rfl

/-- The printed index maps, decided once over the grid: both windows' block at point `t` is block `(t, 0)`. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- When row `p` of a block is row `r` of an array `X`, the payload's entry `(p, q)` is the log-softmax of `X` at
    `(r, q)`: the row's largest entry and its sum of exponentials are those of the array's row, a row lying inside one block. -/
theorem pay6_row (X : Cert.Gcn.N40.Idx → EReal) (x0 : Vec Ideal S10000x40 .f32) (p : Fin 10000) (q : Fin 40) (r : Fin 100000)
    (hx : ∀ k : Fin 40, x0 (ix2 p k) = X (ix2 r k)) :
    k6_pay1 (F := Ideal) x0 (ix2 p q) = Cert.Gcn.logSoftmax40 X (ix2 r q) := by
  rw [pay6_apply]
  have hM : blockRowMax6 x0 p = Cert.Gcn.rowMax40 X r := by
    unfold blockRowMax6 Cert.Gcn.rowMax40
    exact congrArg (fun f => Finset.fold max ⊥ f Finset.univ) (funext hx)
  unfold Cert.Gcn.logSoftmax40
  show _ = (X (ix2 r q) - Cert.Gcn.rowMax40 X r) - Ideal.log (∑ k : Fin 40, Ideal.exp (X (ix2 r k) - Cert.Gcn.rowMax40 X r))
  rw [hM, hx q]
  simp only [hx]

/-- The input window's block at point `t` holds rows `10000 t … 10000 t + 9999` of its array. -/
theorem iblk6_apply (c : Dev nD) (t : Fin cfg6.N) (p : Fin 10000) (k : Fin 40) (r : Fin 100000)
    (hr : r.val = 10000 * t.val + p.val) :
    (iblk6 V c 0 t : Vec Ideal S10000x40 .f32) (ix2 p k)
      = (V c (Pipeline.arrRef spec6 0) : Cert.Gcn.N40.Idx → EReal) (ix2 r k) := by
  obtain ⟨e0, e1, -, -⟩ := idx_facts6 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 10000 + 1 * p.val = r.val; rw [e0, hr]; omega
  | ⟨1, _⟩ => show win6_0.index t (1 : Fin 2) * 40 + 1 * k.val = k.val; rw [e1]; omega

/-- Entry `j` of what point `t` stores is the log-softmax of the input array at the entry of the array that `j` is. -/
theorem flushed_point6 (c : Dev nD) (t : Fin cfg6.N) (j : S10000x40.Idx) :
    k6_pay1 (F := Ideal) (iblk6 V c 0 t) j
      = Cert.Gcn.logSoftmax40 (V c (Pipeline.arrRef spec6 0)) (((cfg6.win 1).blk t).view.emb j) := by
  obtain ⟨p, q, rfl⟩ : ∃ (p : Fin 10000) (q : Fin 40), j = ix2 p q := ⟨j 0, j 1, eq_ix2 j⟩
  obtain ⟨-, -, e2, e3⟩ := idx_facts6 t
  have hN : cfg6.N = 10 := N_6
  have ht : t.val < 10 := hN ▸ t.isLt
  have hp : p.val < 10000 := p.isLt
  refine (pay6_row (V c (Pipeline.arrRef spec6 0)) _ p q ⟨10000 * t.val + p.val, by omega⟩
    (fun k => iblk6_apply V c t p k _ rfl)).trans ?_
  refine congrArg (Cert.Gcn.logSoftmax40 (V c (Pipeline.arrRef spec6 0))) (funext fun a => Fin.ext ?_)
  match a with
  | ⟨0, _⟩ => show 10000 * t.val + p.val = win6_1.index t (0 : Fin 2) * 10000 + 1 * p.val; rw [e2]; omega
  | ⟨1, _⟩ => show q.val = win6_1.index t (1 : Fin 2) * 40 + 1 * q.val; rw [e3]; omega

/-- WHAT POINT `t` WRITES BACK is block `t` of the log-softmax of the input array as the region finds it. -/
theorem flushed6_eq (c : Dev nD) (t : Fin cfg6.N) :
    (dat6 (F := Ideal) V c).flushed 1 t
      = ((cfg6.win 1).blk t).view.read (Elt Ideal) (Cert.Gcn.logSoftmax40 (V c (Pipeline.arrRef spec6 0))) := by
  show (cfg6.win 1).cut (grid6.coords t) ((dat6 V c).after 1 t) = _
  rw [after6_1]
  unfold out6_1
  rw [View.canon_unit_zero hz6]
  simp only [View.ld_unit_zero (S := S10000x40) hz6]
  funext j
  exact flushed_point6 V c t j

/-- An index of the array is in point `t`'s block iff each coordinate is in the block's range on its axis. -/
theorem mem_blk6 (t : Fin cfg6.N) (i : S100000x40.Idx) :
    i ∈ ((cfg6.win 1).blk t).view.set ↔ ∀ a : Fin 2, win6_1.index t a * S10000x40.size a ≤ (i a).val
      ∧ (i a).val < win6_1.index t a * S10000x40.size a + S10000x40.size a := by
  show i ∈ ((View.whole main_v78).slice (win6_1.rect t)).set ↔ _
  rw [View.set_slice_whole, Rect.mem_set_unit]
  exact Iff.rfl

/-- THE COVER: row `r` of the array lies in the block of point `r / 10000`, whose 40 columns are all of the array's. -/
theorem cover6 (i : S100000x40.Idx) :
    ∃ t : Fin cfg6.N, (cfg6.win 1).flush t = true ∧ i ∈ ((cfg6.win 1).blk t).view.set := by
  have hi0 : (i 0).val < 100000 := (i 0).isLt
  have hi1 : (i 1).val < 40 := (i 1).isLt
  have hN : cfg6.N = 10 := N_6
  obtain ⟨t, ht⟩ : ∃ t : Fin cfg6.N, t.val = (i 0).val / 10000 := ⟨⟨(i 0).val / 10000, by rw [hN]; omega⟩, rfl⟩
  obtain ⟨-, -, e2, e3⟩ := idx_facts6 t
  refine ⟨t, flush6_1 t, ?_⟩
  rw [mem_blk6]
  intro a
  match a with
  | ⟨0, _⟩ =>
    show win6_1.index t (0 : Fin 2) * 10000 ≤ (i 0).val ∧ (i 0).val < win6_1.index t (0 : Fin 2) * 10000 + 10000
    rw [e2, ht]; omega
  | ⟨1, _⟩ =>
    show win6_1.index t (1 : Fin 2) * 40 ≤ (i 1).val ∧ (i 1).val < win6_1.index t (1 : Fin 2) * 40 + 40
    rw [e3]; omega

/-- THE ARRAY after the region: the log-softmax, row by row, of the input array as the region finds it. -/
theorem final6 (c : Dev nD) :
    (dat6 (F := Ideal) V c).arrAt 1 cfg6.N = Cert.Gcn.logSoftmax40 (V c (Pipeline.arrRef spec6 0)) :=
  (dat6 V c).arrAt_eq_of_cover 1 _ (fun t _ => flushed6_eq V c t) cover6

end Cert.KernelIdeal.Regions

end
-- ==== Proof.RefStages.lean ====
/-
  The reference's dense layers, bias-and-ReLU stages and neighbourhood aggregations, each as one function of the stage
  before it.

  * A `dot_general` contracting the 128 hidden features is `dense128` / `dense40` of its operands.
  * A bias vector broadcast to every node, added, and clipped at zero is `biasRelu128` / `biasRelu40` of the
    aggregated features and the bias read as a one-row matrix.
  * The aggregation of a layer — gather each edge's source row, scale it by the edge's normalisation coefficient,
    scatter-add it into the edge's target row — is ONE function `aggregate128` / `aggregate40` of the edge list and of
    the node features it is applied to: the reference recomputes the degree normalisation in every layer, and the three
    computations are the same term, so the three layers aggregate with the same function.
-/
import proofs.«176480_j51831665328310_1_alg».proof.Proof.RefRead
import proofs.«176480_j51831665328310_1_alg».proof.Proof.Spec
import Idealize.ShloMosaic.PureOps.Ideal.Laws

set_option maxRecDepth 16384

noncomputable section

namespace Cert.ReferenceIdeal.Bridge

open Cert.ReferenceIdeal Cert.ReferenceIdeal.Read Idealize.ShloMosaic Idealize.ShloMosaic.ValueIdx

/-! ## The dense layers -/

/-- The reference's `dot_general` val_main_v7: entry (r, j) is the sum over the 128 contracted features, the function `dense128`. -/
theorem dense_v7 (x0 : (⟨S100000x128, .f32⟩ : BufTy).Contents (Elt Ideal))  (x2 : (⟨S128x128, .f32⟩ : BufTy).Contents (Elt Ideal)) :
    val_main_v7 (F := Ideal) x0 x2 = Cert.Gcn.dense128 (x0) x2 := by
  funext i
  rw [val_main_v7_apply]
  unfold Cert.Gcn.dense128
  refine Finset.sum_congr rfl fun k _ => ?_
  have el : lidx_main_v7 i k = ix2 (n0 := 100000) (n1 := 128) (i 0) k :=
    funext fun a => Fin.ext (by match a with | ⟨0, _⟩ => rfl | ⟨1, _⟩ => rfl)
  have er : ridx_main_v7 i k = ix2 (n0 := 128) (n1 := 128) k (i 1) :=
    funext fun a => Fin.ext (by match a with | ⟨0, _⟩ => rfl | ⟨1, _⟩ => rfl)
  rw [el, er]

/-- The reference's `dot_general` val_main_v48: entry (r, j) is the sum over the 128 contracted features, the function `dense128`. -/
theorem dense_v48 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4 = Cert.Gcn.dense128 (val_main_v47 (F := Ideal) x0 x1 x2 x3) x4 := by
  funext i
  rw [val_main_v48_apply]
  unfold Cert.Gcn.dense128
  refine Finset.sum_congr rfl fun k _ => ?_
  have el : lidx_main_v48 i k = ix2 (n0 := 100000) (n1 := 128) (i 0) k :=
    funext fun a => Fin.ext (by match a with | ⟨0, _⟩ => rfl | ⟨1, _⟩ => rfl)
  have er : ridx_main_v48 i k = ix2 (n0 := 128) (n1 := 128) k (i 1) :=
    funext fun a => Fin.ext (by match a with | ⟨0, _⟩ => rfl | ⟨1, _⟩ => rfl)
  rw [el, er]

/-- The reference's `dot_general` val_main_v89: entry (r, j) is the sum over the 128 contracted features, the function `dense40`. -/
theorem dense_v89 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) :
    val_main_v89 (F := Ideal) x0 x1 x2 x3 x4 x5 x6 = Cert.Gcn.dense40 (val_main_v88 (F := Ideal) x0 x1 x2 x3 x4 x5) x6 := by
  funext i
  rw [val_main_v89_apply]
  unfold Cert.Gcn.dense40
  refine Finset.sum_congr rfl fun k _ => ?_
  have el : lidx_main_v89 i k = ix2 (n0 := 100000) (n1 := 128) (i 0) k :=
    funext fun a => Fin.ext (by match a with | ⟨0, _⟩ => rfl | ⟨1, _⟩ => rfl)
  have er : ridx_main_v89 i k = ix2 (n0 := 128) (n1 := 40) k (i 1) :=
    funext fun a => Fin.ext (by match a with | ⟨0, _⟩ => rfl | ⟨1, _⟩ => rfl)
  rw [el, er]

/-! ## Bias and ReLU -/

/-- The reference's bias addition and ReLU val_main_v47: max (a(r, j) + b(j)) 0 with the bias vector read as a one-row matrix. -/
theorem biasRelu_v47 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) :
    val_main_v47 (F := Ideal) x0 x1 x2 x3 = Cert.Gcn.biasRelu128 (val_main_v43 (F := Ideal) x0 x1 x2) (Cert.Gcn.rowOf128 x3) := by
  funext i
  rw [val_main_v47_apply, val_main_v46_apply, val_main_v45_apply, val_main_v44_apply, val_main_call1_v0_apply, val_main_call1_cst_apply]
  have e : idx_main_v44 (idx_main_v45 i) = ix1 (n := 128) (i 1) :=
    funext fun a => Fin.ext (by match a with | ⟨0, _⟩ => rfl)
  rw [e]
  show max (_ + _) (Ideal.ofBits .f32 0x00000000#32) = max (_ + _) 0
  rw [Ideal.ofBits_zero_f32]
  rfl

/-- The reference's bias addition and ReLU val_main_v88: max (a(r, j) + b(j)) 0 with the bias vector read as a one-row matrix. -/
theorem biasRelu_v88 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v88 (F := Ideal) x0 x1 x2 x3 x4 x5 = Cert.Gcn.biasRelu128 (val_main_v84 (F := Ideal) x0 x1 x2 x3 x4) (Cert.Gcn.rowOf128 x5) := by
  funext i
  rw [val_main_v88_apply, val_main_v87_apply, val_main_v86_apply, val_main_v85_apply, val_main_call3_v0_apply, val_main_call3_cst_apply]
  have e : idx_main_v85 (idx_main_v86 i) = ix1 (n := 128) (i 1) :=
    funext fun a => Fin.ext (by match a with | ⟨0, _⟩ => rfl)
  rw [e]
  show max (_ + _) (Ideal.ofBits .f32 0x00000000#32) = max (_ + _) 0
  rw [Ideal.ofBits_zero_f32]
  rfl

/-- The reference's bias addition and ReLU val_main_v129: max (a(r, j) + b(j)) 0 with the bias vector read as a one-row matrix. -/
theorem biasRelu_v129 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) :
    val_main_v129 (F := Ideal) x0 x1 x2 x3 x4 x5 x6 x7 = Cert.Gcn.biasRelu40 (val_main_v125 (F := Ideal) x0 x1 x2 x3 x4 x5 x6) (Cert.Gcn.rowOf40 x7) := by
  funext i
  rw [val_main_v129_apply, val_main_v128_apply, val_main_v127_apply, val_main_v126_apply, val_main_call5_v0_apply, val_main_call5_cst_apply]
  have e : idx_main_v126 (idx_main_v127 i) = ix1 (n := 40) (i 1) :=
    funext fun a => Fin.ext (by match a with | ⟨0, _⟩ => rfl)
  rw [e]
  show max (_ + _) (Ideal.ofBits .f32 0x00000000#32) = max (_ + _) 0
  rw [Ideal.ofBits_zero_f32]
  rfl

/-! ## The aggregation, one function for the three layers -/

/-- Gather each edge's source row of `h`, scale by the edge's coefficient, scatter-add into the edge's target row (128 wide). -/
def aggregate128 (x1 : (⟨S2x1600000, .i32⟩ : BufTy).Contents (Elt Ideal)) (h : FVec Ideal S100000x128 .f32) : FVec Ideal S100000x128 .f32 :=
  Host.scatterAdd (F := Ideal) scatter_S100000x128_S1700000x1_S1700000x128_1_0_0_1 (val_main_v41 (F := Ideal)) (val_main_v42 (F := Ideal) x1)
    (mulf (F := Ideal) (Host.gather gather_S100000x128_S1700000x1_S1700000x128_1_0_n_n_0_1_1128 h (val_main_v36 (F := Ideal) x1)) (val_main_v39 (F := Ideal) x1))

/-- The same aggregation, 40 wide. -/
def aggregate40 (x1 : (⟨S2x1600000, .i32⟩ : BufTy).Contents (Elt Ideal)) (h : FVec Ideal S100000x40 .f32) : FVec Ideal S100000x40 .f32 :=
  Host.scatterAdd (F := Ideal) scatter_S100000x40_S1700000x1_S1700000x40_1_0_0_1 (val_main_v123 (F := Ideal)) (val_main_v124 (F := Ideal) x1)
    (mulf (F := Ideal) (Host.gather gather_S100000x40_S1700000x1_S1700000x40_1_0_n_n_0_1_140 h (val_main_v118 (F := Ideal) x1)) (val_main_v121 (F := Ideal) x1))

/-- The second layer's normalisation coefficients are the first layer's: the same operations of the edge list. -/
theorem coeff2 (x1 : (⟨S2x1600000, .i32⟩ : BufTy).Contents (Elt Ideal)) : val_main_v71 (F := Ideal) x1 = val_main_v30 (F := Ideal) x1 := rfl
/-- The third layer's normalisation coefficients are the first layer's. -/
theorem coeff3 (x1 : (⟨S2x1600000, .i32⟩ : BufTy).Contents (Elt Ideal)) : val_main_v112 (F := Ideal) x1 = val_main_v30 (F := Ideal) x1 := rfl

theorem agg_v43 (x0 : (⟨S100000x128, .f32⟩ : BufTy).Contents (Elt Ideal)) (x1 : (⟨S2x1600000, .i32⟩ : BufTy).Contents (Elt Ideal)) (x2 : (⟨S128x128, .f32⟩ : BufTy).Contents (Elt Ideal)) :
    val_main_v43 (F := Ideal) x0 x1 x2 = aggregate128 x1 (val_main_v7 (F := Ideal) x0 x2) := rfl
theorem agg_v84 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v84 (F := Ideal) x0 x1 x2 x3 x4 = aggregate128 x1 (val_main_v48 (F := Ideal) x0 x1 x2 x3 x4) := rfl
theorem agg_v125 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) :
    val_main_v125 (F := Ideal) x0 x1 x2 x3 x4 x5 x6 = aggregate40 x1 (val_main_v89 (F := Ideal) x0 x1 x2 x3 x4 x5 x6) := rfl

end Cert.ReferenceIdeal.Bridge

end
-- ==== Proof.RefLogSoftmax.lean ====
/-
  The reference's log-softmax: the last stage of the reference program, read one operation at a time, is the
  specification's `Cert.Gcn.logSoftmax40` of the stage before it (the last hidden layer, 100000 × 40).

  Per row r of that layer h: a reduction by max over the 40 columns from −∞ gives the row's largest entry M(r), and
  max −∞ M(r) = M(r); two broadcasts spread it back over the row; h(r, k) − M(r) is exponentiated and summed over the
  columns from 0; the logarithm of the sum is spread back over the row and subtracted from h(r, q) − M(r).
  The layer below is never opened: every step reads it at an index only.
-/
import proofs.«176480_j51831665328310_1_alg».proof.Proof.RefRead
import proofs.«176480_j51831665328310_1_alg».proof.Proof.Spec
import Idealize.ShloMosaic.Lib.Pipeline.Value
import Idealize.ShloMosaic.Lib.ValueIdx
import Idealize.ShloMosaic.PureOps.Ideal.Laws

noncomputable section

namespace Cert.ReferenceIdeal.Bridge

open Cert.ReferenceIdeal Cert.ReferenceIdeal.Read Idealize.ShloMosaic Idealize.ShloMosaic.ValueIdx

/-- The word 0xFF800000 is −∞. -/
theorem ofBits_neg_inf : FloatOps.ofBits (F := Ideal) .f32 0xFF800000#32 = (⊥ : EReal) := by
  simp [Ideal.ofBits, Ideal.ieee]

/-- The host's reduction by max over the 40 columns, from an initial value −∞, read at row `r`: the row's largest
    entry, the fold of max from −∞ over the row's 40 entries. -/
theorem hostRowMax_apply (h : Cert.Gcn.N40.Idx → EReal) (init : (⟨0, ![]⟩ : Shape).Idx → EReal)
    (h' : Cert.Gcn.N40.ReducesTo [1] ⟨1, ![100000]⟩) (hu : 0 < (⟨0, ![]⟩ : Shape).numel)
    (hinit : ∀ j, init j = ⊥) (r : Fin 100000) :
    Host.reduce (FloatOps.maximumf (F := Ideal) (φ := .f32)) h init h' hu (ix1 r) = Cert.Gcn.rowMax40 h r := by
  have hR : Cert.Gcn.N40.Reduces [1] ⟨1, ![100000]⟩ := by decide
  rw [Host.reduce_eq_fold_single _ h init h' hR hu (ix1 r), hinit]
  unfold Cert.Gcn.rowMax40
  have hfun : (h ∘ hR.lift (ix1 r)) = fun k : Fin 40 => h (ix2 r k) :=
    funext fun k => congrArg h (funext fun a => Fin.ext (by match a with | ⟨0, _⟩ => rfl | ⟨1, _⟩ => rfl))
  rw [hfun]
  rfl

/-- THE REFERENCE'S LOG-SOFTMAX: the last stage of the reference is `Cert.Gcn.logSoftmax40` of the stage before it.
    Per row `r`: the reduction by max gives the row's largest entry `M` (max −∞ M = M), broadcast back over the 40
    columns; the reduction by sum gives 0 + Σ_k exp (h(r, k) − M); the result is (h(r, q) − M) − log of that sum. -/
theorem logSoftmax_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) :
    val_main_v130 (F := Ideal) x0 x1 x2 x3 x4 x5 x6 x7 = Cert.Gcn.logSoftmax40 (val_main_v129 (F := Ideal) x0 x1 x2 x3 x4 x5 x6 x7) := by
  refine funext fun i => ?_
  obtain ⟨r, q, rfl⟩ : ∃ (r : Fin 100000) (q : Fin 40), i = ix2 r q := ⟨i 0, i 1, eq_ix2 i⟩
  -- the broadcast row maximum, at every column of row r
  have hmax : ∀ k : Fin 40, val_main_call6_v4 (F := Ideal) x0 x1 x2 x3 x4 x5 x6 x7 (ix2 r k)
      = Cert.Gcn.rowMax40 (val_main_v129 (F := Ideal) x0 x1 x2 x3 x4 x5 x6 x7) r := by
    intro k
    rw [val_main_call6_v4_apply, val_main_call6_v3_apply, val_main_call6_v2_apply, val_main_call6_v1_apply,
      val_main_call6_cst_0_apply,
      show idx_main_call6_v3 (idx_main_call6_v4 (ix2 r k)) = ix1 r from
        funext fun a => Fin.ext (by match a with | ⟨0, _⟩ => rfl)]
    unfold val_main_call6_v0
    refine (congrArg₂ FloatOps.maximumf ofBits_neg_inf
      (hostRowMax_apply _ _ _ _ (fun j => (val_main_call6_cst_apply j).trans ofBits_neg_inf) r)).trans ?_
    exact max_bot_left _
  -- the broadcast logarithm of the row's sum of exponentials
  have hlog : val_main_call6_v10 (F := Ideal) x0 x1 x2 x3 x4 x5 x6 x7 (ix2 r q)
      = Ideal.log (∑ k : Fin 40, Ideal.exp (val_main_v129 (F := Ideal) x0 x1 x2 x3 x4 x5 x6 x7 (ix2 r k)
          - Cert.Gcn.rowMax40 (val_main_v129 (F := Ideal) x0 x1 x2 x3 x4 x5 x6 x7) r)) := by
    rw [val_main_call6_v10_apply, val_main_call6_v9_apply, val_main_call6_v8_apply,
      show idx_main_call6_v8 (idx_main_call6_v10 (ix2 r q)) = ix1 r from
        funext fun a => Fin.ext (by match a with | ⟨0, _⟩ => rfl),
      val_main_call6_v7_apply, val_main_call6_cst_1_apply]
    simp only [Ideal.hostUnary_log_def, Ideal.ofBits_def, Ideal.ofBits_zero_f32, zero_add]
    refine congrArg Ideal.log (Finset.sum_congr rfl fun k _ => ?_)
    rw [show idx_main_call6_v7 (ix1 r) k = ix2 r k from
        funext fun a => Fin.ext (by match a with | ⟨0, _⟩ => rfl | ⟨1, _⟩ => rfl),
      val_main_call6_v6_apply, val_main_call6_v5_apply, hmax k]
    simp only [Ideal.hostUnary_exp_def, Ideal.subf_def]
  rw [val_main_v130_apply, val_main_call6_v5_apply, hmax q, hlog]
  generalize val_main_v129 (F := Ideal) x0 x1 x2 x3 x4 x5 x6 x7 = h
  simp only [Ideal.subf_def]
  rfl

end Cert.ReferenceIdeal.Bridge

end
-- ==== Proof.KernelChain.lean ====
/-
  The idealized kernel's result array, read through @main's thirteen segments.

  @main alternates host stretches and tiled regions. At every segment boundary the buffers that a later segment still
  reads hold a known function of the eight argument arrays; each boundary's facts follow from the previous boundary's:
  * a region writes only its output array, which after the region is the region's whole-array function (`dense`,
    `biasRelu`, `logSoftmax`) of its input arrays as the region found them; every other buffer is kept;
  * a host stretch writes its own results — the aggregation of a layer (gather each edge's source row, scale it by the
    edge's coefficient, scatter-add it into the edge's target row) and the bias vector laid out as a row — and keeps the rest.
  The edge lists (source and target nodes with the self loops appended) and the symmetric normalisation coefficients are
  computed once, before the first region, and read by all three layers; they are the same operations of the edge-index
  argument as the reference's, whose stage functions name every value here. The last boundary's result array is the
  reference's result stage of the same arguments.
-/
import proofs.«176480_j51831665328310_1_alg».proof.Proof.Gen.KernelIdeal.Frame
import proofs.«176480_j51831665328310_1_alg».proof.Proof.Dense0
import proofs.«176480_j51831665328310_1_alg».proof.Proof.Dense2
import proofs.«176480_j51831665328310_1_alg».proof.Proof.Dense4
import proofs.«176480_j51831665328310_1_alg».proof.Proof.BiasRelu1
import proofs.«176480_j51831665328310_1_alg».proof.Proof.BiasRelu3
import proofs.«176480_j51831665328310_1_alg».proof.Proof.BiasRelu5
import proofs.«176480_j51831665328310_1_alg».proof.Proof.LogSoftmax6
import proofs.«176480_j51831665328310_1_alg».proof.Proof.RefStages
import proofs.«176480_j51831665328310_1_alg».proof.Proof.RefLogSoftmax
import Idealize.ShloMosaic.Lib.StableHlo.Run
import Idealize.ShloMosaic.Lib.ValueLayout
import proofs.«176480_j51831665328310_1_alg».proof.Proof.LibTypedRef

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The argument arrays as launched, on core `c`. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-- The reads a one-pass rewrite leaves under the operand pairs of a concatenation: each operation's result at its own
    buffer is its function's value, at any other buffer what was there. -/
macro "host_reads" : tactic =>
  `(tactic| repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)))

/-! ## The aggregation as the kernel's host stretches spell it -/

/-- From the source list `s`, the target list `d`, the coefficients `n` and node features `h`: gather row s(e) of `h`
    (a negative index counted from the end), scale by n(e), scatter-add into row d(e) of a zero array. 128 wide. -/
def kAgg128 (s d : (⟨S1700000, .i32⟩ : BufTy).Contents (Elt Ideal)) (n : (⟨S1700000, .f32⟩ : BufTy).Contents (Elt Ideal)) (h : (⟨S100000x128, .f32⟩ : BufTy).Contents (Elt Ideal)) : (⟨S100000x128, .f32⟩ : BufTy).Contents (Elt Ideal) :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (mulf
      (Host.gather gather_S100000x128_S1700000x1_S1700000x128_1_0_n_n_0_1_1128 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x128 ![0, 1] bcast_S1700000x1_S1700000x128_0_1 (broadcastInDim S1700000x1 ![0] bcast_S1700000_S1700000x1_0 n)))

/-- The same, 40 wide. -/
def kAgg40 (s d : (⟨S1700000, .i32⟩ : BufTy).Contents (Elt Ideal)) (n : (⟨S1700000, .f32⟩ : BufTy).Contents (Elt Ideal)) (h : (⟨S100000x40, .f32⟩ : BufTy).Contents (Elt Ideal)) : (⟨S100000x40, .f32⟩ : BufTy).Contents (Elt Ideal) :=
  Host.scatterAdd scatter_S100000x40_S1700000x1_S1700000x40_1_0_0_1
    (broadcastInDim S100000x40 ![] bcast_S_S100000x40 (constant (F := Ideal) S_ .f32 0x00000000#32))
    (broadcastInDim S1700000x1 ![0] bcast_S1700000_S1700000x1_0 d)
    (mulf
      (Host.gather gather_S100000x40_S1700000x1_S1700000x40_1_0_n_n_0_1_140 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x40 ![0, 1] bcast_S1700000x1_S1700000x40_0_1 (broadcastInDim S1700000x1 ![0] bcast_S1700000_S1700000x1_0 n)))

/-- With the reference's edge lists and coefficients it is the reference's aggregation of the same features. -/
theorem kAgg128_eq (x1 : (⟨S2x1600000, .i32⟩ : BufTy).Contents (Elt Ideal)) (h : (⟨S100000x128, .f32⟩ : BufTy).Contents (Elt Ideal)) :
    kAgg128 (Cert.ReferenceIdeal.Read.val_main_v3 (F := Ideal) x1) (Cert.ReferenceIdeal.Read.val_main_v6 (F := Ideal) x1) (Cert.ReferenceIdeal.Read.val_main_v30 (F := Ideal) x1) h
      = Cert.ReferenceIdeal.Bridge.aggregate128 x1 h := rfl
theorem kAgg40_eq (x1 : (⟨S2x1600000, .i32⟩ : BufTy).Contents (Elt Ideal)) (h : (⟨S100000x40, .f32⟩ : BufTy).Contents (Elt Ideal)) :
    kAgg40 (Cert.ReferenceIdeal.Read.val_main_v3 (F := Ideal) x1) (Cert.ReferenceIdeal.Read.val_main_v6 (F := Ideal) x1) (Cert.ReferenceIdeal.Read.val_main_v30 (F := Ideal) x1) h
      = Cert.ReferenceIdeal.Bridge.aggregate40 x1 h := rfl

/-- A bias vector cast to a one-row matrix reads, at (0, j), the vector at j. -/
theorem row_cast128 (b : (⟨S128, .f32⟩ : BufTy).Contents (Elt Ideal)) :
    (fun i => shapeCast main_v44.ty.shape b shapeCasts_S128_S1x128 i) = Cert.Gcn.rowOf128 b := by
  funext i
  obtain ⟨u, j, rfl⟩ : ∃ (u : Fin 1) (j : Fin 128), i = ix2 u j := ⟨i 0, i 1, eq_ix2 i⟩
  exact shapeCast_a_1a_apply b shapeCasts_S128_S1x128 u j
theorem row_cast40 (b : (⟨S40, .f32⟩ : BufTy).Contents (Elt Ideal)) :
    (fun i => shapeCast main_v76.ty.shape b shapeCasts_S40_S1x40 i) = Cert.Gcn.rowOf40 b := by
  funext i
  obtain ⟨u, j, rfl⟩ : ∃ (u : Fin 1) (j : Fin 40), i = ix2 u j := ⟨i 0, i 1, eq_ix2 i⟩
  exact shapeCast_a_1a_apply b shapeCasts_S40_S1x40 u j

/-! ## The normalisation coefficients as the kernel's host stretches spell them -/

/-- `jnp.where(deg > 0, rsqrt deg, 0)`: the outlined select against a zero splat. -/
def kWhere (p : (⟨S100000, .i1⟩ : BufTy).Contents (Elt Ideal)) (q : (⟨S100000, .f32⟩ : BufTy).Contents (Elt Ideal)) (z : (⟨S_, .f32⟩ : BufTy).Contents (Elt Ideal)) : (⟨S100000, .f32⟩ : BufTy).Contents (Elt Ideal) :=
  select p q (broadcastInDim S100000 ![] bcast_S_S100000 (id z))

/-- A node index list with negative entries counted from the end. -/
def kFix (s : (⟨S1700000, .i32⟩ : BufTy).Contents (Elt Ideal)) : (⟨S1700000, .i32⟩ : BufTy).Contents (Elt Ideal) :=
  select (cmpi .slt s (broadcastInDim S1700000 ![] bcast_S_S1700000 (constantI S_ 32 0#32)))
    (addi s (broadcastInDim S1700000 ![] bcast_S_S1700000 (constantI S_ 32 100000#32))) s

/-- The coefficient of edge e: w(s(e)) · w(d(e)) for the per-node factor `w`. -/
def kNorm (s d : (⟨S1700000, .i32⟩ : BufTy).Contents (Elt Ideal)) (w : FVec Ideal S100000 .f32) : FVec Ideal S1700000 .f32 :=
  mulf (F := Ideal) (φ := .f32)
    (Host.gather gather_S100000_S1700000x1_S1700000_n_0_n_n_0_1_1 w (broadcastInDim S1700000x1 ![0] bcast_S1700000_S1700000x1_0 (kFix s)))
    (Host.gather gather_S100000_S1700000x1_S1700000_n_0_n_n_0_1_1 w (broadcastInDim S1700000x1 ![0] bcast_S1700000_S1700000x1_0 (kFix d)))

/-- With the reference's stages they are the reference's per-node factor and coefficients. -/
theorem kWhere_eq (x1 : (⟨S2x1600000, .i32⟩ : BufTy).Contents (Elt Ideal)) :
    kWhere (Cert.ReferenceIdeal.Read.val_main_v13 (F := Ideal) x1) (Cert.ReferenceIdeal.Read.val_main_v14 (F := Ideal) x1) (Cert.ReferenceIdeal.Read.val_main_cst_2 (F := Ideal))
      = Cert.ReferenceIdeal.Read.val_main_v15 (F := Ideal) x1 := rfl
theorem kNorm_eq (x1 : (⟨S2x1600000, .i32⟩ : BufTy).Contents (Elt Ideal)) :
    kNorm (Cert.ReferenceIdeal.Read.val_main_v3 (F := Ideal) x1) (Cert.ReferenceIdeal.Read.val_main_v6 (F := Ideal) x1) (Cert.ReferenceIdeal.Read.val_main_v15 (F := Ideal) x1)
      = Cert.ReferenceIdeal.Read.val_main_v30 (F := Ideal) x1 := rfl

/-! ## One segment at a time, from what it is entered with -/

theorem where_step (V : Valuation τ sig (Elt Ideal)) (p : (⟨S100000, .i1⟩ : BufTy).Contents (Elt Ideal)) (q : (⟨S100000, .f32⟩ : BufTy).Contents (Elt Ideal)) (z : (⟨S_, .f32⟩ : BufTy).Contents (Elt Ideal))
    (hp : V (Proc.devRef .tc main_v12) = p) (hq : V (Proc.devRef .tc main_v13) = q) (hz : V (Proc.devRef .tc main_cst_2) = z) :
    after (hostOps0_1 (F := Ideal)) V (Proc.devRef .tc main_v14) = kWhere p q z := by
  simp only [hostOps0_1]; after_results_simp
  simp only [TRef.ofBuf_toBuf]
  rw [hp, hq, hz]
  rfl
theorem norm_step (V : Valuation τ sig (Elt Ideal)) (s d : (⟨S1700000, .i32⟩ : BufTy).Contents (Elt Ideal)) (w : FVec Ideal S100000 .f32)
    (hs : V (Proc.devRef .tc main_v3) = s) (hd : V (Proc.devRef .tc main_v6) = d) (hw : V (Proc.devRef .tc main_v14) = w) :
    after (hostOps0_2 (F := Ideal)) V (Proc.devRef .tc main_v29) = kNorm s d w := by
  simp only [hostOps0_2]; after_results_simp
  rw [hs, hd, hw]
  rfl
theorem where_keep_v3 (V : Valuation τ sig (Elt Ideal)) : after (hostOps0_1 (F := Ideal)) V (Proc.devRef .tc main_v3) = V (Proc.devRef .tc main_v3) := by
  simp only [hostOps0_1]; after_results_simp
theorem where_keep_v6 (V : Valuation τ sig (Elt Ideal)) : after (hostOps0_1 (F := Ideal)) V (Proc.devRef .tc main_v6) = V (Proc.devRef .tc main_v6) := by
  simp only [hostOps0_1]; after_results_simp
theorem norm_keep_v3 (V : Valuation τ sig (Elt Ideal)) : after (hostOps0_2 (F := Ideal)) V (Proc.devRef .tc main_v3) = V (Proc.devRef .tc main_v3) := by
  simp only [hostOps0_2]; after_results_simp
theorem norm_keep_v6 (V : Valuation τ sig (Elt Ideal)) : after (hostOps0_2 (F := Ideal)) V (Proc.devRef .tc main_v6) = V (Proc.devRef .tc main_v6) := by
  simp only [hostOps0_2]; after_results_simp

theorem region0_step (c : Dev nD) (p : (⟨S100000x128, .f32⟩ : BufTy).Contents (Elt Ideal)) (q : (⟨S128x128, .f32⟩ : BufTy).Contents (Elt Ideal))
    (hp : W3 (F := Ideal) m ρ c (Proc.devRef .tc main_arg0) = p) (hq : W3 (F := Ideal) m ρ c (Proc.devRef .tc main_arg2) = q) :
    W4 (F := Ideal) m ρ c (Proc.devRef .tc main_v30) = Cert.Gcn.dense128 p q := by
  subst hp hq
  exact (W4_arr m ρ c 2).trans (Cert.KernelIdeal.Regions.final0 (V3 m ρ) c)
theorem host5_step (c : Dev nD) (s d : (⟨S1700000, .i32⟩ : BufTy).Contents (Elt Ideal)) (n : (⟨S1700000, .f32⟩ : BufTy).Contents (Elt Ideal)) (h : (⟨S100000x128, .f32⟩ : BufTy).Contents (Elt Ideal))
    (hs : W4 (F := Ideal) m ρ c (Proc.devRef .tc main_v3) = s) (hd : W4 (F := Ideal) m ρ c (Proc.devRef .tc main_v6) = d)
    (hn : W4 (F := Ideal) m ρ c (Proc.devRef .tc main_v29) = n) (hh : W4 (F := Ideal) m ρ c (Proc.devRef .tc main_v30) = h) :
    W5 (F := Ideal) m ρ c (Proc.devRef .tc main_v43) = kAgg128 s d n h := by
  subst hs hd hn hh
  dsimp only [W5]; simp only [hostOps1]; after_results_simp
  rfl
theorem host5_row (c : Dev nD) (b : (⟨S128, .f32⟩ : BufTy).Contents (Elt Ideal))
    (hb : W4 (F := Ideal) m ρ c (Proc.devRef .tc main_arg3) = b) :
    W5 (F := Ideal) m ρ c (Proc.devRef .tc main_v44) = Cert.Gcn.rowOf128 b := by
  subst hb
  dsimp only [W5]; simp only [hostOps1]; after_results_simp
  exact row_cast128 _
theorem region1_step (c : Dev nD) (p : (⟨S100000x128, .f32⟩ : BufTy).Contents (Elt Ideal)) (q : (⟨S1x128, .f32⟩ : BufTy).Contents (Elt Ideal))
    (hp : W5 (F := Ideal) m ρ c (Proc.devRef .tc main_v43) = p) (hq : W5 (F := Ideal) m ρ c (Proc.devRef .tc main_v44) = q) :
    W6 (F := Ideal) m ρ c (Proc.devRef .tc main_v45) = Cert.Gcn.biasRelu128 p q := by
  subst hp hq
  exact (W6_arr m ρ c 2).trans (Cert.KernelIdeal.Regions.final1 (V5 m ρ) c)
theorem region2_step (c : Dev nD) (p : (⟨S100000x128, .f32⟩ : BufTy).Contents (Elt Ideal)) (q : (⟨S128x128, .f32⟩ : BufTy).Contents (Elt Ideal))
    (hp : W6 (F := Ideal) m ρ c (Proc.devRef .tc main_v45) = p) (hq : W6 (F := Ideal) m ρ c (Proc.devRef .tc main_arg4) = q) :
    W7 (F := Ideal) m ρ c (Proc.devRef .tc main_v46) = Cert.Gcn.dense128 p q := by
  subst hp hq
  exact (W7_arr m ρ c 2).trans (Cert.KernelIdeal.Regions.final2 (V6 m ρ) c)
theorem host8_step (c : Dev nD) (s d : (⟨S1700000, .i32⟩ : BufTy).Contents (Elt Ideal)) (n : (⟨S1700000, .f32⟩ : BufTy).Contents (Elt Ideal)) (h : (⟨S100000x128, .f32⟩ : BufTy).Contents (Elt Ideal))
    (hs : W7 (F := Ideal) m ρ c (Proc.devRef .tc main_v3) = s) (hd : W7 (F := Ideal) m ρ c (Proc.devRef .tc main_v6) = d)
    (hn : W7 (F := Ideal) m ρ c (Proc.devRef .tc main_v29) = n) (hh : W7 (F := Ideal) m ρ c (Proc.devRef .tc main_v46) = h) :
    W8 (F := Ideal) m ρ c (Proc.devRef .tc main_v59) = kAgg128 s d n h := by
  subst hs hd hn hh
  dsimp only [W8]; simp only [hostOps3]; after_results_simp
  rfl
theorem host8_row (c : Dev nD) (b : (⟨S128, .f32⟩ : BufTy).Contents (Elt Ideal))
    (hb : W7 (F := Ideal) m ρ c (Proc.devRef .tc main_arg5) = b) :
    W8 (F := Ideal) m ρ c (Proc.devRef .tc main_v60) = Cert.Gcn.rowOf128 b := by
  subst hb
  dsimp only [W8]; simp only [hostOps3]; after_results_simp
  exact row_cast128 _
theorem region3_step (c : Dev nD) (p : (⟨S100000x128, .f32⟩ : BufTy).Contents (Elt Ideal)) (q : (⟨S1x128, .f32⟩ : BufTy).Contents (Elt Ideal))
    (hp : W8 (F := Ideal) m ρ c (Proc.devRef .tc main_v59) = p) (hq : W8 (F := Ideal) m ρ c (Proc.devRef .tc main_v60) = q) :
    W9 (F := Ideal) m ρ c (Proc.devRef .tc main_v61) = Cert.Gcn.biasRelu128 p q := by
  subst hp hq
  exact (W9_arr m ρ c 2).trans (Cert.KernelIdeal.Regions.final3 (V8 m ρ) c)
theorem region4_step (c : Dev nD) (p : (⟨S100000x128, .f32⟩ : BufTy).Contents (Elt Ideal)) (q : (⟨S128x40, .f32⟩ : BufTy).Contents (Elt Ideal))
    (hp : W9 (F := Ideal) m ρ c (Proc.devRef .tc main_v61) = p) (hq : W9 (F := Ideal) m ρ c (Proc.devRef .tc main_arg6) = q) :
    W10 (F := Ideal) m ρ c (Proc.devRef .tc main_v62) = Cert.Gcn.dense40 p q := by
  subst hp hq
  exact (W10_arr m ρ c 2).trans (Cert.KernelIdeal.Regions.final4 (V9 m ρ) c)
theorem host11_step (c : Dev nD) (s d : (⟨S1700000, .i32⟩ : BufTy).Contents (Elt Ideal)) (n : (⟨S1700000, .f32⟩ : BufTy).Contents (Elt Ideal)) (h : (⟨S100000x40, .f32⟩ : BufTy).Contents (Elt Ideal))
    (hs : W10 (F := Ideal) m ρ c (Proc.devRef .tc main_v3) = s) (hd : W10 (F := Ideal) m ρ c (Proc.devRef .tc main_v6) = d)
    (hn : W10 (F := Ideal) m ρ c (Proc.devRef .tc main_v29) = n) (hh : W10 (F := Ideal) m ρ c (Proc.devRef .tc main_v62) = h) :
    W11 (F := Ideal) m ρ c (Proc.devRef .tc main_v75) = kAgg40 s d n h := by
  subst hs hd hn hh
  dsimp only [W11]; simp only [hostOps5]; after_results_simp
  rfl
theorem host11_row (c : Dev nD) (b : (⟨S40, .f32⟩ : BufTy).Contents (Elt Ideal))
    (hb : W10 (F := Ideal) m ρ c (Proc.devRef .tc main_arg7) = b) :
    W11 (F := Ideal) m ρ c (Proc.devRef .tc main_v76) = Cert.Gcn.rowOf40 b := by
  subst hb
  dsimp only [W11]; simp only [hostOps5]; after_results_simp
  exact row_cast40 _
theorem region5_step (c : Dev nD) (p : (⟨S100000x40, .f32⟩ : BufTy).Contents (Elt Ideal)) (q : (⟨S1x40, .f32⟩ : BufTy).Contents (Elt Ideal))
    (hp : W11 (F := Ideal) m ρ c (Proc.devRef .tc main_v75) = p) (hq : W11 (F := Ideal) m ρ c (Proc.devRef .tc main_v76) = q) :
    W12 (F := Ideal) m ρ c (Proc.devRef .tc main_v77) = Cert.Gcn.biasRelu40 p q := by
  subst hp hq
  exact (W12_arr m ρ c 2).trans (Cert.KernelIdeal.Regions.final5 (V11 m ρ) c)
theorem region6_step (c : Dev nD) (p : (⟨S100000x40, .f32⟩ : BufTy).Contents (Elt Ideal)) (hp : W12 (F := Ideal) m ρ c (Proc.devRef .tc main_v77) = p) :
    W13 (F := Ideal) m ρ c (Proc.devRef .tc main_v78) = Cert.Gcn.logSoftmax40 p := by
  subst hp
  exact (W13_arr m ρ c 1).trans (Cert.KernelIdeal.Regions.final6 (V12 m ρ) c)

/-! ## Before the first region: the edge lists, the coefficients, the arguments -/

theorem b3_arg0 (c : Dev nD) : W3 (F := Ideal) m ρ c (Proc.devRef .tc main_arg0) = a0 m c := by
  dsimp only [W3, W2, W1]; simp only [hostOps0, hostOps0_1, hostOps0_2]; after_results_simp
theorem b3_arg2 (c : Dev nD) : W3 (F := Ideal) m ρ c (Proc.devRef .tc main_arg2) = a2 m c := by
  dsimp only [W3, W2, W1]; simp only [hostOps0, hostOps0_1, hostOps0_2]; after_results_simp
theorem b3_arg3 (c : Dev nD) : W3 (F := Ideal) m ρ c (Proc.devRef .tc main_arg3) = a3 m c := by
  dsimp only [W3, W2, W1]; simp only [hostOps0, hostOps0_1, hostOps0_2]; after_results_simp
theorem b3_arg4 (c : Dev nD) : W3 (F := Ideal) m ρ c (Proc.devRef .tc main_arg4) = a4 m c := by
  dsimp only [W3, W2, W1]; simp only [hostOps0, hostOps0_1, hostOps0_2]; after_results_simp
theorem b3_arg5 (c : Dev nD) : W3 (F := Ideal) m ρ c (Proc.devRef .tc main_arg5) = a5 m c := by
  dsimp only [W3, W2, W1]; simp only [hostOps0, hostOps0_1, hostOps0_2]; after_results_simp
theorem b3_arg6 (c : Dev nD) : W3 (F := Ideal) m ρ c (Proc.devRef .tc main_arg6) = a6 m c := by
  dsimp only [W3, W2, W1]; simp only [hostOps0, hostOps0_1, hostOps0_2]; after_results_simp
theorem b3_arg7 (c : Dev nD) : W3 (F := Ideal) m ρ c (Proc.devRef .tc main_arg7) = a7 m c := by
  dsimp only [W3, W2, W1]; simp only [hostOps0, hostOps0_1, hostOps0_2]; after_results_simp

/-! After the first stretch: the edge lists, and the degree's compare and inverse square root. -/
theorem b1_v3 (c : Dev nD) : W1 (F := Ideal) m ρ c (Proc.devRef .tc main_v3) = Cert.ReferenceIdeal.Read.val_main_v3 (F := Ideal) (a1 m c) := by
  dsimp only [W1]; simp only [hostOps0]; after_results_simp; host_reads
  rfl
theorem b1_v6 (c : Dev nD) : W1 (F := Ideal) m ρ c (Proc.devRef .tc main_v6) = Cert.ReferenceIdeal.Read.val_main_v6 (F := Ideal) (a1 m c) := by
  dsimp only [W1]; simp only [hostOps0]; after_results_simp; host_reads
  rfl
theorem b1_v12 (c : Dev nD) : W1 (F := Ideal) m ρ c (Proc.devRef .tc main_v12) = Cert.ReferenceIdeal.Read.val_main_v13 (F := Ideal) (a1 m c) := by
  dsimp only [W1]; simp only [hostOps0]; after_results_simp; host_reads
  rfl
theorem b1_v13 (c : Dev nD) : W1 (F := Ideal) m ρ c (Proc.devRef .tc main_v13) = Cert.ReferenceIdeal.Read.val_main_v14 (F := Ideal) (a1 m c) := by
  dsimp only [W1]; simp only [hostOps0]; after_results_simp; host_reads
  rfl
theorem b1_cst_2 (c : Dev nD) : W1 (F := Ideal) m ρ c (Proc.devRef .tc main_cst_2) = Cert.ReferenceIdeal.Read.val_main_cst_2 (F := Ideal) := by
  dsimp only [W1]; simp only [hostOps0]; after_results_simp; host_reads
  rfl

/-! After the outlined select: the per-node factor. -/
theorem b2_v14 (c : Dev nD) : W2 (F := Ideal) m ρ c (Proc.devRef .tc main_v14) = Cert.ReferenceIdeal.Read.val_main_v15 (F := Ideal) (a1 m c) :=
  (where_step (W1 m ρ c) _ _ _ (b1_v12 m ρ c) (b1_v13 m ρ c) (b1_cst_2 m ρ c)).trans (kWhere_eq _)
theorem b2_v3 (c : Dev nD) : W2 (F := Ideal) m ρ c (Proc.devRef .tc main_v3) = Cert.ReferenceIdeal.Read.val_main_v3 (F := Ideal) (a1 m c) :=
  (where_keep_v3 (W1 m ρ c)).trans (b1_v3 m ρ c)
theorem b2_v6 (c : Dev nD) : W2 (F := Ideal) m ρ c (Proc.devRef .tc main_v6) = Cert.ReferenceIdeal.Read.val_main_v6 (F := Ideal) (a1 m c) :=
  (where_keep_v6 (W1 m ρ c)).trans (b1_v6 m ρ c)

/-! After the third stretch: the coefficients. -/
theorem b3_v29 (c : Dev nD) : W3 (F := Ideal) m ρ c (Proc.devRef .tc main_v29) = Cert.ReferenceIdeal.Read.val_main_v30 (F := Ideal) (a1 m c) :=
  (norm_step (W2 m ρ c) _ _ _ (b2_v3 m ρ c) (b2_v6 m ρ c) (b2_v14 m ρ c)).trans (kNorm_eq _)
theorem b3_v3 (c : Dev nD) : W3 (F := Ideal) m ρ c (Proc.devRef .tc main_v3) = Cert.ReferenceIdeal.Read.val_main_v3 (F := Ideal) (a1 m c) :=
  (norm_keep_v3 (W2 m ρ c)).trans (b2_v3 m ρ c)
theorem b3_v6 (c : Dev nD) : W3 (F := Ideal) m ρ c (Proc.devRef .tc main_v6) = Cert.ReferenceIdeal.Read.val_main_v6 (F := Ideal) (a1 m c) :=
  (norm_keep_v6 (W2 m ρ c)).trans (b2_v6 m ρ c)

/-! ## Layer 1 -/

theorem b4_v30 (c : Dev nD) : W4 (F := Ideal) m ρ c (Proc.devRef .tc main_v30) = Cert.ReferenceIdeal.Read.val_main_v7 (F := Ideal) (a0 m c) (a2 m c) :=
  (region0_step m ρ c _ _ (b3_arg0 m ρ c) (b3_arg2 m ρ c)).trans (Cert.ReferenceIdeal.Bridge.dense_v7 _ _).symm
theorem b4_v3 (c : Dev nD) : W4 (F := Ideal) m ρ c (Proc.devRef .tc main_v3) = Cert.ReferenceIdeal.Read.val_main_v3 (F := Ideal) (a1 m c) :=
  (W4_of_ne m ρ c main_v3 (by decide)).trans (b3_v3 m ρ c)
theorem b4_v6 (c : Dev nD) : W4 (F := Ideal) m ρ c (Proc.devRef .tc main_v6) = Cert.ReferenceIdeal.Read.val_main_v6 (F := Ideal) (a1 m c) :=
  (W4_of_ne m ρ c main_v6 (by decide)).trans (b3_v6 m ρ c)
theorem b4_v29 (c : Dev nD) : W4 (F := Ideal) m ρ c (Proc.devRef .tc main_v29) = Cert.ReferenceIdeal.Read.val_main_v30 (F := Ideal) (a1 m c) :=
  (W4_of_ne m ρ c main_v29 (by decide)).trans (b3_v29 m ρ c)
theorem b4_arg3 (c : Dev nD) : W4 (F := Ideal) m ρ c (Proc.devRef .tc main_arg3) = a3 m c :=
  (W4_of_ne m ρ c main_arg3 (by decide)).trans (b3_arg3 m ρ c)
theorem b4_arg4 (c : Dev nD) : W4 (F := Ideal) m ρ c (Proc.devRef .tc main_arg4) = a4 m c :=
  (W4_of_ne m ρ c main_arg4 (by decide)).trans (b3_arg4 m ρ c)
theorem b4_arg5 (c : Dev nD) : W4 (F := Ideal) m ρ c (Proc.devRef .tc main_arg5) = a5 m c :=
  (W4_of_ne m ρ c main_arg5 (by decide)).trans (b3_arg5 m ρ c)
theorem b4_arg6 (c : Dev nD) : W4 (F := Ideal) m ρ c (Proc.devRef .tc main_arg6) = a6 m c :=
  (W4_of_ne m ρ c main_arg6 (by decide)).trans (b3_arg6 m ρ c)
theorem b4_arg7 (c : Dev nD) : W4 (F := Ideal) m ρ c (Proc.devRef .tc main_arg7) = a7 m c :=
  (W4_of_ne m ρ c main_arg7 (by decide)).trans (b3_arg7 m ρ c)

theorem b5_v43 (c : Dev nD) : W5 (F := Ideal) m ρ c (Proc.devRef .tc main_v43) = Cert.ReferenceIdeal.Read.val_main_v43 (F := Ideal) (a0 m c) (a1 m c) (a2 m c) :=
  (host5_step m ρ c _ _ _ _ (b4_v3 m ρ c) (b4_v6 m ρ c) (b4_v29 m ρ c) (b4_v30 m ρ c)).trans
    ((kAgg128_eq _ _).trans (Cert.ReferenceIdeal.Bridge.agg_v43 _ _ _).symm)
theorem b5_v44 (c : Dev nD) : W5 (F := Ideal) m ρ c (Proc.devRef .tc main_v44) = Cert.Gcn.rowOf128 (a3 m c) :=
  host5_row m ρ c _ (b4_arg3 m ρ c)
theorem b5_v3 (c : Dev nD) : W5 (F := Ideal) m ρ c (Proc.devRef .tc main_v3) = Cert.ReferenceIdeal.Read.val_main_v3 (F := Ideal) (a1 m c) :=
  (show W5 (F := Ideal) m ρ c (Proc.devRef .tc main_v3) = W4 m ρ c (Proc.devRef .tc main_v3) by
    dsimp only [W5]; simp only [hostOps1]; after_results_simp).trans (b4_v3 m ρ c)
theorem b5_v6 (c : Dev nD) : W5 (F := Ideal) m ρ c (Proc.devRef .tc main_v6) = Cert.ReferenceIdeal.Read.val_main_v6 (F := Ideal) (a1 m c) :=
  (show W5 (F := Ideal) m ρ c (Proc.devRef .tc main_v6) = W4 m ρ c (Proc.devRef .tc main_v6) by
    dsimp only [W5]; simp only [hostOps1]; after_results_simp).trans (b4_v6 m ρ c)
theorem b5_v29 (c : Dev nD) : W5 (F := Ideal) m ρ c (Proc.devRef .tc main_v29) = Cert.ReferenceIdeal.Read.val_main_v30 (F := Ideal) (a1 m c) :=
  (show W5 (F := Ideal) m ρ c (Proc.devRef .tc main_v29) = W4 m ρ c (Proc.devRef .tc main_v29) by
    dsimp only [W5]; simp only [hostOps1]; after_results_simp).trans (b4_v29 m ρ c)
theorem b5_arg4 (c : Dev nD) : W5 (F := Ideal) m ρ c (Proc.devRef .tc main_arg4) = a4 m c :=
  (show W5 (F := Ideal) m ρ c (Proc.devRef .tc main_arg4) = W4 m ρ c (Proc.devRef .tc main_arg4) by
    dsimp only [W5]; simp only [hostOps1]; after_results_simp).trans (b4_arg4 m ρ c)
theorem b5_arg5 (c : Dev nD) : W5 (F := Ideal) m ρ c (Proc.devRef .tc main_arg5) = a5 m c :=
  (show W5 (F := Ideal) m ρ c (Proc.devRef .tc main_arg5) = W4 m ρ c (Proc.devRef .tc main_arg5) by
    dsimp only [W5]; simp only [hostOps1]; after_results_simp).trans (b4_arg5 m ρ c)
theorem b5_arg6 (c : Dev nD) : W5 (F := Ideal) m ρ c (Proc.devRef .tc main_arg6) = a6 m c :=
  (show W5 (F := Ideal) m ρ c (Proc.devRef .tc main_arg6) = W4 m ρ c (Proc.devRef .tc main_arg6) by
    dsimp only [W5]; simp only [hostOps1]; after_results_simp).trans (b4_arg6 m ρ c)
theorem b5_arg7 (c : Dev nD) : W5 (F := Ideal) m ρ c (Proc.devRef .tc main_arg7) = a7 m c :=
  (show W5 (F := Ideal) m ρ c (Proc.devRef .tc main_arg7) = W4 m ρ c (Proc.devRef .tc main_arg7) by
    dsimp only [W5]; simp only [hostOps1]; after_results_simp).trans (b4_arg7 m ρ c)

theorem b6_v45 (c : Dev nD) : W6 (F := Ideal) m ρ c (Proc.devRef .tc main_v45) = Cert.ReferenceIdeal.Read.val_main_v47 (F := Ideal) (a0 m c) (a1 m c) (a2 m c) (a3 m c) :=
  (region1_step m ρ c _ _ (b5_v43 m ρ c) (b5_v44 m ρ c)).trans (Cert.ReferenceIdeal.Bridge.biasRelu_v47 _ _ _ _).symm
theorem b6_v3 (c : Dev nD) : W6 (F := Ideal) m ρ c (Proc.devRef .tc main_v3) = Cert.ReferenceIdeal.Read.val_main_v3 (F := Ideal) (a1 m c) :=
  (W6_of_ne m ρ c main_v3 (by decide)).trans (b5_v3 m ρ c)
theorem b6_v6 (c : Dev nD) : W6 (F := Ideal) m ρ c (Proc.devRef .tc main_v6) = Cert.ReferenceIdeal.Read.val_main_v6 (F := Ideal) (a1 m c) :=
  (W6_of_ne m ρ c main_v6 (by decide)).trans (b5_v6 m ρ c)
theorem b6_v29 (c : Dev nD) : W6 (F := Ideal) m ρ c (Proc.devRef .tc main_v29) = Cert.ReferenceIdeal.Read.val_main_v30 (F := Ideal) (a1 m c) :=
  (W6_of_ne m ρ c main_v29 (by decide)).trans (b5_v29 m ρ c)
theorem b6_arg4 (c : Dev nD) : W6 (F := Ideal) m ρ c (Proc.devRef .tc main_arg4) = a4 m c :=
  (W6_of_ne m ρ c main_arg4 (by decide)).trans (b5_arg4 m ρ c)
theorem b6_arg5 (c : Dev nD) : W6 (F := Ideal) m ρ c (Proc.devRef .tc main_arg5) = a5 m c :=
  (W6_of_ne m ρ c main_arg5 (by decide)).trans (b5_arg5 m ρ c)
theorem b6_arg6 (c : Dev nD) : W6 (F := Ideal) m ρ c (Proc.devRef .tc main_arg6) = a6 m c :=
  (W6_of_ne m ρ c main_arg6 (by decide)).trans (b5_arg6 m ρ c)
theorem b6_arg7 (c : Dev nD) : W6 (F := Ideal) m ρ c (Proc.devRef .tc main_arg7) = a7 m c :=
  (W6_of_ne m ρ c main_arg7 (by decide)).trans (b5_arg7 m ρ c)

/-! ## Layer 2 -/

theorem b7_v46 (c : Dev nD) : W7 (F := Ideal) m ρ c (Proc.devRef .tc main_v46) = Cert.ReferenceIdeal.Read.val_main_v48 (F := Ideal) (a0 m c) (a1 m c) (a2 m c) (a3 m c) (a4 m c) :=
  (region2_step m ρ c _ _ (b6_v45 m ρ c) (b6_arg4 m ρ c)).trans (Cert.ReferenceIdeal.Bridge.dense_v48 _ _ _ _ _).symm
theorem b7_v3 (c : Dev nD) : W7 (F := Ideal) m ρ c (Proc.devRef .tc main_v3) = Cert.ReferenceIdeal.Read.val_main_v3 (F := Ideal) (a1 m c) :=
  (W7_of_ne m ρ c main_v3 (by decide)).trans (b6_v3 m ρ c)
theorem b7_v6 (c : Dev nD) : W7 (F := Ideal) m ρ c (Proc.devRef .tc main_v6) = Cert.ReferenceIdeal.Read.val_main_v6 (F := Ideal) (a1 m c) :=
  (W7_of_ne m ρ c main_v6 (by decide)).trans (b6_v6 m ρ c)
theorem b7_v29 (c : Dev nD) : W7 (F := Ideal) m ρ c (Proc.devRef .tc main_v29) = Cert.ReferenceIdeal.Read.val_main_v30 (F := Ideal) (a1 m c) :=
  (W7_of_ne m ρ c main_v29 (by decide)).trans (b6_v29 m ρ c)
theorem b7_arg5 (c : Dev nD) : W7 (F := Ideal) m ρ c (Proc.devRef .tc main_arg5) = a5 m c :=
  (W7_of_ne m ρ c main_arg5 (by decide)).trans (b6_arg5 m ρ c)
theorem b7_arg6 (c : Dev nD) : W7 (F := Ideal) m ρ c (Proc.devRef .tc main_arg6) = a6 m c :=
  (W7_of_ne m ρ c main_arg6 (by decide)).trans (b6_arg6 m ρ c)
theorem b7_arg7 (c : Dev nD) : W7 (F := Ideal) m ρ c (Proc.devRef .tc main_arg7) = a7 m c :=
  (W7_of_ne m ρ c main_arg7 (by decide)).trans (b6_arg7 m ρ c)

theorem b8_v59 (c : Dev nD) : W8 (F := Ideal) m ρ c (Proc.devRef .tc main_v59) = Cert.ReferenceIdeal.Read.val_main_v84 (F := Ideal) (a0 m c) (a1 m c) (a2 m c) (a3 m c) (a4 m c) :=
  (host8_step m ρ c _ _ _ _ (b7_v3 m ρ c) (b7_v6 m ρ c) (b7_v29 m ρ c) (b7_v46 m ρ c)).trans
    ((kAgg128_eq _ _).trans (Cert.ReferenceIdeal.Bridge.agg_v84 _ _ _ _ _).symm)
theorem b8_v60 (c : Dev nD) : W8 (F := Ideal) m ρ c (Proc.devRef .tc main_v60) = Cert.Gcn.rowOf128 (a5 m c) :=
  host8_row m ρ c _ (b7_arg5 m ρ c)
theorem b8_v3 (c : Dev nD) : W8 (F := Ideal) m ρ c (Proc.devRef .tc main_v3) = Cert.ReferenceIdeal.Read.val_main_v3 (F := Ideal) (a1 m c) :=
  (show W8 (F := Ideal) m ρ c (Proc.devRef .tc main_v3) = W7 m ρ c (Proc.devRef .tc main_v3) by
    dsimp only [W8]; simp only [hostOps3]; after_results_simp).trans (b7_v3 m ρ c)
theorem b8_v6 (c : Dev nD) : W8 (F := Ideal) m ρ c (Proc.devRef .tc main_v6) = Cert.ReferenceIdeal.Read.val_main_v6 (F := Ideal) (a1 m c) :=
  (show W8 (F := Ideal) m ρ c (Proc.devRef .tc main_v6) = W7 m ρ c (Proc.devRef .tc main_v6) by
    dsimp only [W8]; simp only [hostOps3]; after_results_simp).trans (b7_v6 m ρ c)
theorem b8_v29 (c : Dev nD) : W8 (F := Ideal) m ρ c (Proc.devRef .tc main_v29) = Cert.ReferenceIdeal.Read.val_main_v30 (F := Ideal) (a1 m c) :=
  (show W8 (F := Ideal) m ρ c (Proc.devRef .tc main_v29) = W7 m ρ c (Proc.devRef .tc main_v29) by
    dsimp only [W8]; simp only [hostOps3]; after_results_simp).trans (b7_v29 m ρ c)
theorem b8_arg6 (c : Dev nD) : W8 (F := Ideal) m ρ c (Proc.devRef .tc main_arg6) = a6 m c :=
  (show W8 (F := Ideal) m ρ c (Proc.devRef .tc main_arg6) = W7 m ρ c (Proc.devRef .tc main_arg6) by
    dsimp only [W8]; simp only [hostOps3]; after_results_simp).trans (b7_arg6 m ρ c)
theorem b8_arg7 (c : Dev nD) : W8 (F := Ideal) m ρ c (Proc.devRef .tc main_arg7) = a7 m c :=
  (show W8 (F := Ideal) m ρ c (Proc.devRef .tc main_arg7) = W7 m ρ c (Proc.devRef .tc main_arg7) by
    dsimp only [W8]; simp only [hostOps3]; after_results_simp).trans (b7_arg7 m ρ c)

theorem b9_v61 (c : Dev nD) : W9 (F := Ideal) m ρ c (Proc.devRef .tc main_v61) = Cert.ReferenceIdeal.Read.val_main_v88 (F := Ideal) (a0 m c) (a1 m c) (a2 m c) (a3 m c) (a4 m c) (a5 m c) :=
  (region3_step m ρ c _ _ (b8_v59 m ρ c) (b8_v60 m ρ c)).trans (Cert.ReferenceIdeal.Bridge.biasRelu_v88 _ _ _ _ _ _).symm
theorem b9_v3 (c : Dev nD) : W9 (F := Ideal) m ρ c (Proc.devRef .tc main_v3) = Cert.ReferenceIdeal.Read.val_main_v3 (F := Ideal) (a1 m c) :=
  (W9_of_ne m ρ c main_v3 (by decide)).trans (b8_v3 m ρ c)
theorem b9_v6 (c : Dev nD) : W9 (F := Ideal) m ρ c (Proc.devRef .tc main_v6) = Cert.ReferenceIdeal.Read.val_main_v6 (F := Ideal) (a1 m c) :=
  (W9_of_ne m ρ c main_v6 (by decide)).trans (b8_v6 m ρ c)
theorem b9_v29 (c : Dev nD) : W9 (F := Ideal) m ρ c (Proc.devRef .tc main_v29) = Cert.ReferenceIdeal.Read.val_main_v30 (F := Ideal) (a1 m c) :=
  (W9_of_ne m ρ c main_v29 (by decide)).trans (b8_v29 m ρ c)
theorem b9_arg6 (c : Dev nD) : W9 (F := Ideal) m ρ c (Proc.devRef .tc main_arg6) = a6 m c :=
  (W9_of_ne m ρ c main_arg6 (by decide)).trans (b8_arg6 m ρ c)
theorem b9_arg7 (c : Dev nD) : W9 (F := Ideal) m ρ c (Proc.devRef .tc main_arg7) = a7 m c :=
  (W9_of_ne m ρ c main_arg7 (by decide)).trans (b8_arg7 m ρ c)

/-! ## Layer 3 and the log-softmax -/

theorem b10_v62 (c : Dev nD) : W10 (F := Ideal) m ρ c (Proc.devRef .tc main_v62) = Cert.ReferenceIdeal.Read.val_main_v89 (F := Ideal) (a0 m c) (a1 m c) (a2 m c) (a3 m c) (a4 m c) (a5 m c) (a6 m c) :=
  (region4_step m ρ c _ _ (b9_v61 m ρ c) (b9_arg6 m ρ c)).trans (Cert.ReferenceIdeal.Bridge.dense_v89 _ _ _ _ _ _ _).symm
theorem b10_v3 (c : Dev nD) : W10 (F := Ideal) m ρ c (Proc.devRef .tc main_v3) = Cert.ReferenceIdeal.Read.val_main_v3 (F := Ideal) (a1 m c) :=
  (W10_of_ne m ρ c main_v3 (by decide)).trans (b9_v3 m ρ c)
theorem b10_v6 (c : Dev nD) : W10 (F := Ideal) m ρ c (Proc.devRef .tc main_v6) = Cert.ReferenceIdeal.Read.val_main_v6 (F := Ideal) (a1 m c) :=
  (W10_of_ne m ρ c main_v6 (by decide)).trans (b9_v6 m ρ c)
theorem b10_v29 (c : Dev nD) : W10 (F := Ideal) m ρ c (Proc.devRef .tc main_v29) = Cert.ReferenceIdeal.Read.val_main_v30 (F := Ideal) (a1 m c) :=
  (W10_of_ne m ρ c main_v29 (by decide)).trans (b9_v29 m ρ c)
theorem b10_arg7 (c : Dev nD) : W10 (F := Ideal) m ρ c (Proc.devRef .tc main_arg7) = a7 m c :=
  (W10_of_ne m ρ c main_arg7 (by decide)).trans (b9_arg7 m ρ c)

theorem b11_v75 (c : Dev nD) : W11 (F := Ideal) m ρ c (Proc.devRef .tc main_v75) = Cert.ReferenceIdeal.Read.val_main_v125 (F := Ideal) (a0 m c) (a1 m c) (a2 m c) (a3 m c) (a4 m c) (a5 m c) (a6 m c) :=
  (host11_step m ρ c _ _ _ _ (b10_v3 m ρ c) (b10_v6 m ρ c) (b10_v29 m ρ c) (b10_v62 m ρ c)).trans
    ((kAgg40_eq _ _).trans (Cert.ReferenceIdeal.Bridge.agg_v125 _ _ _ _ _ _ _).symm)
theorem b11_v76 (c : Dev nD) : W11 (F := Ideal) m ρ c (Proc.devRef .tc main_v76) = Cert.Gcn.rowOf40 (a7 m c) :=
  host11_row m ρ c _ (b10_arg7 m ρ c)

theorem b12_v77 (c : Dev nD) : W12 (F := Ideal) m ρ c (Proc.devRef .tc main_v77) = Cert.ReferenceIdeal.Read.val_main_v129 (F := Ideal) (a0 m c) (a1 m c) (a2 m c) (a3 m c) (a4 m c) (a5 m c) (a6 m c) (a7 m c) :=
  (region5_step m ρ c _ _ (b11_v75 m ρ c) (b11_v76 m ρ c)).trans (Cert.ReferenceIdeal.Bridge.biasRelu_v129 _ _ _ _ _ _ _ _).symm

/-- The result array after the last region is the reference's result stage of the argument arrays. -/
theorem result_eq (c : Dev nD) : W13 (F := Ideal) m ρ c (Proc.devRef .tc main_v78) = Cert.ReferenceIdeal.Read.val_main_v130 (F := Ideal) (a0 m c) (a1 m c) (a2 m c) (a3 m c) (a4 m c) (a5 m c) (a6 m c) (a7 m c) :=
  (region6_step m ρ c _ (b12_v77 m ρ c)).trans (Cert.ReferenceIdeal.Bridge.logSoftmax_eq _ _ _ _ _ _ _ _).symm

end Cert.KernelIdeal.Chain

end
-- ==== Proof.lean ====
/-
  A three-layer graph-convolution network on 100000 nodes and 1.7 million edges (1.6 million given, one self loop per
  node): the kernel computes each layer's dense product, its bias-and-ReLU and the final log-softmax in tiled regions
  (ten blocks of 10000 rows) and leaves the neighbourhood aggregation to the host; the reference does everything on the
  host. On the extended reals both are the same composition of the same functions of the eight arguments:

      logSoftmax (biasRelu (agg (dense (biasRelu (agg (dense (biasRelu (agg (dense x W1)) b1) W2)) b2) W3)) b3)

  where `agg` gathers each edge's source row, scales it by the edge's symmetric normalisation coefficient and scatter-adds
  it into the edge's target row. A tiled region equals the whole-array function because a block's rows depend only on
  the same rows of its input (and on the whole weight matrix or bias row); a rounding to bf16 before a product is the
  identity on the extended reals; the aggregation is the same host operations on both sides. No law of arithmetic beyond
  reading each operation at an index is used, so the finiteness of the inputs is never opened.

  The frames of the two kernel programs are the generated ones; the reference's frame is its run with the result dropped;
  the idealization rewrote nothing, so `preserves` is trivial.
-/
import proofs.«176480_j51831665328310_1_alg».proof.Defs
import proofs.«176480_j51831665328310_1_alg».proof.Proof.Gen.Kernel
import proofs.«176480_j51831665328310_1_alg».proof.Proof.Gen.Kernel.Skeleton
import proofs.«176480_j51831665328310_1_alg».proof.Proof.Gen.Kernel.Launch
import proofs.«176480_j51831665328310_1_alg».proof.Proof.Gen.Kernel.Points
import proofs.«176480_j51831665328310_1_alg».proof.Proof.Gen.Kernel.Frame
import proofs.«176480_j51831665328310_1_alg».proof.Proof.Gen.KernelIdeal
import proofs.«176480_j51831665328310_1_alg».proof.Proof.Gen.KernelIdeal.Skeleton
import proofs.«176480_j51831665328310_1_alg».proof.Proof.Gen.KernelIdeal.Launch
import proofs.«176480_j51831665328310_1_alg».proof.Proof.Gen.KernelIdeal.Points
import proofs.«176480_j51831665328310_1_alg».proof.Proof.Gen.KernelIdeal.Frame
import proofs.«176480_j51831665328310_1_alg».proof.Proof.Gen.ReferenceIdeal
import proofs.«176480_j51831665328310_1_alg».proof.Proof.Gen.Pre_finite_inputs
import proofs.«176480_j51831665328310_1_alg».proof.Proof.RefChain
import proofs.«176480_j51831665328310_1_alg».proof.Proof.KernelRun
import proofs.«176480_j51831665328310_1_alg».proof.Proof.KernelChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no region: its frame is its run with the result dropped. -/
theorem frame_ri : Cert.frame_ReferenceIdeal := fun m ρ _ =>
  (θ_run Cert.ReferenceIdeal.defs _ _).mono (fun _ h c => (h c).2) (Cert.ReferenceIdeal.Chain.run m ρ)

/-- The idealization rewrote no operation. -/
theorem preserves : Cert.preserves_Kernel_KernelIdeal := trivial

/-- Both runs end with the result array at the reference's result stage of the arguments: the kernel's by the chain of
    its segments, the reference's by its own run, the arguments agreeing. -/
theorem algebraic : Cert.algebraic_KernelIdeal_ReferenceIdeal := by
  intro m ρ m' ρ' _ hagree
  refine ⟨fun c => Cert.ReferenceIdeal.Read.val_main_v130 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Chain.run m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
